-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x2048 : Shape := ⟨3, ![2, 2048, 2048]⟩
abbrev S6144x2048 : Shape := ⟨2, ![6144, 2048]⟩
abbrev S6144 : Shape := ⟨1, ![6144]⟩
abbrev S2048x2048 : Shape := ⟨2, ![2048, 2048]⟩
abbrev S2048 : Shape := ⟨1, ![2048]⟩
abbrev S_ : Shape := ⟨0, ![]⟩

class Facts : Prop where
  bcast_S_S2x2048x2048 : S_.BroadcastsInDim S2x2048x2048 (![] : Fin 0 → Fin S2x2048x2048.rank)
  reducesTo_S2x2048x2048_S_d0_1_2 : S2x2048x2048.ReducesTo [0, 1, 2] S_
  h_S_ : 0 < S_.numel
  bcast_S_S6144x2048 : S_.BroadcastsInDim S6144x2048 (![] : Fin 0 → Fin S6144x2048.rank)
  reducesTo_S6144x2048_S_d0_1 : S6144x2048.ReducesTo [0, 1] S_
  bcast_S_S6144 : S_.BroadcastsInDim S6144 (![] : Fin 0 → Fin S6144.rank)
  reducesTo_S6144_S_d0 : S6144.ReducesTo [0] S_
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  main_v23

def fn {F : FTy → Type} [FloatOps F] (main_arg0 : FVec F S2x2048x2048 .f32) (main_arg1 : FVec F S6144x2048 .f32) (main_arg2 : FVec F S6144 .f32) (main_arg3 : FVec F S2048x2048 .f32) (main_arg4 : FVec F S2048 .f32) : IVec S_ 1 :=
  let main_v0 : FVec F S2x2048x2048 .f32 := Host.absf main_arg0
  let main_cst : FVec F S_ .f32 := constant S_ .f32 0x7F800000#32
  let main_v1 : FVec F S2x2048x2048 .f32 := broadcastInDim S2x2048x2048 ![] bcast_S_S2x2048x2048 main_cst
  let main_v2 : IVec S2x2048x2048 1 := cmpf .olt main_v0 main_v1
  let main_c : IVec S_ 1 := constantI S_ 1 1#1
  let main_v3 : IVec S_ 1 := (fun x v => Host.reduce IntOp.andi x v reducesTo_S2x2048x2048_S_d0_1_2 h_S_) main_v2 main_c
  let main_v4 : FVec F S6144x2048 .f32 := Host.absf main_arg1
  let main_cst_0 : FVec F S_ .f32 := constant S_ .f32 0x7F800000#32
  let main_v5 : FVec F S6144x2048 .f32 := broadcastInDim S6144x2048 ![] bcast_S_S6144x2048 main_cst_0
  let main_v6 : IVec S6144x2048 1 := cmpf .olt main_v4 main_v5
  let main_c_1 : IVec S_ 1 := constantI S_ 1 1#1
  let main_v7 : IVec S_ 1 := (fun x v => Host.reduce IntOp.andi x v reducesTo_S6144x2048_S_d0_1 h_S_) main_v6 main_c_1
  let main_v8 : IVec S_ 1 := andi main_v3 main_v7
  let main_v9 : FVec F S6144 .f32 := Host.absf main_arg2
  let main_cst_2 : FVec F S_ .f32 := constant S_ .f32 0x7F800000#32
  let main_v10 : FVec F S6144 .f32 := broadcastInDim S6144 ![] bcast_S_S6144 main_cst_2
  let main_v11 : IVec S6144 1 := cmpf .olt main_v9 main_v10
  let main_c_3 : IVec S_ 1 := constantI S_ 1 1#1
  let main_v12 : IVec S_ 1 := (fun x v => Host.reduce IntOp.andi x v reducesTo_S6144_S_d0 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_v13 main_v16
-- ==== Kernel.lean ====
abbrev S2x2048x2048 : Shape := ⟨3, ![2, 2048, 2048]⟩
abbrev S6144x2048 : Shape := ⟨2, ![6144, 2048]⟩
abbrev S6144 : Shape := ⟨1, ![6144]⟩
abbrev S2048x2048 : Shape := ⟨2, ![2048, 2048]⟩
abbrev S2048 : Shape := ⟨1, ![2048]⟩
abbrev S4096x2048 : Shape := ⟨2, ![4096, 2048]⟩
abbrev S1x6144 : Shape := ⟨2, ![1, 6144]⟩
abbrev S4096x6144 : Shape := ⟨2, ![4096, 6144]⟩
abbrev S1024x2048 : Shape := ⟨2, ![1024, 2048]⟩
abbrev S1x1024 : Shape := ⟨2, ![1, 1024]⟩
abbrev S1024x1024 : Shape := ⟨2, ![1024, 1024]⟩
abbrev S2x2048x6144 : Shape := ⟨3, ![2, 2048, 6144]⟩
abbrev S1x1024x128 : Shape := ⟨3, ![1, 1024, 128]⟩
abbrev S1x2048x128 : Shape := ⟨3, ![1, 2048, 128]⟩
abbrev S1024x128 : Shape := ⟨2, ![1024, 128]⟩
abbrev S2048x128 : Shape := ⟨2, ![2048, 128]⟩
abbrev S1024 : Shape := ⟨1, ![1024]⟩
abbrev S1024x1 : Shape := ⟨2, ![1024, 1]⟩
abbrev S1x2048 : Shape := ⟨2, ![1, 2048]⟩
abbrev S512x2048 : Shape := ⟨2, ![512, 2048]⟩

abbrev nBuf : Space → Nat
  | .hbm => 17
  | .vmem => 22
  | .smem => 0
  | _ => 0

abbrev bufTy : (tb : Table) → Fin (tcTables nBuf tb) → BufTy
  | .hbm, ⟨0, _⟩ => ⟨S2x2048x2048, .f32⟩
  | .hbm, ⟨1, _⟩ => ⟨S6144x2048, .f32⟩
  | .hbm, ⟨2, _⟩ => ⟨S6144, .f32⟩
  | .hbm, ⟨3, _⟩ => ⟨S2048x2048, .f32⟩
  | .hbm, ⟨4, _⟩ => ⟨S2048, .f32⟩
  | .hbm, ⟨5, _⟩ => ⟨S4096x2048, .f32⟩
  | .hbm, ⟨6, _⟩ => ⟨S4096x2048, .bf16⟩
  | .hbm, ⟨7, _⟩ => ⟨S6144x2048, .bf16⟩
  | .hbm, ⟨8, _⟩ => ⟨S2048x2048, .bf16⟩
  | .hbm, ⟨9, _⟩ => ⟨S1x6144, .f32⟩
  | .hbm, ⟨10, _⟩ => ⟨S4096x6144, .bf16⟩
  | .hbm, ⟨11, _⟩ => ⟨S2x2048x6144, .bf16⟩
  | .hbm, ⟨12, _⟩ => ⟨S2x2048x2048, .bf16⟩
  | .hbm, ⟨13, _⟩ => ⟨S4096x2048, .bf16⟩
  | .hbm, ⟨14, _⟩ => ⟨S1x2048, .f32⟩
  | .hbm, ⟨15, _⟩ => ⟨S4096x2048, .f32⟩
  | .hbm, ⟨16, _⟩ => ⟨S2x2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1x1024x128, .bf16⟩
  | .local _ .vmem, ⟨9, _⟩ => ⟨S1x1024x128, .bf16⟩
  | .local _ .vmem, ⟨10, _⟩ => ⟨S1x2048x128, .bf16⟩
  | .local _ .vmem, ⟨11, _⟩ => ⟨S1x2048x128, .bf16⟩
  | .local _ .vmem, ⟨12, _⟩ => ⟨S1x2048x128, .bf16⟩
  | .local _ .vmem, ⟨13, _⟩ => ⟨S1x2048x128, .bf16⟩
  | .local _ .vmem, ⟨14, _⟩ => ⟨S1x1024x128, .bf16⟩
  | .local _ .vmem, ⟨15, _⟩ => ⟨S1x1024x128, .bf16⟩
  | .local _ .vmem, ⟨16, _⟩ => ⟨S512x2048, .bf16⟩
  | .local _ .vmem, ⟨17, _⟩ => ⟨S512x2048, .bf16⟩
  | .local _ .vmem, ⟨18, _⟩ => ⟨S2048x2048, .bf16⟩
  | .local _ .vmem, ⟨19, _⟩ => ⟨S1x2048, .f32⟩
  | .local _ .vmem, ⟨20, _⟩ => ⟨S512x2048, .f32⟩
  | .local _ .vmem, ⟨21, _⟩ => ⟨S512x2048, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![2, 16, 2], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  let c0_i32_0 : BitVec 32 := 0#32
  ![arg0.toNat, c0_i32.toNat, v0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 2 → Memref sig .tc .vmem S1x1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x1024x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev grid2 : Pipeline.Grid := ⟨2, ![8, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S2048x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 1 → Memref sig .tc .vmem S1x2048 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, true]

abbrev stage2_3 : Fin 2 → Memref sig .tc .vmem S512x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  shapeCasts_S2x2048x2048_S4096x2048 : S2x2048x2048.ShapeCasts S4096x2048
  bitsLt_bf16_f32 : FTy.bits .bf16 < FTy.bits .f32
  shapeCasts_S6144_S1x6144 : S6144.ShapeCasts S1x6144
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  packedbf16_S1024x1024_S1024x1024_0_0 : (Rect.unit (s := S1024x1024) ![0, 0] S1024x1024.size inb_S1024x1024_S1024x1024_0_0).PackedRows (EltTy.packing .bf16)
  shapeCasts_S4096x6144_S2x2048x6144 : S4096x6144.ShapeCasts S2x2048x6144
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  reduces_S1024x2048_S1024 : S1024x2048.Reduces [1] S1024
  shapeCasts_S1024_S1024x1 : S1024.ShapeCasts S1024x1
  broadcasts_S1024x1_S1024x2048 : S1024x1.Broadcasts S1024x2048
  shapeCasts_S1024x128_S1x1024x128 : S1024x128.ShapeCasts S1x1024x128
  packedbf16_S1x1024x128_S1x1024x128_0_0_0 : (Rect.unit (s := S1x1024x128) ![0, 0, 0] S1x1024x128.size inb_S1x1024x128_S1x1024x128_0_0_0).PackedRows (EltTy.packing .bf16)
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  shapeCasts_S4096x2048_S2x2048x2048 : S4096x2048.ShapeCasts S2x2048x2048
  dot_S1024x2048_S1024x2048_S1024x1024_1_1_0_0_n_n_wf : DotDims.WF S1024x2048 S1024x2048 S1024x1024 [1] [1] [0] [0] [] []
  dot_S1024x128_S2048x128_S1024x2048_1_1_0_0_n_n_wf : DotDims.WF S1024x128 S2048x128 S1024x2048 [1] [1] [0] [0] [] []
  dot_S1024x2048_S2048x128_S1024x128_1_0_0_1_n_n_wf : DotDims.WF S1024x2048 S2048x128 S1024x128 [1] [0] [0] [1] [] []
  dot_S512x2048_S2048x2048_S512x2048_1_1_0_0_n_n_wf : DotDims.WF S512x2048 S2048x2048 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S4096x2048.size a
  hwx0_0 : ∀ i : grid0.Coords, EltTy.bits .bf16 = 32 ∨ (Rect.block (s := S4096x2048) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S6144x2048.size a
  hwx0_1 : ∀ i : grid0.Coords, EltTy.bits .bf16 = 32 ∨ (Rect.block (s := S6144x2048) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x6144.size a
  hwx0_2 : ∀ i : grid0.Coords, EltTy.bits .f32 = 32 ∨ (Rect.block (s := S1x6144) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x6144.size a
  hwx0_3 : ∀ i : grid0.Coords, EltTy.bits .bf16 = 32 ∨ (Rect.block (s := S4096x6144) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x128.size a ≤ S2x2048x6144.size a
  hwx1_0 : ∀ i : grid1.Coords, EltTy.bits .bf16 = 32 ∨ (Rect.block (s := S2x2048x6144) S1x1024x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x128.size a ≤ S2x2048x6144.size a
  hwx1_1 : ∀ i : grid1.Coords, EltTy.bits .bf16 = 32 ∨ (Rect.block (s := S2x2048x6144) S1x2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x128.size a ≤ S2x2048x6144.size a
  hwx1_2 : ∀ i : grid1.Coords, EltTy.bits .bf16 = 32 ∨ (Rect.block (s := S2x2048x6144) S1x2048x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x128.size a ≤ S2x2048x2048.size a
  hwx1_3 : ∀ i : grid1.Coords, EltTy.bits .bf16 = 32 ∨ (Rect.block (s := S2x2048x2048) S1x1024x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x2048.size a ≤ S4096x2048.size a
  hwx2_0 : ∀ i : grid2.Coords, EltTy.bits .bf16 = 32 ∨ (Rect.block (s := S4096x2048) S512x2048.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2048x2048.size a ≤ S2048x2048.size a
  hwx2_1 : ∀ i : grid2.Coords, EltTy.bits .bf16 = 32 ∨ (Rect.block (s := S2048x2048) S2048x2048.size (cc2_transform_1 i) (hinb2_1 i)).WholeWords (EltTy.packing .bf16)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S1x2048.size a ≤ S1x2048.size a
  hwx2_2 : ∀ i : grid2.Coords, EltTy.bits .f32 = 32 ∨ (Rect.block (s := S1x2048) S1x2048.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x2048.size a ≤ S4096x2048.size a
  hwx2_3 : ∀ i : grid2.Coords, EltTy.bits .f32 = 32 ∨ (Rect.block (s := S4096x2048) S512x2048.size (cc2_transform_3 i) (hinb2_3 i)).WholeWords (EltTy.packing .f32)

variable [Facts₀]

def dot_S1024x2048_S1024x2048_S1024x1024_1_1_0_0_n_n : DotDims S1024x2048 S1024x2048 S1024x1024 where
  lhsContracting := [1]
  rhsContracting := [1]
  lhsNonContracting := [0]
  rhsNonContracting := [0]
  lhsBatch := []
  rhsBatch := []
  wf := dot_S1024x2048_S1024x2048_S1024x1024_1_1_0_0_n_n_wf
def dot_S1024x128_S2048x128_S1024x2048_1_1_0_0_n_n : DotDims S1024x128 S2048x128 S1024x2048 where
  lhsContracting := [1]
  rhsContracting := [1]
  lhsNonContracting := [0]
  rhsNonContracting := [0]
  lhsBatch := []
  rhsBatch := []
  wf := dot_S1024x128_S2048x128_S1024x2048_1_1_0_0_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf

abbrev win0_0 : Pipeline.Window sig grid0 :=
  Pipeline.Window.ofSpec (Memref.whole main_v1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6) S1x1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v8) S512x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S2048x2048.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v9) S1x2048.size cc2_transform_2 reads2_2 false false 1 stage2_2 sem2_2
    hrank2 hreads2_2 hinb2_2 nbuf2_2 (Memref.isWhole_whole _) hwx2_2 hstage2_2

abbrev win2_3 : Pipeline.Window sig grid2 :=
  Pipeline.Window.ofSpec (Memref.whole main_v10) S512x2048.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2x2048x2048 : Shape := ⟨3, ![2, 2048, 2048]⟩
abbrev S6144x2048 : Shape := ⟨2, ![6144, 2048]⟩
abbrev S6144 : Shape := ⟨1, ![6144]⟩
abbrev S2048x2048 : Shape := ⟨2, ![2048, 2048]⟩
abbrev S2048 : Shape := ⟨1, ![2048]⟩
abbrev S2x2048x6144 : Shape := ⟨3, ![2, 2048, 6144]⟩
abbrev S1x1x6144 : Shape := ⟨3, ![1, 1, 6144]⟩
abbrev S2x2048x3x16x128 : Shape := ⟨5, ![2, 2048, 3, 16, 128]⟩
abbrev S3x2x16x2048x128 : Shape := ⟨5, ![3, 2, 16, 2048, 128]⟩
abbrev S1x2x16x2048x128 : Shape := ⟨5, ![1, 2, 16, 2048, 128]⟩
abbrev S2x16x2048x128 : Shape := ⟨4, ![2, 16, 2048, 128]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩
abbrev S2x2048x16x128 : Shape := ⟨4, ![2, 2048, 16, 128]⟩
abbrev S1x1x2048 : Shape := ⟨3, ![1, 1, 2048]⟩

abbrev nBuf : Space → Nat
  | .hbm => 42
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S6144x2048, .f32⟩
  | .hbm, ⟨2, _⟩ => ⟨S6144, .f32⟩
  | .hbm, ⟨3, _⟩ => ⟨S2048x2048, .f32⟩
  | .hbm, ⟨4, _⟩ => ⟨S2048, .f32⟩
  | .hbm, ⟨5, _⟩ => ⟨S2x2048x6144, .f32⟩
  | .hbm, ⟨6, _⟩ => ⟨S1x1x6144, .f32⟩
  | .hbm, ⟨7, _⟩ => ⟨S2x2048x6144, .f32⟩
  | .hbm, ⟨8, _⟩ => ⟨S2x2048x6144, .f32⟩
  | .hbm, ⟨9, _⟩ => ⟨S2x2048x3x16x128, .f32⟩
  | .hbm, ⟨10, _⟩ => ⟨S3x2x16x2048x128, .f32⟩
  | .hbm, ⟨11, _⟩ => ⟨S1x2x16x2048x128, .f32⟩
  | .hbm, ⟨12, _⟩ => ⟨S2x16x2048x128, .f32⟩
  | .hbm, ⟨13, _⟩ => ⟨S1x2x16x2048x128, .f32⟩
  | .hbm, ⟨14, _⟩ => ⟨S2x16x2048x128, .f32⟩
  | .hbm, ⟨15, _⟩ => ⟨S1x2x16x2048x128, .f32⟩
  | .hbm, ⟨16, _⟩ => ⟨S2x16x2048x128, .f32⟩
  | .hbm, ⟨17, _⟩ => ⟨S2x16x2048x2048, .f32⟩
  | .hbm, ⟨18, _⟩ => ⟨S_, .f32⟩
  | .hbm, ⟨19, _⟩ => ⟨S2x16x2048x2048, .f32⟩
  | .hbm, ⟨20, _⟩ => ⟨S2x16x2048x2048, .f32⟩
  | .hbm, ⟨21, _⟩ => ⟨S_, .f32⟩
  | .hbm, ⟨22, _⟩ => ⟨S2x16x2048, .f32⟩
  | .hbm, ⟨23, _⟩ => ⟨S_, .f32⟩
  | .hbm, ⟨24, _⟩ => ⟨S2x16x2048, .f32⟩
  | .hbm, ⟨25, _⟩ => ⟨S2x16x2048, .f32⟩
  | .hbm, ⟨26, _⟩ => ⟨S2x16x2048x1, .f32⟩
  | .hbm, ⟨27, _⟩ => ⟨S2x16x2048x2048, .f32⟩
  | .hbm, ⟨28, _⟩ => ⟨S2x16x2048x2048, .f32⟩
  | .hbm, ⟨29, _⟩ => ⟨S2x16x2048x2048, .f32⟩
  | .hbm, ⟨30, _⟩ => ⟨S_, .f32⟩
  | .hbm, ⟨31, _⟩ => ⟨S2x16x2048, .f32⟩
  | .hbm, ⟨32, _⟩ => ⟨S2x16x2048x1, .f32⟩
  | .hbm, ⟨33, _⟩ => ⟨S2x16x2048x2048, .f32⟩
  | .hbm, ⟨34, _⟩ => ⟨S2x16x2048x2048, .f32⟩
  | .hbm, ⟨35, _⟩ => ⟨S2x16x2048x128, .f32⟩
  | .hbm, ⟨36, _⟩ => ⟨S2x2048x16x128, .f32⟩
  | .hbm, ⟨37, _⟩ => ⟨S2x2048x2048, .f32⟩
  | .hbm, ⟨38, _⟩ => ⟨S2x2048x2048, .f32⟩
  | .hbm, ⟨39, _⟩ => ⟨S1x1x2048, .f32⟩
  | .hbm, ⟨40, _⟩ => ⟨S2x2048x2048, .f32⟩
  | .hbm, ⟨41, _⟩ => ⟨S2x2048x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]

class Facts₀ : Prop where
  bcast_S6144_S1x1x6144_2 : S6144.BroadcastsInDim S1x1x6144 (![2] : Fin 1 → Fin S1x1x6144.rank)
  bcast_S1x1x6144_S2x2048x6144_0_1_2 : S1x1x6144.BroadcastsInDim S2x2048x6144 (![0, 1, 2] : Fin 3 → Fin S2x2048x6144.rank)
  shapeCasts_S2x2048x6144_S2x2048x3x16x128 : S2x2048x6144.ShapeCasts S2x2048x3x16x128
  transposes_S2x2048x3x16x128_S3x2x16x2048x128_2_0_3_1_4 : S2x2048x3x16x128.Transposes [2, 0, 3, 1, 4] S3x2x16x2048x128
  slices_S3x2x16x2048x128_S1x2x16x2048x128_0_0_0_0_0 : S3x2x16x2048x128.Slices ![0, 0, 0, 0, 0] S1x2x16x2048x128
  shapeCasts_S1x2x16x2048x128_S2x16x2048x128 : S1x2x16x2048x128.ShapeCasts S2x16x2048x128
  slices_S3x2x16x2048x128_S1x2x16x2048x128_1_0_0_0_0 : S3x2x16x2048x128.Slices ![1, 0, 0, 0, 0] S1x2x16x2048x128
  slices_S3x2x16x2048x128_S1x2x16x2048x128_2_0_0_0_0 : S3x2x16x2048x128.Slices ![2, 0, 0, 0, 0] S1x2x16x2048x128
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x128_S2x2048x16x128_0_2_1_3 : S2x16x2048x128.Transposes [0, 2, 1, 3] S2x2048x16x128
  shapeCasts_S2x2048x16x128_S2x2048x2048 : S2x2048x16x128.ShapeCasts S2x2048x2048
  bcast_S2048_S1x1x2048_2 : S2048.BroadcastsInDim S1x1x2048 (![2] : Fin 1 → Fin S1x1x2048.rank)
  bcast_S1x1x2048_S2x2048x2048_0_1_2 : S1x1x2048.BroadcastsInDim S2x2048x2048 (![0, 1, 2] : Fin 3 → Fin S2x2048x2048.rank)
  dot_S2x2048x2048_S6144x2048_S2x2048x6144_2_1_01_0_n_n_wf : DotDims.WF S2x2048x2048 S6144x2048 S2x2048x6144 [2] [1] [0, 1] [0] [] []
  dot_S2x16x2048x128_S2x16x2048x128_S2x16x2048x2048_3_3_2_2_01_01_wf : DotDims.WF S2x16x2048x128 S2x16x2048x128 S2x16x2048x2048 [3] [3] [2] [2] [0, 1] [0, 1]
  dot_S2x16x2048x2048_S2x16x2048x128_S2x16x2048x128_3_2_2_3_01_01_wf : DotDims.WF S2x16x2048x2048 S2x16x2048x128 S2x16x2048x128 [3] [2] [2] [3] [0, 1] [0, 1]
  dot_S2x2048x2048_S2048x2048_S2x2048x2048_2_1_01_0_n_n_wf : DotDims.WF S2x2048x2048 S2048x2048 S2x2048x2048 [2] [1] [0, 1] [0] [] []

variable [Facts₀]

def dot_S2x2048x2048_S6144x2048_S2x2048x6144_2_1_01_0_n_n : DotDims S2x2048x2048 S6144x2048 S2x2048x6144 where
  lhsContracting := [2]
  rhsContracting := [1]
  lhsNonContracting := [0, 1]
  rhsNonContracting := [0]
  lhsBatch := []
  rhsBatch := []
  wf := dot_S2x2048x2048_S6144x2048_S2x2048x6144_2_1_01_0_n_n_wf
def dot_S2x16x2048x128_S2x16x2048x128_S2x16x2048x2048_3_3_2_2_01_01 : DotDims S2x16x2048x128 S2x16x2048x128 S2x16x2048x2048 where
  lhsContracting := [3]
  rhsContracting := [3]
  lhsNonContracting := [2]
  rhsNonContracting := [2]
  lhsBatch := [0, 1]
  rhsBatch := [0, 1]
  wf := dot_S2x16x2048x128_S2x16x2048x128_S2x16x2048x2048_3_3_2_2_01_01_wf
def dot_S2x16x2048x2048_S2x16x2048x128_S2x16x2048x128_3_2_2_3_01_01 : DotDims S2x16x2048x2048 S2x16x2048x128 S2x16x2048x128 where
  lhsContracting := [3]
  rhsContracting := [2]
  lhsNonContracting := [2]
  rhsNonContracting := [3]
  lhsBatch := [0, 1]
  rhsBatch := [0, 1]
  wf := dot_S2x16x2048x2048_S2x16x2048x128_S2x16x2048x128_3_2_2_3_01_01_wf
def dot_S2x2048x2048_S2048x2048_S2x2048x2048_2_1_01_0_n_n : DotDims S2x2048x2048 S2048x2048 S2x2048x2048 where
  lhsContracting := [2]
  rhsContracting := [1]
  lhsNonContracting := [0, 1]
  rhsNonContracting := [0]
  lhsBatch := []
  rhsBatch := []
  wf := dot_S2x2048x2048_S2048x2048_S2x2048x2048_2_1_01_0_n_n_wf

class Facts : Prop extends Facts₀ where

variable [Facts]
-- ==== Proof.BodiesK.lean ====
/-
  The three kernel bodies as separation-logic triples, at any float instance.

  Each body loads its input tiles whole, computes one pure value from them and stores it over its whole output
  tile (it also loads the output tile first, a value it never uses). So run on whole staging buffers — the inputs
  at known contents, the output at anything — a body ends with the inputs as they were and the output holding
  the body's pure function of the input tiles, whatever the output held before.
-/
import proofs.«101674_j89970974917190_2_alg».proof.Proof.Gen.Kernel.Launch
import proofs.«101674_j89970974917190_2_alg».proof.Proof.Gen.Kernel.Skeleton
import proofs.«101674_j89970974917190_2_alg».proof.Proof.Gen.Kernel.Points
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole-tile rectangles the bodies read and write through -/

abbrev rA0 : Rect S1024x2048 := Rect.unit (s := S1024x2048) ![0, 0] S1024x2048.size inb_S1024x2048_S1024x2048_0_0
abbrev rB0 : Rect S1x1024 := Rect.unit (s := S1x1024) ![0, 0] S1x1024.size inb_S1x1024_S1x1024_0_0
abbrev rO0 : Rect S1024x1024 := Rect.unit (s := S1024x1024) ![0, 0] S1024x1024.size inb_S1024x1024_S1024x1024_0_0
abbrev rQ1 : Rect S1x1024x128 := Rect.unit (s := S1x1024x128) ![0, 0, 0] S1x1024x128.size inb_S1x1024x128_S1x1024x128_0_0_0
abbrev rK1 : Rect S1x2048x128 := Rect.unit (s := S1x2048x128) ![0, 0, 0] S1x2048x128.size inb_S1x2048x128_S1x2048x128_0_0_0
abbrev rA2 : Rect S512x2048 := Rect.unit (s := S512x2048) ![0, 0] S512x2048.size inb_S512x2048_S512x2048_0_0
abbrev rW2 : Rect S2048x2048 := Rect.unit (s := S2048x2048) ![0, 0] S2048x2048.size inb_S2048x2048_S2048x2048_0_0
abbrev rB2 : Rect S1x2048 := Rect.unit (s := S1x2048) ![0, 0] S1x2048.size inb_S1x2048_S1x2048_0_0

/-! ## What each body leaves in its output tile -/

/-- The first linear body's output tile: its one store, of the body's pure value of the three input tiles. -/
def out0 (x0 x1 : Vec F S1024x2048 .bf16) (x2 : Vec F S1x1024 .f32) : Vec F S1024x1024 .bf16 :=
  View.canon [⟨rO0, k0_pay1 (View.ld x0 rA0) (View.ld x1 rA0) (View.ld x2 rB0)⟩]

theorem cover0 (p0 : Vec F S1024x1024 .bf16) (y : S1024x1024.Idx) :
    ∃ pc ∈ ([⟨rO0, p0⟩] : List (View.Piece (Elt F) S1024x1024 .bf16)), y ∈ pc.1.set :=
  View.cover_of_tiled [⟨rO0, p0⟩] S1024x1024.size (by rfl) y

/-- The attention body's output tile. -/
def out1 (x0 : Vec F S1x1024x128 .bf16) (x1 x2 : Vec F S1x2048x128 .bf16) : Vec F S1x1024x128 .bf16 :=
  View.canon [⟨rQ1, k1_pay1 (View.ld x0 rQ1) (View.ld x1 rK1) (View.ld x2 rK1)⟩]

theorem cover1 (p0 : Vec F S1x1024x128 .bf16) (y : S1x1024x128.Idx) :
    ∃ pc ∈ ([⟨rQ1, p0⟩] : List (View.Piece (Elt F) S1x1024x128 .bf16)), y ∈ pc.1.set :=
  View.cover_of_tiled [⟨rQ1, p0⟩] S1x1024x128.size (by rfl) y

/-- The second linear body's output tile. -/
def out2 (x0 : Vec F S512x2048 .bf16) (x1 : Vec F S2048x2048 .bf16) (x2 : Vec F S1x2048 .f32) : Vec F S512x2048 .f32 :=
  View.canon [⟨rA2, k2_pay1 (View.ld x0 rA2) (View.ld x1 rW2) (View.ld x2 rB2)⟩]

theorem cover2 (p0 : Vec F S512x2048 .f32) (y : S512x2048.Idx) :
    ∃ pc ∈ ([⟨rA2, p0⟩] : List (View.Piece (Elt F) S512x2048 .f32)), y ∈ pc.1.set :=
  View.cover_of_tiled [⟨rA2, p0⟩] S512x2048.size (by rfl) y

/-! ## The bodies' triples -/

set_option maxHeartbeats 1000000 in
theorem sound_kernel0 (c : Dev nD) (E : Set ℕ) (i : grid0.Coords)
    (arg2 : Memref sig .tc .vmem S1024x2048 .bf16) (harg2 : arg2.IsWhole) (arg3 : Memref sig .tc .vmem S1024x2048 .bf16) (harg3 : arg3.IsWhole)
    (arg4 : Memref sig .tc .vmem S1x1024 .f32) (harg4 : arg4.IsWhole) (arg5 : Memref sig .tc .vmem S1024x1024 .bf16) (harg5 : arg5.IsWhole)
    (x0 x1 : Vec F S1024x2048 .bf16) (x2 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0 x0 x1 x2)) -∗ K ⟨⟩))
      ⊢ wp frame (wpE (defs₀ (F := F)) Variants.none c none) E (cc0__linear_kernel i arg2 harg2 arg3 harg3 arg4 harg4 arg5 harg5) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0 _)

set_option maxHeartbeats 1000000 in
theorem sound_kernel1 (c : Dev nD) (E : Set ℕ) (i : grid1.Coords)
    (arg3 : Memref sig .tc .vmem S1x1024x128 .bf16) (harg3 : arg3.IsWhole) (arg4 : Memref sig .tc .vmem S1x2048x128 .bf16) (harg4 : arg4.IsWhole)
    (arg5 : Memref sig .tc .vmem S1x2048x128 .bf16) (harg5 : arg5.IsWhole) (arg6 : Memref sig .tc .vmem S1x1024x128 .bf16) (harg6 : arg6.IsWhole)
    (x0 : Vec F S1x1024x128 .bf16) (x1 x2 : Vec F S1x2048x128 .bf16) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (out1 x0 x1 x2)) -∗ K ⟨⟩))
      ⊢ wp frame (wpE (defs₀ (F := F)) Variants.none c none) E (cc1__attn_kernel i arg3 harg3 arg4 harg4 arg5 harg5 arg6 harg6) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1 _)

set_option maxHeartbeats 1000000 in
theorem sound_kernel2 (c : Dev nD) (E : Set ℕ) (i : grid2.Coords)
    (arg2 : Memref sig .tc .vmem S512x2048 .bf16) (harg2 : arg2.IsWhole) (arg3 : Memref sig .tc .vmem S2048x2048 .bf16) (harg3 : arg3.IsWhole)
    (arg4 : Memref sig .tc .vmem S1x2048 .f32) (harg4 : arg4.IsWhole) (arg5 : Memref sig .tc .vmem S512x2048 .f32) (harg5 : arg5.IsWhole)
    (x0 : Vec F S512x2048 .bf16) (x1 : Vec F S2048x2048 .bf16) (x2 : Vec F S1x2048 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out2 x0 x1 x2)) -∗ K ⟨⟩))
      ⊢ wp frame (wpE (defs₀ (F := F)) Variants.none c none) E (cc2__linear_kernel i arg2 harg2 arg3 harg3 arg4 harg4 arg5 harg5) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2 _)

end Cert.Kernel.Hand

end
-- ==== Proof.RegionsK.lean ====
/-
  The three kernel regions, each at a parameter `V` — the buffer contents the region is entered with: what every
  window's tile holds at a grid point, the proof data of the pipeline (after the body an input's staging buffer
  holds its tile, the output's holds the body's pure function of the input tiles), and the body obligation at every
  grid point. The attention region reads one array through three windows, so its proof data hold that array at
  three shares that make up the whole.
-/
import proofs.«101674_j89970974917190_2_alg».proof.Proof.BodiesK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0 -/

/-- Window `w`'s tile at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The proof data: the arrays as the region finds them; after the body an input's buffer holds its tile and the
    output's the body's function of the three input tiles; the invariant untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

/-! # Region 1 -/

/-- Window `w`'s tile at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The proof data: the arrays as the region finds them; after the body an input's buffer holds its tile and the
    output's the body's function of the three input tiles; the invariant untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 (iblk1 V c 0 t) (iblk1 V c 1 t) (iblk1 V c 2 t)
  Φ _ := Pipeline.ΦA spec1 c
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

/-! # Region 2 -/

/-- Window `w`'s tile at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The proof data: the arrays as the region finds them; after the body an input's buffer holds its tile and the
    output's the body's function of the three input tiles; the invariant untouched; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.RunK.lean ====
/-
  The run of the whole program: the buffer contents at every boundary between a stretch of host operations and a
  kernel region as a fold from the launch memory, every pipeline's proof data at its region's entry contents, each
  stretch and each region as a segment over the thread state "every unscoped buffer at the boundary's contents, the
  generator register at some state, nothing owed", and the launch over the segments: every weakly fair execution
  terminates without a fault, the result buffer ends at the last boundary's contents and every argument as launched.
  The attention region is handed one array through three windows: at its entry that array's full share is split in
  three, at its exit the three shares are joined again.
-/
import proofs.«101674_j89970974917190_2_alg».proof.Proof.RegionsK
import proofs.«101674_j89970974917190_2_alg».proof.Proof.Gen.Kernel.Regions
import Idealize.ShloMosaic.Lib.Pipeline.RegionsLoop
import Idealize.ShloMosaic.Lib.Pipeline.FrameSuffix
import Idealize.ShloMosaic.Lib.Ring

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev B0 : Dev nD → Valuation τ sig (Elt F) := fun c b => m (c, b)
/-- After the first stretch (the fused projection's entry). -/
abbrev B1 : Dev nD → Valuation τ sig (Elt F) := fun c => StableHlo.after hostOps0 (B0 m c)
abbrev R1 : (c : Dev nD) → (b : Ref sig .tc) → Buf (Elt F) ((c : Thread nD τ).loc b) := fun c b => B1 m c b
/-- At the fused projection's exit: its arrays at what the pipeline leaves, every other buffer as entered. -/
def B2 (c : Dev nD) : Valuation τ sig (Elt F) :=
  Pipeline.withArrays spec0 c (B1 m c) fun w => (dat0 (R1 m) c).arrAt w cfg0.N
theorem B2_arr (c : Dev nD) (w : Fin cfg0.W) :
    B2 m c (Proc.devRef .tc (Pipeline.arrRef spec0 w)) = (dat0 (R1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev R2 : (c : Dev nD) → (b : Ref sig .tc) → Buf (Elt F) ((c : Thread nD τ).loc b) := fun c b => B2 m c b
theorem hF0 (c : Dev nD) (w : Fin cfg0.W) : (dat0 (R1 m) c).arrAt w cfg0.N = R2 m c (Pipeline.arrRef spec0 w) :=
  (B2_arr m c w).symm
theorem hrest0 (c : Dev nD) : ∀ b, b ∉ Finset.univ.image (Pipeline.arrRef spec0) → R2 m c b = R1 m c b :=
  fun b hb => B2_of_ne m c b fun w e => hb (Finset.mem_image.mpr ⟨w, Finset.mem_univ _, e⟩)

/-- After the second stretch (the attention region's entry). -/
abbrev B3 : Dev nD → Valuation τ sig (Elt F) := fun c => StableHlo.after hostOps1 (B2 m c)
abbrev R3 : (c : Dev nD) → (b : Ref sig .tc) → Buf (Elt F) ((c : Thread nD τ).loc b) := fun c b => B3 m c b
/-- At the attention region's exit: its output array at what the pipeline leaves, every other buffer as entered. -/
def B4 (c : Dev nD) : Valuation τ sig (Elt F) :=
  Function.update (B3 m c) (Proc.devRef .tc main_v7) ((dat1 (R3 m) c).arrAt 3 cfg1.N)
theorem B4_out (c : Dev nD) : B4 m c (Proc.devRef .tc main_v7) = (dat1 (R3 m) c).arrAt 3 cfg1.N := by
  unfold B4; exact Function.update_self ..
theorem B4_of_ne (c : Dev nD) (b : Ref sig .tc) (hb : b ≠ main_v7) :
    B4 m c (Proc.devRef .tc b) = B3 m c (Proc.devRef .tc b) := by
  unfold B4; exact Function.update_of_ne (StableHlo.devRef_ne_of_ne hb) ..
abbrev R4 : (c : Dev nD) → (b : Ref sig .tc) → Buf (Elt F) ((c : Thread nD τ).loc b) := fun c b => B4 m c b

/-- After the third stretch (the final projection's entry). -/
abbrev B5 : Dev nD → Valuation τ sig (Elt F) := fun c => StableHlo.after hostOps2 (B4 m c)
abbrev R5 : (c : Dev nD) → (b : Ref sig .tc) → Buf (Elt F) ((c : Thread nD τ).loc b) := fun c b => B5 m c b
/-- At the final projection's exit. -/
def B6 (c : Dev nD) : Valuation τ sig (Elt F) :=
  Pipeline.withArrays spec2 c (B5 m c) fun w => (dat2 (R5 m) c).arrAt w cfg2.N
theorem B6_arr (c : Dev nD) (w : Fin cfg2.W) :
    B6 m c (Proc.devRef .tc (Pipeline.arrRef spec2 w)) = (dat2 (R5 m) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m c (Proc.devRef .tc b) = B5 m c (Proc.devRef .tc b) := by
  unfold B6; exact Pipeline.withArrays_of_ne spec2 c _ _ b hb
abbrev R6 : (c : Dev nD) → (b : Ref sig .tc) → Buf (Elt F) ((c : Thread nD τ).loc b) := fun c b => B6 m c b
theorem hF2 (c : Dev nD) (w : Fin cfg2.W) : (dat2 (R5 m) c).arrAt w cfg2.N = R6 m c (Pipeline.arrRef spec2 w) :=
  (B6_arr m c w).symm
theorem hrest2 (c : Dev nD) : ∀ b, b ∉ Finset.univ.image (Pipeline.arrRef spec2) → R6 m c b = R5 m c b :=
  fun b hb => B6_of_ne m c b fun w e => hb (Finset.mem_image.mpr ⟨w, Finset.mem_univ _, e⟩)

/-- After the last stretch: the end. -/
abbrev B7 : Dev nD → Valuation τ sig (Elt F) := fun c => StableHlo.after hostOps3 (B6 m c)

/-! ## The arguments end as launched: no host operation writes one and no region has one among its arrays -/

theorem B7_main_arg0 (c : Dev nD) : B7 m c (Proc.devRef .tc main_arg0) = m ((c : Thread nD τ).loc main_arg0) :=
  calc B7 m c (Proc.devRef .tc main_arg0)
    _ = B6 m c (Proc.devRef .tc main_arg0) := StableHlo.after_of_writes_sub hostOps3 _ hostOps3_writes (r := main_arg0) (by decide)
    _ = B5 m c (Proc.devRef .tc main_arg0) := B6_of_ne m c main_arg0 (by decide)
    _ = B4 m c (Proc.devRef .tc main_arg0) := StableHlo.after_of_writes_sub hostOps2 _ hostOps2_writes (r := main_arg0) (by decide)
    _ = B3 m c (Proc.devRef .tc main_arg0) := B4_of_ne m c main_arg0 (by decide)
    _ = B2 m c (Proc.devRef .tc main_arg0) := StableHlo.after_of_writes_sub hostOps1 _ hostOps1_writes (r := main_arg0) (by decide)
    _ = B1 m c (Proc.devRef .tc main_arg0) := B2_of_ne m c main_arg0 (by decide)
    _ = B0 m c (Proc.devRef .tc main_arg0) := StableHlo.after_of_writes_sub hostOps0 _ hostOps0_writes (r := main_arg0) (by decide)
    _ = m ((c : Thread nD τ).loc main_arg0) := rfl

theorem B7_main_arg1 (c : Dev nD) : B7 m c (Proc.devRef .tc main_arg1) = m ((c : Thread nD τ).loc main_arg1) :=
  calc B7 m c (Proc.devRef .tc main_arg1)
    _ = B6 m c (Proc.devRef .tc main_arg1) := StableHlo.after_of_writes_sub hostOps3 _ hostOps3_writes (r := main_arg1) (by decide)
    _ = B5 m c (Proc.devRef .tc main_arg1) := B6_of_ne m c main_arg1 (by decide)
    _ = B4 m c (Proc.devRef .tc main_arg1) := StableHlo.after_of_writes_sub hostOps2 _ hostOps2_writes (r := main_arg1) (by decide)
    _ = B3 m c (Proc.devRef .tc main_arg1) := B4_of_ne m c main_arg1 (by decide)
    _ = B2 m c (Proc.devRef .tc main_arg1) := StableHlo.after_of_writes_sub hostOps1 _ hostOps1_writes (r := main_arg1) (by decide)
    _ = B1 m c (Proc.devRef .tc main_arg1) := B2_of_ne m c main_arg1 (by decide)
    _ = B0 m c (Proc.devRef .tc main_arg1) := StableHlo.after_of_writes_sub hostOps0 _ hostOps0_writes (r := main_arg1) (by decide)
    _ = m ((c : Thread nD τ).loc main_arg1) := rfl

theorem B7_main_arg2 (c : Dev nD) : B7 m c (Proc.devRef .tc main_arg2) = m ((c : Thread nD τ).loc main_arg2) :=
  calc B7 m c (Proc.devRef .tc main_arg2)
    _ = B6 m c (Proc.devRef .tc main_arg2) := StableHlo.after_of_writes_sub hostOps3 _ hostOps3_writes (r := main_arg2) (by decide)
    _ = B5 m c (Proc.devRef .tc main_arg2) := B6_of_ne m c main_arg2 (by decide)
    _ = B4 m c (Proc.devRef .tc main_arg2) := StableHlo.after_of_writes_sub hostOps2 _ hostOps2_writes (r := main_arg2) (by decide)
    _ = B3 m c (Proc.devRef .tc main_arg2) := B4_of_ne m c main_arg2 (by decide)
    _ = B2 m c (Proc.devRef .tc main_arg2) := StableHlo.after_of_writes_sub hostOps1 _ hostOps1_writes (r := main_arg2) (by decide)
    _ = B1 m c (Proc.devRef .tc main_arg2) := B2_of_ne m c main_arg2 (by decide)
    _ = B0 m c (Proc.devRef .tc main_arg2) := StableHlo.after_of_writes_sub hostOps0 _ hostOps0_writes (r := main_arg2) (by decide)
    _ = m ((c : Thread nD τ).loc main_arg2) := rfl

theorem B7_main_arg3 (c : Dev nD) : B7 m c (Proc.devRef .tc main_arg3) = m ((c : Thread nD τ).loc main_arg3) :=
  calc B7 m c (Proc.devRef .tc main_arg3)
    _ = B6 m c (Proc.devRef .tc main_arg3) := StableHlo.after_of_writes_sub hostOps3 _ hostOps3_writes (r := main_arg3) (by decide)
    _ = B5 m c (Proc.devRef .tc main_arg3) := B6_of_ne m c main_arg3 (by decide)
    _ = B4 m c (Proc.devRef .tc main_arg3) := StableHlo.after_of_writes_sub hostOps2 _ hostOps2_writes (r := main_arg3) (by decide)
    _ = B3 m c (Proc.devRef .tc main_arg3) := B4_of_ne m c main_arg3 (by decide)
    _ = B2 m c (Proc.devRef .tc main_arg3) := StableHlo.after_of_writes_sub hostOps1 _ hostOps1_writes (r := main_arg3) (by decide)
    _ = B1 m c (Proc.devRef .tc main_arg3) := B2_of_ne m c main_arg3 (by decide)
    _ = B0 m c (Proc.devRef .tc main_arg3) := StableHlo.after_of_writes_sub hostOps0 _ hostOps0_writes (r := main_arg3) (by decide)
    _ = m ((c : Thread nD τ).loc main_arg3) := rfl

theorem B7_main_arg4 (c : Dev nD) : B7 m c (Proc.devRef .tc main_arg4) = m ((c : Thread nD τ).loc main_arg4) :=
  calc B7 m c (Proc.devRef .tc main_arg4)
    _ = B6 m c (Proc.devRef .tc main_arg4) := StableHlo.after_of_writes_sub hostOps3 _ hostOps3_writes (r := main_arg4) (by decide)
    _ = B5 m c (Proc.devRef .tc main_arg4) := B6_of_ne m c main_arg4 (by decide)
    _ = B4 m c (Proc.devRef .tc main_arg4) := StableHlo.after_of_writes_sub hostOps2 _ hostOps2_writes (r := main_arg4) (by decide)
    _ = B3 m c (Proc.devRef .tc main_arg4) := B4_of_ne m c main_arg4 (by decide)
    _ = B2 m c (Proc.devRef .tc main_arg4) := StableHlo.after_of_writes_sub hostOps1 _ hostOps1_writes (r := main_arg4) (by decide)
    _ = B1 m c (Proc.devRef .tc main_arg4) := B2_of_ne m c main_arg4 (by decide)
    _ = B0 m c (Proc.devRef .tc main_arg4) := StableHlo.after_of_writes_sub hostOps0 _ hostOps0_writes (r := main_arg4) (by decide)
    _ = m ((c : Thread nD τ).loc main_arg4) := rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (R1 m) c
  | ⟨1, _⟩ => fun c => dat1 (R3 m) c
  | ⟨2, _⟩ => fun c => dat2 (R5 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (B7 m c) ∗ ∃ r, prngReg c r)

/-! ## The regions as segments -/

set_option backward.isDefEq.respectTransparency.types false in
/-- Region 0: entered with every unscoped buffer at the contents before it, left with them at the contents after
    it; its arrays split out of the unscoped buffers and put back at what the pipeline leaves; the generator register
    into the invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (R1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (R1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (R1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (R1 m c) (R2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered with every unscoped buffer at the contents before it, left with them at the contents after
    it; its arrays split out of the unscoped buffers and put back at what the pipeline leaves; the generator register
    into the invariant and out; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (R5 m) c).loose
  hwaits := Pipeline.hwaits_of_owed_zero _ _ _ _ L lv 2 fun _ _ => rfl
  pre c := iprop(StableHlo.held (c : Thread nD τ) (Pipeline.ucRefs τ sig) (B5 m c) ∗ R c)
  post c := iprop(StableHlo.held (c : Thread nD τ) (Pipeline.ucRefs τ sig) (B6 m c) ∗ R c)
  X c := iprop(∃ r, prngReg c r)
  Y c := iprop(∃ r, prngReg c r)
  Z c := Pipeline.unscopedRest (Ix := Unit) (Name := ℕ) (U := UR sig nD τ) (Lvl := ℕ) spec2 c (R5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (R5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (R5 m c) (R6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The attention region: one array through three windows -/

/-- The attention region's arrays are two buffers: the fused projection (three windows) and the output. -/
theorem image_arr1 : Finset.univ.image (Pipeline.arrRef spec1) = ({main_v6, main_v7} : Finset (Ref sig .tc)) := by decide

/-- The buffers behind the attention region's arrays, one by one. -/
theorem arrBufs1_eq (c : Dev nD) (Vc : (b : Ref sig .tc) → Buf (Elt F) ((c : Thread nD τ).loc b)) :
    (Pipeline.arrBufs (Ix := Unit) (Name := ℕ) (U := UR sig nD τ) (Lvl := ℕ) spec1 c Vc : sProp 𝕄)
      = iprop((((c : Thread nD τ).loc main_v6) ↦{fullShare} Vc main_v6) ∗ (((c : Thread nD τ).loc main_v7) ↦{fullShare} Vc main_v7)) := by
  unfold Pipeline.arrBufs
  rw [image_arr1, bigSep_insert (by decide), bigSep_singleton]
  rfl

/-- A buffer held whole is held at three shares that make up the whole, and conversely. -/
theorem three_shares {ℓ : Loc nD τ sig} (f : Buf (Elt F) ℓ) :
    ((ℓ ↦{fullShare} f : sProp 𝕄))
      = iprop((ℓ ↦{fullShare.left} f) ∗ (ℓ ↦{fullShare.right.left} f) ∗ (ℓ ↦{fullShare.right.right} f)) :=
  Entails.antisymm
    ((pointsTo_share (PosShare.mem_left_op_right fullShare)).mp.trans
      (sep_mono .rfl (pointsTo_share (PosShare.mem_left_op_right fullShare.right)).mp))
    ((sep_mono .rfl (pointsTo_share (PosShare.mem_left_op_right fullShare.right)).mpr).trans
      (pointsTo_share (PosShare.mem_left_op_right fullShare)).mpr)

/-- Regrouping four separate parts. -/
theorem assoc4 (A B C D : sProp 𝕄) : iprop((A ∗ B ∗ C) ∗ D) = iprop(A ∗ B ∗ C ∗ D) :=
  Entails.antisymm
    (show iprop((A ∗ B ∗ C) ∗ D) ⊢ iprop(A ∗ B ∗ C ∗ D) from by
      iintro ⟨⟨H1, H2, H3⟩, H4⟩
      isplitl [H1]; · iexact H1
      isplitl [H2]; · iexact H2
      isplitl [H3]; · iexact H3
      iexact H4)
    (show iprop(A ∗ B ∗ C ∗ D) ⊢ iprop((A ∗ B ∗ C) ∗ D) from by
      iintro ⟨H1, H2, H3, H4⟩
      isplitl [H1 H2 H3]
      · isplitl [H1]; · iexact H1
        isplitl [H2]; · iexact H2
        iexact H3
      iexact H4)

/-- The two buffers, the first at its three shares. -/
theorem arrBufs1_eq4 (c : Dev nD) (Vc : (b : Ref sig .tc) → Buf (Elt F) ((c : Thread nD τ).loc b)) :
    (Pipeline.arrBufs (Ix := Unit) (Name := ℕ) (U := UR sig nD τ) (Lvl := ℕ) spec1 c Vc : sProp 𝕄)
      = iprop((((c : Thread nD τ).loc main_v6) ↦{fullShare.left} Vc main_v6) ∗ (((c : Thread nD τ).loc main_v6) ↦{fullShare.right.left} Vc main_v6)
          ∗ (((c : Thread nD τ).loc main_v6) ↦{fullShare.right.right} Vc main_v6) ∗ (((c : Thread nD τ).loc main_v7) ↦{fullShare} Vc main_v7)) := by
  rw [arrBufs1_eq, three_shares, assoc4]

/-- The attention region's arrays — the fused projection at the three input windows' shares, the output whole — are
    the two buffers behind them held whole, when the three input windows see the same contents. -/
theorem arrays1_eq (c : Dev nD) (V : (c : Dev nD) → (b : Ref sig .tc) → Buf (Elt F) ((c : Thread nD τ).loc b))
    (Vc : (b : Ref sig .tc) → Buf (Elt F) ((c : Thread nD τ).loc b))
    (Fv : (w : Fin cfg1.W) → Buf (Elt F) ((cfg1.win w).arr.view.loc (c.tc : Thread nD τ)))
    (h0 : Fv 0 = Vc main_v6) (h1 : Fv 1 = Vc main_v6) (h2 : Fv 2 = Vc main_v6) (h3 : Fv 3 = Vc main_v7) :
    ((dat1 V c).arrays Fv : sProp 𝕄) = Pipeline.arrBufs (Ix := Unit) (Name := ℕ) (U := UR sig nD τ) (Lvl := ℕ) spec1 c Vc := by
  rw [arrBufs1_eq4]
  unfold Dat.arrays
  rw [bigSep_W1, (arr_whole1 0).set_eq_univ, (arr_whole1 3).set_eq_univ, h0, h1, h2, h3]
  rfl

set_option backward.isDefEq.respectTransparency.types false in
/-- The attention region over the thread state: at its entry the fused projection's buffer is split in three shares
    for the three windows that read it, at its exit the shares are joined again; only the output buffer changes. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (R3 m) c).loose
  hwaits := Pipeline.hwaits_of_owed_zero _ _ _ _ L lv 1 fun _ _ => rfl
  pre c := iprop(StableHlo.held (c : Thread nD τ) (Pipeline.ucRefs τ sig) (B3 m c) ∗ R c)
  post c := iprop(StableHlo.held (c : Thread nD τ) (Pipeline.ucRefs τ sig) (B4 m c) ∗ R c)
  X c := iprop(∃ r, prngReg c r)
  Y c := iprop(∃ r, prngReg c r)
  Z c := Pipeline.unscopedRest (Ix := Unit) (Name := ℕ) (U := UR sig nD τ) (Lvl := ℕ) spec1 c (R3 m c)
  hentry c := by
    rw [Pipeline.ownSems0_none]
    have hsplit : (StableHlo.held (c : Thread nD τ) (Pipeline.ucRefs τ sig) (B3 m c) : sProp 𝕄)
        = iprop((pdats m 1 c).arrays ((pdats m 1 c).arrAt · 0)
            ∗ Pipeline.unscopedRest (Ix := Unit) (Name := ℕ) (U := UR sig nD τ) (Lvl := ℕ) spec1 c (R3 m c)) := by
      have h1 : (unscopedBufs c (R3 m c) : sProp 𝕄)
          = iprop(Pipeline.arrBufs (Ix := Unit) (Name := ℕ) (U := UR sig nD τ) (Lvl := ℕ) spec1 c (R3 m c)
              ∗ Pipeline.unscopedRest (Ix := Unit) (Name := ℕ) (U := UR sig nD τ) (Lvl := ℕ) spec1 c (R3 m c)) :=
        Pipeline.unscopedBufs_split₀ cfgs 1 winFacts₀1.arr_unscoped c (R3 m c)
      rw [← Pipeline.unscopedBufs_held c (B3 m c), h1]
      rw [show (pdats m 1 c) = dat1 (R3 m) c from rfl, arrays1_eq c (R3 m) (R3 m c) _ rfl rfl rfl rfl]
    rw [hsplit]
    iintro ⟨⟨⟨Ha, Hrest⟩, Hp, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hrest : (Pipeline.unscopedRest (Ix := Unit) (Name := ℕ) (U := UR sig nD τ) (Lvl := ℕ) spec1 c (R3 m c) : sProp 𝕄)
        = Pipeline.unscopedRest (Ix := Unit) (Name := ℕ) (U := UR sig nD τ) (Lvl := ℕ) spec1 c (R4 m c) := by
      unfold Pipeline.unscopedRest
      refine bigSep_congr fun b hb => ?_
      rw [show R4 m c b = R3 m c b from B4_of_ne m c b fun e =>
        (Finset.mem_sdiff.mp hb).2 (by rw [image_arr1, e]; decide)]
    have hjoin : (StableHlo.held (c : Thread nD τ) (Pipeline.ucRefs τ sig) (B4 m c) : sProp 𝕄)
        = iprop((pdats m 1 c).arrays ((pdats m 1 c).arrAt · cfg1.N)
            ∗ Pipeline.unscopedRest (Ix := Unit) (Name := ℕ) (U := UR sig nD τ) (Lvl := ℕ) spec1 c (R3 m c)) := by
      have h1 : (unscopedBufs c (R4 m c) : sProp 𝕄)
          = iprop(Pipeline.arrBufs (Ix := Unit) (Name := ℕ) (U := UR sig nD τ) (Lvl := ℕ) spec1 c (R4 m c)
              ∗ Pipeline.unscopedRest (Ix := Unit) (Name := ℕ) (U := UR sig nD τ) (Lvl := ℕ) spec1 c (R4 m c)) :=
        Pipeline.unscopedBufs_split₀ cfgs 1 winFacts₀1.arr_unscoped c (R4 m c)
      rw [← Pipeline.unscopedBufs_held c (B4 m c), h1, hrest]
      rw [show (pdats m 1 c) = dat1 (R3 m) c from rfl,
        arrays1_eq c (R3 m) (R4 m c) _
          (((dat1 (R3 m) c).arrAt_in 0 rfl _).trans (B4_of_ne m c main_v6 (by decide)).symm)
          (((dat1 (R3 m) c).arrAt_in 1 rfl _).trans (B4_of_ne m c main_v6 (by decide)).symm)
          (((dat1 (R3 m) c).arrAt_in 2 rfl _).trans (B4_of_ne m c main_v6 (by decide)).symm)
          (B4_out m c).symm]
    rw [hjoin]
    iintro ⟨Ha, HO, HY, Hrest⟩
    imodintro
    isplitl [Ha Hrest]
    · isplitl [Ha] <;> iassumption
    isplitl [HY]; · iexact HY
    unfold Pipeline.Dat.owesAt Pipeline.owesWithin
    icases HO with ⟨%W, -, HO⟩; iexists W; iexact HO

/-! ## The whole program as segments, and the launch -/

abbrev segs : List (Pipeline.Seg (pcfgs (F := F)) adm (pdats m) () defs₀ 𝒱₀ L lv) :=
  [ .host (hseg hostOps0 hostOps0_sub hostOps0_fresh (B0 m)),
    .region (reg0 m),
    .host (hseg hostOps1 hostOps1_sub hostOps1_fresh (B2 m)),
    .region (reg1 m),
    .host (hseg hostOps2 hostOps2_sub hostOps2_fresh (B4 m)),
    .region (reg2 m),
    .host (hseg hostOps3 hostOps3_sub hostOps3_fresh (B6 m)) ]

theorem main_run (c : Dev nD) : main (F := F) c = Pipeline.Seg.run (segs m) := (main_chain c).trans (by chain_rfl)

set_option backward.isDefEq.respectTransparency.types false in
/-- THE RUN: from any memory with zero counters every weakly fair execution of the program terminates, nothing
    faulting; the result buffer ends at the last boundary's contents and every argument array as launched. -/
theorem run_main : θ_run defs (onTc (τ := τ) (main (F := F))) ⟨m, fun _ => 0, ρ⟩ (fun r => ∀ c : Dev nD,
      r.2.mem ((c.tc : Thread nD τ).loc main_v11) = B7 m c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun _ => .rfl, fun _ => .rfl, fun _ => .rfl,
      fun c => (show iprop(StableHlo.held (c : Thread nD τ) (Pipeline.ucRefs τ sig) (B7 m c) ∗ R c)
          ⊢ iprop(Tₙ m c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B7 m c b)
    (hfin := fun c s' => by
      iintro ⟨⟨Hh, -⟩, HSI⟩
      unfold StableHlo.held
      imodintro
      iapply (pointsTo_read_all (Pipeline.ucRefs τ sig) (fun b => (((c : Thread nD τ)).1, b)) (B7 m c) s')
      isplitl [Hh] <;> iassumption)
    (hQ := fun s h c =>
      ⟨h c _ (mem_uc main_v11 (by decide)),
       (h c _ (mem_uc main_arg0 (by decide))).trans (B7_main_arg0 m c),
       (h c _ (mem_uc main_arg1 (by decide))).trans (B7_main_arg1 m c),
       (h c _ (mem_uc main_arg2 (by decide))).trans (B7_main_arg2 m c),
       (h c _ (mem_uc main_arg3 (by decide))).trans (B7_main_arg3 m c),
       (h c _ (mem_uc main_arg4 (by decide))).trans (B7_main_arg4 m c)⟩)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_main m ρ)

end Cert.Kernel.Hand

end
-- ==== Proof.BodiesI.lean ====
/-
  The three kernel bodies as separation-logic triples, at any float instance.

  Each body loads its input tiles whole, computes one pure value from them and stores it over its whole output
  tile (it also loads the output tile first, a value it never uses). So run on whole staging buffers — the inputs
  at known contents, the output at anything — a body ends with the inputs as they were and the output holding
  the body's pure function of the input tiles, whatever the output held before.
-/
import proofs.«101674_j89970974917190_2_alg».proof.Proof.Gen.KernelIdeal.Launch
import proofs.«101674_j89970974917190_2_alg».proof.Proof.Gen.KernelIdeal.Skeleton
import proofs.«101674_j89970974917190_2_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole-tile rectangles the bodies read and write through -/

abbrev rA0 : Rect S1024x2048 := Rect.unit (s := S1024x2048) ![0, 0] S1024x2048.size inb_S1024x2048_S1024x2048_0_0
abbrev rB0 : Rect S1x1024 := Rect.unit (s := S1x1024) ![0, 0] S1x1024.size inb_S1x1024_S1x1024_0_0
abbrev rO0 : Rect S1024x1024 := Rect.unit (s := S1024x1024) ![0, 0] S1024x1024.size inb_S1024x1024_S1024x1024_0_0
abbrev rQ1 : Rect S1x1024x128 := Rect.unit (s := S1x1024x128) ![0, 0, 0] S1x1024x128.size inb_S1x1024x128_S1x1024x128_0_0_0
abbrev rK1 : Rect S1x2048x128 := Rect.unit (s := S1x2048x128) ![0, 0, 0] S1x2048x128.size inb_S1x2048x128_S1x2048x128_0_0_0
abbrev rA2 : Rect S512x2048 := Rect.unit (s := S512x2048) ![0, 0] S512x2048.size inb_S512x2048_S512x2048_0_0
abbrev rW2 : Rect S2048x2048 := Rect.unit (s := S2048x2048) ![0, 0] S2048x2048.size inb_S2048x2048_S2048x2048_0_0
abbrev rB2 : Rect S1x2048 := Rect.unit (s := S1x2048) ![0, 0] S1x2048.size inb_S1x2048_S1x2048_0_0

/-! ## What each body leaves in its output tile -/

/-- The first linear body's output tile: its one store, of the body's pure value of the three input tiles. -/
def out0 (x0 x1 : Vec F S1024x2048 .bf16) (x2 : Vec F S1x1024 .f32) : Vec F S1024x1024 .bf16 :=
  View.canon [⟨rO0, k0_pay1 (View.ld x0 rA0) (View.ld x1 rA0) (View.ld x2 rB0)⟩]

theorem cover0 (p0 : Vec F S1024x1024 .bf16) (y : S1024x1024.Idx) :
    ∃ pc ∈ ([⟨rO0, p0⟩] : List (View.Piece (Elt F) S1024x1024 .bf16)), y ∈ pc.1.set :=
  View.cover_of_tiled [⟨rO0, p0⟩] S1024x1024.size (by rfl) y

/-- The attention body's output tile. -/
def out1 (x0 : Vec F S1x1024x128 .bf16) (x1 x2 : Vec F S1x2048x128 .bf16) : Vec F S1x1024x128 .bf16 :=
  View.canon [⟨rQ1, k1_pay1 (View.ld x0 rQ1) (View.ld x1 rK1) (View.ld x2 rK1)⟩]

theorem cover1 (p0 : Vec F S1x1024x128 .bf16) (y : S1x1024x128.Idx) :
    ∃ pc ∈ ([⟨rQ1, p0⟩] : List (View.Piece (Elt F) S1x1024x128 .bf16)), y ∈ pc.1.set :=
  View.cover_of_tiled [⟨rQ1, p0⟩] S1x1024x128.size (by rfl) y

/-- The second linear body's output tile. -/
def out2 (x0 : Vec F S512x2048 .bf16) (x1 : Vec F S2048x2048 .bf16) (x2 : Vec F S1x2048 .f32) : Vec F S512x2048 .f32 :=
  View.canon [⟨rA2, k2_pay1 (View.ld x0 rA2) (View.ld x1 rW2) (View.ld x2 rB2)⟩]

theorem cover2 (p0 : Vec F S512x2048 .f32) (y : S512x2048.Idx) :
    ∃ pc ∈ ([⟨rA2, p0⟩] : List (View.Piece (Elt F) S512x2048 .f32)), y ∈ pc.1.set :=
  View.cover_of_tiled [⟨rA2, p0⟩] S512x2048.size (by rfl) y

/-! ## The bodies' triples -/

set_option maxHeartbeats 1000000 in
theorem sound_kernel0 (c : Dev nD) (E : Set ℕ) (i : grid0.Coords)
    (arg2 : Memref sig .tc .vmem S1024x2048 .bf16) (harg2 : arg2.IsWhole) (arg3 : Memref sig .tc .vmem S1024x2048 .bf16) (harg3 : arg3.IsWhole)
    (arg4 : Memref sig .tc .vmem S1x1024 .f32) (harg4 : arg4.IsWhole) (arg5 : Memref sig .tc .vmem S1024x1024 .bf16) (harg5 : arg5.IsWhole)
    (x0 x1 : Vec F S1024x2048 .bf16) (x2 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0 x0 x1 x2)) -∗ K ⟨⟩))
      ⊢ wp frame (wpE (defs₀ (F := F)) Variants.none c none) E (cc0__linear_kernel i arg2 harg2 arg3 harg3 arg4 harg4 arg5 harg5) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0 _)

set_option maxHeartbeats 1000000 in
theorem sound_kernel1 (c : Dev nD) (E : Set ℕ) (i : grid1.Coords)
    (arg3 : Memref sig .tc .vmem S1x1024x128 .bf16) (harg3 : arg3.IsWhole) (arg4 : Memref sig .tc .vmem S1x2048x128 .bf16) (harg4 : arg4.IsWhole)
    (arg5 : Memref sig .tc .vmem S1x2048x128 .bf16) (harg5 : arg5.IsWhole) (arg6 : Memref sig .tc .vmem S1x1024x128 .bf16) (harg6 : arg6.IsWhole)
    (x0 : Vec F S1x1024x128 .bf16) (x1 x2 : Vec F S1x2048x128 .bf16) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (out1 x0 x1 x2)) -∗ K ⟨⟩))
      ⊢ wp frame (wpE (defs₀ (F := F)) Variants.none c none) E (cc1__attn_kernel i arg3 harg3 arg4 harg4 arg5 harg5 arg6 harg6) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1 _)

set_option maxHeartbeats 1000000 in
theorem sound_kernel2 (c : Dev nD) (E : Set ℕ) (i : grid2.Coords)
    (arg2 : Memref sig .tc .vmem S512x2048 .bf16) (harg2 : arg2.IsWhole) (arg3 : Memref sig .tc .vmem S2048x2048 .bf16) (harg3 : arg3.IsWhole)
    (arg4 : Memref sig .tc .vmem S1x2048 .f32) (harg4 : arg4.IsWhole) (arg5 : Memref sig .tc .vmem S512x2048 .f32) (harg5 : arg5.IsWhole)
    (x0 : Vec F S512x2048 .bf16) (x1 : Vec F S2048x2048 .bf16) (x2 : Vec F S1x2048 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out2 x0 x1 x2)) -∗ K ⟨⟩))
      ⊢ wp frame (wpE (defs₀ (F := F)) Variants.none c none) E (cc2__linear_kernel i arg2 harg2 arg3 harg3 arg4 harg4 arg5 harg5) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2 _)

end Cert.KernelIdeal.Hand

end
-- ==== Proof.RegionsI.lean ====
/-
  The three kernel regions, each at a parameter `V` — the buffer contents the region is entered with: what every
  window's tile holds at a grid point, the proof data of the pipeline (after the body an input's staging buffer
  holds its tile, the output's holds the body's pure function of the input tiles), and the body obligation at every
  grid point. The attention region reads one array through three windows, so its proof data hold that array at
  three shares that make up the whole.
-/
import proofs.«101674_j89970974917190_2_alg».proof.Proof.BodiesI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0 -/

/-- Window `w`'s tile at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The proof data: the arrays as the region finds them; after the body an input's buffer holds its tile and the
    output's the body's function of the three input tiles; the invariant untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

/-! # Region 1 -/

/-- Window `w`'s tile at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The proof data: the arrays as the region finds them; after the body an input's buffer holds its tile and the
    output's the body's function of the three input tiles; the invariant untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 (iblk1 V c 0 t) (iblk1 V c 1 t) (iblk1 V c 2 t)
  Φ _ := Pipeline.ΦA spec1 c
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

/-! # Region 2 -/

/-- Window `w`'s tile at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The proof data: the arrays as the region finds them; after the body an input's buffer holds its tile and the
    output's the body's function of the three input tiles; the invariant untouched; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.RunI.lean ====
/-
  The run of the whole program: the buffer contents at every boundary between a stretch of host operations and a
  kernel region as a fold from the launch memory, every pipeline's proof data at its region's entry contents, each
  stretch and each region as a segment over the thread state "every unscoped buffer at the boundary's contents, the
  generator register at some state, nothing owed", and the launch over the segments: every weakly fair execution
  terminates without a fault, the result buffer ends at the last boundary's contents and every argument as launched.
  The attention region is handed one array through three windows: at its entry that array's full share is split in
  three, at its exit the three shares are joined again.
-/
import proofs.«101674_j89970974917190_2_alg».proof.Proof.RegionsI
import proofs.«101674_j89970974917190_2_alg».proof.Proof.Gen.KernelIdeal.Regions
import Idealize.ShloMosaic.Lib.Pipeline.RegionsLoop
import Idealize.ShloMosaic.Lib.Pipeline.FrameSuffix
import Idealize.ShloMosaic.Lib.Ring

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev B0 : Dev nD → Valuation τ sig (Elt F) := fun c b => m (c, b)
/-- After the first stretch (the fused projection's entry). -/
abbrev B1 : Dev nD → Valuation τ sig (Elt F) := fun c => StableHlo.after hostOps0 (B0 m c)
abbrev R1 : (c : Dev nD) → (b : Ref sig .tc) → Buf (Elt F) ((c : Thread nD τ).loc b) := fun c b => B1 m c b
/-- At the fused projection's exit: its arrays at what the pipeline leaves, every other buffer as entered. -/
def B2 (c : Dev nD) : Valuation τ sig (Elt F) :=
  Pipeline.withArrays spec0 c (B1 m c) fun w => (dat0 (R1 m) c).arrAt w cfg0.N
theorem B2_arr (c : Dev nD) (w : Fin cfg0.W) :
    B2 m c (Proc.devRef .tc (Pipeline.arrRef spec0 w)) = (dat0 (R1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev R2 : (c : Dev nD) → (b : Ref sig .tc) → Buf (Elt F) ((c : Thread nD τ).loc b) := fun c b => B2 m c b
theorem hF0 (c : Dev nD) (w : Fin cfg0.W) : (dat0 (R1 m) c).arrAt w cfg0.N = R2 m c (Pipeline.arrRef spec0 w) :=
  (B2_arr m c w).symm
theorem hrest0 (c : Dev nD) : ∀ b, b ∉ Finset.univ.image (Pipeline.arrRef spec0) → R2 m c b = R1 m c b :=
  fun b hb => B2_of_ne m c b fun w e => hb (Finset.mem_image.mpr ⟨w, Finset.mem_univ _, e⟩)

/-- After the second stretch (the attention region's entry). -/
abbrev B3 : Dev nD → Valuation τ sig (Elt F) := fun c => StableHlo.after hostOps1 (B2 m c)
abbrev R3 : (c : Dev nD) → (b : Ref sig .tc) → Buf (Elt F) ((c : Thread nD τ).loc b) := fun c b => B3 m c b
/-- At the attention region's exit: its output array at what the pipeline leaves, every other buffer as entered. -/
def B4 (c : Dev nD) : Valuation τ sig (Elt F) :=
  Function.update (B3 m c) (Proc.devRef .tc main_v7) ((dat1 (R3 m) c).arrAt 3 cfg1.N)
theorem B4_out (c : Dev nD) : B4 m c (Proc.devRef .tc main_v7) = (dat1 (R3 m) c).arrAt 3 cfg1.N := by
  unfold B4; exact Function.update_self ..
theorem B4_of_ne (c : Dev nD) (b : Ref sig .tc) (hb : b ≠ main_v7) :
    B4 m c (Proc.devRef .tc b) = B3 m c (Proc.devRef .tc b) := by
  unfold B4; exact Function.update_of_ne (StableHlo.devRef_ne_of_ne hb) ..
abbrev R4 : (c : Dev nD) → (b : Ref sig .tc) → Buf (Elt F) ((c : Thread nD τ).loc b) := fun c b => B4 m c b

/-- After the third stretch (the final projection's entry). -/
abbrev B5 : Dev nD → Valuation τ sig (Elt F) := fun c => StableHlo.after hostOps2 (B4 m c)
abbrev R5 : (c : Dev nD) → (b : Ref sig .tc) → Buf (Elt F) ((c : Thread nD τ).loc b) := fun c b => B5 m c b
/-- At the final projection's exit. -/
def B6 (c : Dev nD) : Valuation τ sig (Elt F) :=
  Pipeline.withArrays spec2 c (B5 m c) fun w => (dat2 (R5 m) c).arrAt w cfg2.N
theorem B6_arr (c : Dev nD) (w : Fin cfg2.W) :
    B6 m c (Proc.devRef .tc (Pipeline.arrRef spec2 w)) = (dat2 (R5 m) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m c (Proc.devRef .tc b) = B5 m c (Proc.devRef .tc b) := by
  unfold B6; exact Pipeline.withArrays_of_ne spec2 c _ _ b hb
abbrev R6 : (c : Dev nD) → (b : Ref sig .tc) → Buf (Elt F) ((c : Thread nD τ).loc b) := fun c b => B6 m c b
theorem hF2 (c : Dev nD) (w : Fin cfg2.W) : (dat2 (R5 m) c).arrAt w cfg2.N = R6 m c (Pipeline.arrRef spec2 w) :=
  (B6_arr m c w).symm
theorem hrest2 (c : Dev nD) : ∀ b, b ∉ Finset.univ.image (Pipeline.arrRef spec2) → R6 m c b = R5 m c b :=
  fun b hb => B6_of_ne m c b fun w e => hb (Finset.mem_image.mpr ⟨w, Finset.mem_univ _, e⟩)

/-- After the last stretch: the end. -/
abbrev B7 : Dev nD → Valuation τ sig (Elt F) := fun c => StableHlo.after hostOps3 (B6 m c)

/-! ## The arguments end as launched: no host operation writes one and no region has one among its arrays -/

theorem B7_main_arg0 (c : Dev nD) : B7 m c (Proc.devRef .tc main_arg0) = m ((c : Thread nD τ).loc main_arg0) :=
  calc B7 m c (Proc.devRef .tc main_arg0)
    _ = B6 m c (Proc.devRef .tc main_arg0) := StableHlo.after_of_writes_sub hostOps3 _ hostOps3_writes (r := main_arg0) (by decide)
    _ = B5 m c (Proc.devRef .tc main_arg0) := B6_of_ne m c main_arg0 (by decide)
    _ = B4 m c (Proc.devRef .tc main_arg0) := StableHlo.after_of_writes_sub hostOps2 _ hostOps2_writes (r := main_arg0) (by decide)
    _ = B3 m c (Proc.devRef .tc main_arg0) := B4_of_ne m c main_arg0 (by decide)
    _ = B2 m c (Proc.devRef .tc main_arg0) := StableHlo.after_of_writes_sub hostOps1 _ hostOps1_writes (r := main_arg0) (by decide)
    _ = B1 m c (Proc.devRef .tc main_arg0) := B2_of_ne m c main_arg0 (by decide)
    _ = B0 m c (Proc.devRef .tc main_arg0) := StableHlo.after_of_writes_sub hostOps0 _ hostOps0_writes (r := main_arg0) (by decide)
    _ = m ((c : Thread nD τ).loc main_arg0) := rfl

theorem B7_main_arg1 (c : Dev nD) : B7 m c (Proc.devRef .tc main_arg1) = m ((c : Thread nD τ).loc main_arg1) :=
  calc B7 m c (Proc.devRef .tc main_arg1)
    _ = B6 m c (Proc.devRef .tc main_arg1) := StableHlo.after_of_writes_sub hostOps3 _ hostOps3_writes (r := main_arg1) (by decide)
    _ = B5 m c (Proc.devRef .tc main_arg1) := B6_of_ne m c main_arg1 (by decide)
    _ = B4 m c (Proc.devRef .tc main_arg1) := StableHlo.after_of_writes_sub hostOps2 _ hostOps2_writes (r := main_arg1) (by decide)
    _ = B3 m c (Proc.devRef .tc main_arg1) := B4_of_ne m c main_arg1 (by decide)
    _ = B2 m c (Proc.devRef .tc main_arg1) := StableHlo.after_of_writes_sub hostOps1 _ hostOps1_writes (r := main_arg1) (by decide)
    _ = B1 m c (Proc.devRef .tc main_arg1) := B2_of_ne m c main_arg1 (by decide)
    _ = B0 m c (Proc.devRef .tc main_arg1) := StableHlo.after_of_writes_sub hostOps0 _ hostOps0_writes (r := main_arg1) (by decide)
    _ = m ((c : Thread nD τ).loc main_arg1) := rfl

theorem B7_main_arg2 (c : Dev nD) : B7 m c (Proc.devRef .tc main_arg2) = m ((c : Thread nD τ).loc main_arg2) :=
  calc B7 m c (Proc.devRef .tc main_arg2)
    _ = B6 m c (Proc.devRef .tc main_arg2) := StableHlo.after_of_writes_sub hostOps3 _ hostOps3_writes (r := main_arg2) (by decide)
    _ = B5 m c (Proc.devRef .tc main_arg2) := B6_of_ne m c main_arg2 (by decide)
    _ = B4 m c (Proc.devRef .tc main_arg2) := StableHlo.after_of_writes_sub hostOps2 _ hostOps2_writes (r := main_arg2) (by decide)
    _ = B3 m c (Proc.devRef .tc main_arg2) := B4_of_ne m c main_arg2 (by decide)
    _ = B2 m c (Proc.devRef .tc main_arg2) := StableHlo.after_of_writes_sub hostOps1 _ hostOps1_writes (r := main_arg2) (by decide)
    _ = B1 m c (Proc.devRef .tc main_arg2) := B2_of_ne m c main_arg2 (by decide)
    _ = B0 m c (Proc.devRef .tc main_arg2) := StableHlo.after_of_writes_sub hostOps0 _ hostOps0_writes (r := main_arg2) (by decide)
    _ = m ((c : Thread nD τ).loc main_arg2) := rfl

theorem B7_main_arg3 (c : Dev nD) : B7 m c (Proc.devRef .tc main_arg3) = m ((c : Thread nD τ).loc main_arg3) :=
  calc B7 m c (Proc.devRef .tc main_arg3)
    _ = B6 m c (Proc.devRef .tc main_arg3) := StableHlo.after_of_writes_sub hostOps3 _ hostOps3_writes (r := main_arg3) (by decide)
    _ = B5 m c (Proc.devRef .tc main_arg3) := B6_of_ne m c main_arg3 (by decide)
    _ = B4 m c (Proc.devRef .tc main_arg3) := StableHlo.after_of_writes_sub hostOps2 _ hostOps2_writes (r := main_arg3) (by decide)
    _ = B3 m c (Proc.devRef .tc main_arg3) := B4_of_ne m c main_arg3 (by decide)
    _ = B2 m c (Proc.devRef .tc main_arg3) := StableHlo.after_of_writes_sub hostOps1 _ hostOps1_writes (r := main_arg3) (by decide)
    _ = B1 m c (Proc.devRef .tc main_arg3) := B2_of_ne m c main_arg3 (by decide)
    _ = B0 m c (Proc.devRef .tc main_arg3) := StableHlo.after_of_writes_sub hostOps0 _ hostOps0_writes (r := main_arg3) (by decide)
    _ = m ((c : Thread nD τ).loc main_arg3) := rfl

theorem B7_main_arg4 (c : Dev nD) : B7 m c (Proc.devRef .tc main_arg4) = m ((c : Thread nD τ).loc main_arg4) :=
  calc B7 m c (Proc.devRef .tc main_arg4)
    _ = B6 m c (Proc.devRef .tc main_arg4) := StableHlo.after_of_writes_sub hostOps3 _ hostOps3_writes (r := main_arg4) (by decide)
    _ = B5 m c (Proc.devRef .tc main_arg4) := B6_of_ne m c main_arg4 (by decide)
    _ = B4 m c (Proc.devRef .tc main_arg4) := StableHlo.after_of_writes_sub hostOps2 _ hostOps2_writes (r := main_arg4) (by decide)
    _ = B3 m c (Proc.devRef .tc main_arg4) := B4_of_ne m c main_arg4 (by decide)
    _ = B2 m c (Proc.devRef .tc main_arg4) := StableHlo.after_of_writes_sub hostOps1 _ hostOps1_writes (r := main_arg4) (by decide)
    _ = B1 m c (Proc.devRef .tc main_arg4) := B2_of_ne m c main_arg4 (by decide)
    _ = B0 m c (Proc.devRef .tc main_arg4) := StableHlo.after_of_writes_sub hostOps0 _ hostOps0_writes (r := main_arg4) (by decide)
    _ = m ((c : Thread nD τ).loc main_arg4) := rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (R1 m) c
  | ⟨1, _⟩ => fun c => dat1 (R3 m) c
  | ⟨2, _⟩ => fun c => dat2 (R5 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (B7 m c) ∗ ∃ r, prngReg c r)

/-! ## The regions as segments -/

set_option backward.isDefEq.respectTransparency.types false in
/-- Region 0: entered with every unscoped buffer at the contents before it, left with them at the contents after
    it; its arrays split out of the unscoped buffers and put back at what the pipeline leaves; the generator register
    into the invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (R1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (R1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (R1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (R1 m c) (R2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered with every unscoped buffer at the contents before it, left with them at the contents after
    it; its arrays split out of the unscoped buffers and put back at what the pipeline leaves; the generator register
    into the invariant and out; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (R5 m) c).loose
  hwaits := Pipeline.hwaits_of_owed_zero _ _ _ _ L lv 2 fun _ _ => rfl
  pre c := iprop(StableHlo.held (c : Thread nD τ) (Pipeline.ucRefs τ sig) (B5 m c) ∗ R c)
  post c := iprop(StableHlo.held (c : Thread nD τ) (Pipeline.ucRefs τ sig) (B6 m c) ∗ R c)
  X c := iprop(∃ r, prngReg c r)
  Y c := iprop(∃ r, prngReg c r)
  Z c := Pipeline.unscopedRest (Ix := Unit) (Name := ℕ) (U := UR sig nD τ) (Lvl := ℕ) spec2 c (R5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (R5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (R5 m c) (R6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The attention region: one array through three windows -/

/-- The attention region's arrays are two buffers: the fused projection (three windows) and the output. -/
theorem image_arr1 : Finset.univ.image (Pipeline.arrRef spec1) = ({main_v6, main_v7} : Finset (Ref sig .tc)) := by decide

/-- The buffers behind the attention region's arrays, one by one. -/
theorem arrBufs1_eq (c : Dev nD) (Vc : (b : Ref sig .tc) → Buf (Elt F) ((c : Thread nD τ).loc b)) :
    (Pipeline.arrBufs (Ix := Unit) (Name := ℕ) (U := UR sig nD τ) (Lvl := ℕ) spec1 c Vc : sProp 𝕄)
      = iprop((((c : Thread nD τ).loc main_v6) ↦{fullShare} Vc main_v6) ∗ (((c : Thread nD τ).loc main_v7) ↦{fullShare} Vc main_v7)) := by
  unfold Pipeline.arrBufs
  rw [image_arr1, bigSep_insert (by decide), bigSep_singleton]
  rfl

/-- A buffer held whole is held at three shares that make up the whole, and conversely. -/
theorem three_shares {ℓ : Loc nD τ sig} (f : Buf (Elt F) ℓ) :
    ((ℓ ↦{fullShare} f : sProp 𝕄))
      = iprop((ℓ ↦{fullShare.left} f) ∗ (ℓ ↦{fullShare.right.left} f) ∗ (ℓ ↦{fullShare.right.right} f)) :=
  Entails.antisymm
    ((pointsTo_share (PosShare.mem_left_op_right fullShare)).mp.trans
      (sep_mono .rfl (pointsTo_share (PosShare.mem_left_op_right fullShare.right)).mp))
    ((sep_mono .rfl (pointsTo_share (PosShare.mem_left_op_right fullShare.right)).mpr).trans
      (pointsTo_share (PosShare.mem_left_op_right fullShare)).mpr)

/-- Regrouping four separate parts. -/
theorem assoc4 (A B C D : sProp 𝕄) : iprop((A ∗ B ∗ C) ∗ D) = iprop(A ∗ B ∗ C ∗ D) :=
  Entails.antisymm
    (show iprop((A ∗ B ∗ C) ∗ D) ⊢ iprop(A ∗ B ∗ C ∗ D) from by
      iintro ⟨⟨H1, H2, H3⟩, H4⟩
      isplitl [H1]; · iexact H1
      isplitl [H2]; · iexact H2
      isplitl [H3]; · iexact H3
      iexact H4)
    (show iprop(A ∗ B ∗ C ∗ D) ⊢ iprop((A ∗ B ∗ C) ∗ D) from by
      iintro ⟨H1, H2, H3, H4⟩
      isplitl [H1 H2 H3]
      · isplitl [H1]; · iexact H1
        isplitl [H2]; · iexact H2
        iexact H3
      iexact H4)

/-- The two buffers, the first at its three shares. -/
theorem arrBufs1_eq4 (c : Dev nD) (Vc : (b : Ref sig .tc) → Buf (Elt F) ((c : Thread nD τ).loc b)) :
    (Pipeline.arrBufs (Ix := Unit) (Name := ℕ) (U := UR sig nD τ) (Lvl := ℕ) spec1 c Vc : sProp 𝕄)
      = iprop((((c : Thread nD τ).loc main_v6) ↦{fullShare.left} Vc main_v6) ∗ (((c : Thread nD τ).loc main_v6) ↦{fullShare.right.left} Vc main_v6)
          ∗ (((c : Thread nD τ).loc main_v6) ↦{fullShare.right.right} Vc main_v6) ∗ (((c : Thread nD τ).loc main_v7) ↦{fullShare} Vc main_v7)) := by
  rw [arrBufs1_eq, three_shares, assoc4]

/-- The attention region's arrays — the fused projection at the three input windows' shares, the output whole — are
    the two buffers behind them held whole, when the three input windows see the same contents. -/
theorem arrays1_eq (c : Dev nD) (V : (c : Dev nD) → (b : Ref sig .tc) → Buf (Elt F) ((c : Thread nD τ).loc b))
    (Vc : (b : Ref sig .tc) → Buf (Elt F) ((c : Thread nD τ).loc b))
    (Fv : (w : Fin cfg1.W) → Buf (Elt F) ((cfg1.win w).arr.view.loc (c.tc : Thread nD τ)))
    (h0 : Fv 0 = Vc main_v6) (h1 : Fv 1 = Vc main_v6) (h2 : Fv 2 = Vc main_v6) (h3 : Fv 3 = Vc main_v7) :
    ((dat1 V c).arrays Fv : sProp 𝕄) = Pipeline.arrBufs (Ix := Unit) (Name := ℕ) (U := UR sig nD τ) (Lvl := ℕ) spec1 c Vc := by
  rw [arrBufs1_eq4]
  unfold Dat.arrays
  rw [bigSep_W1, (arr_whole1 0).set_eq_univ, (arr_whole1 3).set_eq_univ, h0, h1, h2, h3]
  rfl

set_option backward.isDefEq.respectTransparency.types false in
/-- The attention region over the thread state: at its entry the fused projection's buffer is split in three shares
    for the three windows that read it, at its exit the shares are joined again; only the output buffer changes. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (R3 m) c).loose
  hwaits := Pipeline.hwaits_of_owed_zero _ _ _ _ L lv 1 fun _ _ => rfl
  pre c := iprop(StableHlo.held (c : Thread nD τ) (Pipeline.ucRefs τ sig) (B3 m c) ∗ R c)
  post c := iprop(StableHlo.held (c : Thread nD τ) (Pipeline.ucRefs τ sig) (B4 m c) ∗ R c)
  X c := iprop(∃ r, prngReg c r)
  Y c := iprop(∃ r, prngReg c r)
  Z c := Pipeline.unscopedRest (Ix := Unit) (Name := ℕ) (U := UR sig nD τ) (Lvl := ℕ) spec1 c (R3 m c)
  hentry c := by
    rw [Pipeline.ownSems0_none]
    have hsplit : (StableHlo.held (c : Thread nD τ) (Pipeline.ucRefs τ sig) (B3 m c) : sProp 𝕄)
        = iprop((pdats m 1 c).arrays ((pdats m 1 c).arrAt · 0)
            ∗ Pipeline.unscopedRest (Ix := Unit) (Name := ℕ) (U := UR sig nD τ) (Lvl := ℕ) spec1 c (R3 m c)) := by
      have h1 : (unscopedBufs c (R3 m c) : sProp 𝕄)
          = iprop(Pipeline.arrBufs (Ix := Unit) (Name := ℕ) (U := UR sig nD τ) (Lvl := ℕ) spec1 c (R3 m c)
              ∗ Pipeline.unscopedRest (Ix := Unit) (Name := ℕ) (U := UR sig nD τ) (Lvl := ℕ) spec1 c (R3 m c)) :=
        Pipeline.unscopedBufs_split₀ cfgs 1 winFacts₀1.arr_unscoped c (R3 m c)
      rw [← Pipeline.unscopedBufs_held c (B3 m c), h1]
      rw [show (pdats m 1 c) = dat1 (R3 m) c from rfl, arrays1_eq c (R3 m) (R3 m c) _ rfl rfl rfl rfl]
    rw [hsplit]
    iintro ⟨⟨⟨Ha, Hrest⟩, Hp, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hrest : (Pipeline.unscopedRest (Ix := Unit) (Name := ℕ) (U := UR sig nD τ) (Lvl := ℕ) spec1 c (R3 m c) : sProp 𝕄)
        = Pipeline.unscopedRest (Ix := Unit) (Name := ℕ) (U := UR sig nD τ) (Lvl := ℕ) spec1 c (R4 m c) := by
      unfold Pipeline.unscopedRest
      refine bigSep_congr fun b hb => ?_
      rw [show R4 m c b = R3 m c b from B4_of_ne m c b fun e =>
        (Finset.mem_sdiff.mp hb).2 (by rw [image_arr1, e]; decide)]
    have hjoin : (StableHlo.held (c : Thread nD τ) (Pipeline.ucRefs τ sig) (B4 m c) : sProp 𝕄)
        = iprop((pdats m 1 c).arrays ((pdats m 1 c).arrAt · cfg1.N)
            ∗ Pipeline.unscopedRest (Ix := Unit) (Name := ℕ) (U := UR sig nD τ) (Lvl := ℕ) spec1 c (R3 m c)) := by
      have h1 : (unscopedBufs c (R4 m c) : sProp 𝕄)
          = iprop(Pipeline.arrBufs (Ix := Unit) (Name := ℕ) (U := UR sig nD τ) (Lvl := ℕ) spec1 c (R4 m c)
              ∗ Pipeline.unscopedRest (Ix := Unit) (Name := ℕ) (U := UR sig nD τ) (Lvl := ℕ) spec1 c (R4 m c)) :=
        Pipeline.unscopedBufs_split₀ cfgs 1 winFacts₀1.arr_unscoped c (R4 m c)
      rw [← Pipeline.unscopedBufs_held c (B4 m c), h1, hrest]
      rw [show (pdats m 1 c) = dat1 (R3 m) c from rfl,
        arrays1_eq c (R3 m) (R4 m c) _
          (((dat1 (R3 m) c).arrAt_in 0 rfl _).trans (B4_of_ne m c main_v6 (by decide)).symm)
          (((dat1 (R3 m) c).arrAt_in 1 rfl _).trans (B4_of_ne m c main_v6 (by decide)).symm)
          (((dat1 (R3 m) c).arrAt_in 2 rfl _).trans (B4_of_ne m c main_v6 (by decide)).symm)
          (B4_out m c).symm]
    rw [hjoin]
    iintro ⟨Ha, HO, HY, Hrest⟩
    imodintro
    isplitl [Ha Hrest]
    · isplitl [Ha] <;> iassumption
    isplitl [HY]; · iexact HY
    unfold Pipeline.Dat.owesAt Pipeline.owesWithin
    icases HO with ⟨%W, -, HO⟩; iexists W; iexact HO

/-! ## The whole program as segments, and the launch -/

abbrev segs : List (Pipeline.Seg (pcfgs (F := F)) adm (pdats m) () defs₀ 𝒱₀ L lv) :=
  [ .host (hseg hostOps0 hostOps0_sub hostOps0_fresh (B0 m)),
    .region (reg0 m),
    .host (hseg hostOps1 hostOps1_sub hostOps1_fresh (B2 m)),
    .region (reg1 m),
    .host (hseg hostOps2 hostOps2_sub hostOps2_fresh (B4 m)),
    .region (reg2 m),
    .host (hseg hostOps3 hostOps3_sub hostOps3_fresh (B6 m)) ]

theorem main_run (c : Dev nD) : main (F := F) c = Pipeline.Seg.run (segs m) := (main_chain c).trans (by chain_rfl)

set_option backward.isDefEq.respectTransparency.types false in
/-- THE RUN: from any memory with zero counters every weakly fair execution of the program terminates, nothing
    faulting; the result buffer ends at the last boundary's contents and every argument array as launched. -/
theorem run_main : θ_run defs (onTc (τ := τ) (main (F := F))) ⟨m, fun _ => 0, ρ⟩ (fun r => ∀ c : Dev nD,
      r.2.mem ((c.tc : Thread nD τ).loc main_v11) = B7 m c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun _ => .rfl, fun _ => .rfl, fun _ => .rfl,
      fun c => (show iprop(StableHlo.held (c : Thread nD τ) (Pipeline.ucRefs τ sig) (B7 m c) ∗ R c)
          ⊢ iprop(Tₙ m c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B7 m c b)
    (hfin := fun c s' => by
      iintro ⟨⟨Hh, -⟩, HSI⟩
      unfold StableHlo.held
      imodintro
      iapply (pointsTo_read_all (Pipeline.ucRefs τ sig) (fun b => (((c : Thread nD τ)).1, b)) (B7 m c) s')
      isplitl [Hh] <;> iassumption)
    (hQ := fun s h c =>
      ⟨h c _ (mem_uc main_v11 (by decide)),
       (h c _ (mem_uc main_arg0 (by decide))).trans (B7_main_arg0 m c),
       (h c _ (mem_uc main_arg1 (by decide))).trans (B7_main_arg1 m c),
       (h c _ (mem_uc main_arg2 (by decide))).trans (B7_main_arg2 m c),
       (h c _ (mem_uc main_arg3 (by decide))).trans (B7_main_arg3 m c),
       (h c _ (mem_uc main_arg4 (by decide))).trans (B7_main_arg4 m c)⟩)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_main m ρ)

end Cert.KernelIdeal.Hand

end
-- ==== Proof.HostReads.lean ====
/-
  Reading the host operations between the regions at an index, at the ideal values: a reshape between the
  [2, 2048, n] and the [4096, n] layouts moves entry (b, s, o) to row b·2048 + s, column o; a reshape of a vector to
  a one-row matrix keeps each entry; a change of float format is the identity on the extended reals.
-/
import proofs.«101674_j89970974917190_2_alg».proof.Proof.RunI
import Idealize.ShloMosaic.Lib.Pipeline.Value
import Idealize.ShloMosaic.Lib.ValueIdx
import Idealize.ShloMosaic.Lib.StableHlo.Run

noncomputable section

namespace Cert.KernelIdeal.Whole

open Cert.KernelIdeal Cert.KernelIdeal.Gen Cert.KernelIdeal.Hand
open Idealize.ShloMosaic Idealize.ShloMosaic.ValueIdx Idealize.ShloMosaic.TcCoe Idealize.SL.Sem Idealize.ShloMosaic.StableHlo

/-! ## The reshapes at an index -/

/-- Row `r` of the flattened [4096, n] array is position (r / 2048, r % 2048) of the [2, 2048, n] one. -/
theorem flat_of_cube {α : Type} {n : Nat} (x : (⟨3, ![2, 2048, n]⟩ : Shape).Idx → α)
    (h : (⟨3, ![2, 2048, n]⟩ : Shape).ShapeCasts ⟨2, ![4096, n]⟩) (r : Fin 4096) (k : Fin n) :
    shapeCast ⟨2, ![4096, n]⟩ x h (ix2 r k)
      = x (ix3 (⟨r.val / 2048, by omega⟩ : Fin 2) (⟨r.val % 2048, Nat.mod_lt _ (by decide)⟩ : Fin 2048) k) := by
  refine shapeCast_apply x h _ _ ?_
  rw [Shape.rowMajor_val_three, Shape.rowMajor_val_two]
  show (r.val / 2048 * 2048 + r.val % 2048) * n + k.val = r.val * n + k.val
  rw [Nat.div_add_mod' r.val 2048]

/-- Position (b, s) of the [2, 2048, n] array is row b·2048 + s of the flattened [4096, n] one. -/
theorem cube_of_flat {α : Type} {n : Nat} (x : (⟨2, ![4096, n]⟩ : Shape).Idx → α)
    (h : (⟨2, ![4096, n]⟩ : Shape).ShapeCasts ⟨3, ![2, 2048, n]⟩) (b : Fin 2) (s : Fin 2048) (k : Fin n) :
    shapeCast ⟨3, ![2, 2048, n]⟩ x h (ix3 b s k) = x (ix2 (⟨b.val * 2048 + s.val, by omega⟩ : Fin 4096) k) := by
  refine shapeCast_apply x h _ _ ?_
  rw [Shape.rowMajor_val_three, Shape.rowMajor_val_two]
  rfl

/-- A vector as a one-row matrix keeps each entry. -/
theorem row_of_vec {α : Type} {n : Nat} (x : (⟨1, ![n]⟩ : Shape).Idx → α)
    (h : (⟨1, ![n]⟩ : Shape).ShapeCasts ⟨2, ![1, n]⟩) (k : Fin n) :
    shapeCast ⟨2, ![1, n]⟩ x h (ix2 (0 : Fin 1) k) = x (ix1 k) := by
  refine shapeCast_apply x h _ _ ?_
  rw [Shape.rowMajor_val_one, Shape.rowMajor_val_two]
  show k.val = 0 * n + k.val
  omega

/-! ## The host stretches at an index, from any contents `W` -/

theorem h0_v1 (W : Valuation τ sig (Elt Ideal)) (r : Fin 4096) (k : Fin 2048) :
    (StableHlo.after (hostOps0 (F := Ideal)) W (Proc.devRef .tc main_v1) : S4096x2048.Idx → EReal) (ix2 r k)
      = (W (Proc.devRef .tc main_arg0) : S2x2048x2048.Idx → EReal)
          (ix3 (⟨r.val / 2048, by omega⟩ : Fin 2) (⟨r.val % 2048, Nat.mod_lt _ (by decide)⟩ : Fin 2048) k) := by
  have e : (StableHlo.after (hostOps0 (F := Ideal)) W (Proc.devRef .tc main_v1) : S4096x2048.Idx → EReal)
      = shapeCast S4096x2048 (W (Proc.devRef .tc main_arg0) : S2x2048x2048.Idx → EReal) shapeCasts_S2x2048x2048_S4096x2048 := by
    after_results; rfl
  rw [e]; exact flat_of_cube _ _ r k

theorem h0_v2 (W : Valuation τ sig (Elt Ideal)) :
    (StableHlo.after (hostOps0 (F := Ideal)) W (Proc.devRef .tc main_v2) : S6144x2048.Idx → EReal)
      = (W (Proc.devRef .tc main_arg1) : S6144x2048.Idx → EReal) := by
  after_results; rfl

theorem h0_v3 (W : Valuation τ sig (Elt Ideal)) :
    (StableHlo.after (hostOps0 (F := Ideal)) W (Proc.devRef .tc main_v3) : S2048x2048.Idx → EReal)
      = (W (Proc.devRef .tc main_arg3) : S2048x2048.Idx → EReal) := by
  after_results; rfl

theorem h0_v4 (W : Valuation τ sig (Elt Ideal)) (o : Fin 6144) :
    (StableHlo.after (hostOps0 (F := Ideal)) W (Proc.devRef .tc main_v4) : S1x6144.Idx → EReal) (ix2 (0 : Fin 1) o)
      = (W (Proc.devRef .tc main_arg2) : S6144.Idx → EReal) (ix1 o) := by
  have e : (StableHlo.after (hostOps0 (F := Ideal)) W (Proc.devRef .tc main_v4) : S1x6144.Idx → EReal)
      = shapeCast S1x6144 (W (Proc.devRef .tc main_arg2) : S6144.Idx → EReal) shapeCasts_S6144_S1x6144 := by
    after_results; rfl
  rw [e]; exact row_of_vec _ _ o

theorem h1_v6 (W : Valuation τ sig (Elt Ideal)) (b : Fin 2) (s : Fin 2048) (o : Fin 6144) :
    (StableHlo.after (hostOps1 (F := Ideal)) W (Proc.devRef .tc main_v6) : S2x2048x6144.Idx → EReal) (ix3 b s o)
      = (W (Proc.devRef .tc main_v5) : S4096x6144.Idx → EReal) (ix2 (⟨b.val * 2048 + s.val, by omega⟩ : Fin 4096) o) := by
  have e : (StableHlo.after (hostOps1 (F := Ideal)) W (Proc.devRef .tc main_v6) : S2x2048x6144.Idx → EReal)
      = shapeCast S2x2048x6144 (W (Proc.devRef .tc main_v5) : S4096x6144.Idx → EReal) shapeCasts_S4096x6144_S2x2048x6144 := by
    after_results; rfl
  rw [e]; exact cube_of_flat _ _ b s o

theorem h2_v8 (W : Valuation τ sig (Elt Ideal)) (r : Fin 4096) (k : Fin 2048) :
    (StableHlo.after (hostOps2 (F := Ideal)) W (Proc.devRef .tc main_v8) : S4096x2048.Idx → EReal) (ix2 r k)
      = (W (Proc.devRef .tc main_v7) : S2x2048x2048.Idx → EReal)
          (ix3 (⟨r.val / 2048, by omega⟩ : Fin 2) (⟨r.val % 2048, Nat.mod_lt _ (by decide)⟩ : Fin 2048) k) := by
  have e : (StableHlo.after (hostOps2 (F := Ideal)) W (Proc.devRef .tc main_v8) : S4096x2048.Idx → EReal)
      = shapeCast S4096x2048 (W (Proc.devRef .tc main_v7) : S2x2048x2048.Idx → EReal) shapeCasts_S2x2048x2048_S4096x2048 := by
    after_results; rfl
  rw [e]; exact flat_of_cube _ _ r k

theorem h2_v9 (W : Valuation τ sig (Elt Ideal)) (o : Fin 2048) :
    (StableHlo.after (hostOps2 (F := Ideal)) W (Proc.devRef .tc main_v9) : S1x2048.Idx → EReal) (ix2 (0 : Fin 1) o)
      = (W (Proc.devRef .tc main_arg4) : S2048.Idx → EReal) (ix1 o) := by
  have e : (StableHlo.after (hostOps2 (F := Ideal)) W (Proc.devRef .tc main_v9) : S1x2048.Idx → EReal)
      = shapeCast S1x2048 (W (Proc.devRef .tc main_arg4) : S2048.Idx → EReal) shapeCasts_S2048_S1x2048 := by
    after_results; rfl
  rw [e]; exact row_of_vec _ _ o

theorem h3_v11 (W : Valuation τ sig (Elt Ideal)) (b : Fin 2) (s : Fin 2048) (o : Fin 2048) :
    (StableHlo.after (hostOps3 (F := Ideal)) W (Proc.devRef .tc main_v11) : S2x2048x2048.Idx → EReal) (ix3 b s o)
      = (W (Proc.devRef .tc main_v10) : S4096x2048.Idx → EReal) (ix2 (⟨b.val * 2048 + s.val, by omega⟩ : Fin 4096) o) := by
  have e : (StableHlo.after (hostOps3 (F := Ideal)) W (Proc.devRef .tc main_v11) : S2x2048x2048.Idx → EReal)
      = shapeCast S2x2048x2048 (W (Proc.devRef .tc main_v10) : S4096x2048.Idx → EReal) shapeCasts_S4096x2048_S2x2048x2048 := by
    after_results; rfl
  rw [e]; exact cube_of_flat _ _ b s o

end Cert.KernelIdeal.Whole

end
-- ==== Proof.Spec.lean ====
/-
  The function both programs compute, as one formula over the extended reals, index by index.

  A self-attention layer with 16 heads of 128 lanes over sequences of length 2048, batch 2, width 2048:
  a fused linear projection to queries, keys and values (6144 columns: part j of head n, lane d sits in column
  j·2048 + n·128 + d), per head the scores q·k scaled by a fixed factor, a softmax over the keys (the row maximum
  subtracted, exponentials, divided by their sum), the weighted sum of the values, the heads laid side by side
  (head n, lane d in column n·128 + d), and a final linear projection. Every sum is a plain finite sum over the
  contracted coordinate and the row maximum is the fold of `max` from the start value; neither side's tiling or
  order of summation appears here. The two building blocks are stated over plain functions of coordinates
  (`linAt`: one entry of a linear layer; `attnRow`: one query row of one head), so that a tile of either program
  can be compared with them directly.
-/
import Idealize.ShloMosaic.PureOps.Ideal
import Idealize.ShloMosaic.Lib.ValueIdx

noncomputable section

namespace Cert.Attn

open Idealize.ShloMosaic Idealize.ShloMosaic.ValueIdx

abbrev SX : Shape := ⟨3, ![2, 2048, 2048]⟩
abbrev SWq : Shape := ⟨2, ![6144, 2048]⟩
abbrev Sbq : Shape := ⟨1, ![6144]⟩
abbrev SWo : Shape := ⟨2, ![2048, 2048]⟩
abbrev Sbo : Shape := ⟨1, ![2048]⟩
abbrev SQ : Shape := ⟨3, ![2, 2048, 6144]⟩

/-- The scores' scale factor: the value of the one float literal both programs multiply by. -/
def scale : EReal := Ideal.ofBits .f32 0x3DB504F3#32
/-- The start value of the row maximum: the value of the literal both programs start the maximum from. -/
def maxInit : EReal := Ideal.ofBits .f32 0xFF800000#32

/-! ## One entry of a linear layer -/

/-- A row of activations against a row of weights, plus a bias. -/
def linAt (a w : Fin 2048 → EReal) (β : EReal) : EReal := (∑ h : Fin 2048, a h * w h) + β

/-! ## One query row of one head -/

/-- The scaled score of the query row `qv` against key row `k`. -/
def scoreR (qv : Fin 128 → EReal) (K : Fin 2048 → Fin 128 → EReal) (k : Fin 2048) : EReal :=
  (∑ d : Fin 128, qv d * K k d) * scale

/-- A row's maximum: the fold of `max` over the key positions from the start value. -/
def rowMax (f : Fin 2048 → EReal) : EReal := (Finset.univ : Finset (Fin 2048)).fold max maxInit f

/-- The exponential of a score less its row's maximum. -/
def expR (qv : Fin 128 → EReal) (K : Fin 2048 → Fin 128 → EReal) (k : Fin 2048) : EReal :=
  Ideal.exp (scoreR qv K k - rowMax (scoreR qv K))

/-- The softmax weight of key position `k`. -/
def probR (qv : Fin 128 → EReal) (K : Fin 2048 → Fin 128 → EReal) (k : Fin 2048) : EReal :=
  Ideal.div (expR qv K k) (∑ k' : Fin 2048, expR qv K k')

/-- Lane `d` of the attention output of the query row: the weights against the values. -/
def attnRow (qv : Fin 128 → EReal) (K V : Fin 2048 → Fin 128 → EReal) (d : Fin 128) : EReal :=
  ∑ k : Fin 2048, probR qv K k * V k d

/-! ## The layer -/

/-- Column of the fused projection holding lane `d` of head `n` of part `j` (0 queries, 1 keys, 2 values). -/
def col (j : Fin 3) (n : Fin 16) (d : Fin 128) : Fin 6144 := ⟨j.val * 2048 + n.val * 128 + d.val, by omega⟩
/-- Column of the merged heads holding lane `d` of head `n`. -/
def hcol (n : Fin 16) (d : Fin 128) : Fin 2048 := ⟨n.val * 128 + d.val, by omega⟩

/-- The fused projection: row (b, s) of the input against row `o` of the weight, plus the bias at `o`. -/
def qkvAt (X : SX.Idx → EReal) (W : SWq.Idx → EReal) (β : Sbq.Idx → EReal) (b : Fin 2) (s : Fin 2048) (o : Fin 6144) : EReal :=
  linAt (fun h => X (ix3 b s h)) (fun h => W (ix2 o h)) (β (ix1 o))

/-- The fused projection as an array. -/
def qkv (X : SX.Idx → EReal) (W : SWq.Idx → EReal) (β : Sbq.Idx → EReal) : SQ.Idx → EReal :=
  fun i => qkvAt X W β ⟨(i 0).val, (i 0).isLt⟩ ⟨(i 1).val, (i 1).isLt⟩ ⟨(i 2).val, (i 2).isLt⟩

/-- Lane `d` of head `n`'s output at position `q` of batch `b`, from the fused projection `Q`. -/
def headAt (Q : SQ.Idx → EReal) (b : Fin 2) (n : Fin 16) (q : Fin 2048) (d : Fin 128) : EReal :=
  attnRow (fun d' => Q (ix3 b q (col 0 n d'))) (fun k d' => Q (ix3 b k (col 1 n d'))) (fun k d' => Q (ix3 b k (col 2 n d'))) d

/-- The heads laid side by side: column `c` holds lane `c % 128` of head `c / 128`. -/
def merged (Q : SQ.Idx → EReal) : SX.Idx → EReal :=
  fun i => headAt Q ⟨(i 0).val, (i 0).isLt⟩ ⟨(i 2).val / 128, by have h : (i 2).val < 2048 := (i 2).isLt; omega⟩
    ⟨(i 1).val, (i 1).isLt⟩ ⟨(i 2).val % 128, Nat.mod_lt _ (by decide)⟩

/-- The final projection: row (b, s) of the merged heads against row `o` of the weight, plus the bias at `o`. -/
def outAt (A : SX.Idx → EReal) (W : SWo.Idx → EReal) (β : Sbo.Idx → EReal) (b : Fin 2) (s : Fin 2048) (o : Fin 2048) : EReal :=
  linAt (fun h => A (ix3 b s h)) (fun h => W (ix2 o h)) (β (ix1 o))

/-- The final projection as an array. -/
def out (A : SX.Idx → EReal) (W : SWo.Idx → EReal) (β : Sbo.Idx → EReal) : SX.Idx → EReal :=
  fun i => outAt A W β ⟨(i 0).val, (i 0).isLt⟩ ⟨(i 1).val, (i 1).isLt⟩ ⟨(i 2).val, (i 2).isLt⟩

/-- The whole layer. -/
def layer (X : SX.Idx → EReal) (Wq : SWq.Idx → EReal) (βq : Sbq.Idx → EReal) (Wo : SWo.Idx → EReal) (βo : Sbo.Idx → EReal) :
    SX.Idx → EReal :=
  out (merged (qkv X Wq βq)) Wo βo

theorem qkv_ix3 (X : SX.Idx → EReal) (W : SWq.Idx → EReal) (β : Sbq.Idx → EReal) (b : Fin 2) (s : Fin 2048) (o : Fin 6144) :
    qkv X W β (ix3 b s o) = qkvAt X W β b s o := rfl

theorem out_ix3 (A : SX.Idx → EReal) (W : SWo.Idx → EReal) (β : Sbo.Idx → EReal) (b : Fin 2) (s : Fin 2048) (o : Fin 2048) :
    out A W β (ix3 b s o) = outAt A W β b s o := rfl

theorem merged_ix3 (Q : SQ.Idx → EReal) (b : Fin 2) (s : Fin 2048) (n : Fin 16) (d : Fin 128) :
    merged Q (ix3 b s (hcol n d)) = headAt Q b n s d := by
  have h1 : (n.val * 128 + d.val) / 128 = n.val := by have := d.isLt; omega
  have h2 : (n.val * 128 + d.val) % 128 = d.val := by have := d.isLt; omega
  show headAt Q b ⟨(n.val * 128 + d.val) / 128, _⟩ s ⟨(n.val * 128 + d.val) % 128, _⟩ = _
  congr 1
  · exact Fin.ext h1
  · exact Fin.ext h2

end Cert.Attn

end
-- ==== Proof.Payload.lean ====
/-
  The three kernel bodies' arithmetic, read at one index, over the extended reals (every float an extended real,
  every operation exact, a change of format the identity).

  Each body computes its block from the blocks it loads by whole-array operations: matrix products, a broadcast
  bias, and for the attention body a row maximum, exponentials, a row sum and a division. Read at one index of the
  result, a matrix product is a finite sum over the contracted coordinate, a broadcast row or column reads one
  entry, a row reduction is a sum or a fold of `max` over the row's coordinates, and every pointwise operation acts
  on the entries. Put together, one entry of a linear body is `Cert.Attn.linAt` of a row of activations, a row of
  weights and a bias, and one entry of the attention body is `Cert.Attn.attnRow` of a query row and the key and
  value rows.
-/
import proofs.«101674_j89970974917190_2_alg».proof.Proof.Gen.KernelIdeal.Skeleton
import proofs.«101674_j89970974917190_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Idealize.ShloMosaic Idealize.ShloMosaic.ValueIdx Cert.KernelIdeal Cert.KernelIdeal.Gen Cert.Attn

/-! ## The matrix products read at an index

A product of two arrays along one contracted axis, into a zero accumulator, is at each output index the sum over
the contracted coordinate of the two operands' entries: the contraction's index set has one axis, and the sum is
carried along the bijection between it and that axis's coordinates. The first lemmas of each group say which
coordinate of the output index an operand's kept axis reads. -/

theorem mm0_apply_lhs0 (i : S1024x1024.Idx) (q : dot_S1024x2048_S1024x2048_S1024x1024_1_1_0_0_n_n.contr.Idx) : (dot_S1024x2048_S1024x2048_S1024x1024_1_1_0_0_n_n.lhsIdx i q 0).val = (i 0).val := by
  unfold DotDims.lhsIdx
  rw [dif_neg (show ¬(0 : Fin S1024x2048.rank) ∈ dot_S1024x2048_S1024x2048_S1024x1024_1_1_0_0_n_n.lhsBatch by decide),
    dif_pos (show (0 : Fin S1024x2048.rank) ∈ dot_S1024x2048_S1024x2048_S1024x1024_1_1_0_0_n_n.lhsNonContracting by decide)]
  rfl
theorem mm0_apply_rhs0 (i : S1024x1024.Idx) (q : dot_S1024x2048_S1024x2048_S1024x1024_1_1_0_0_n_n.contr.Idx) : (dot_S1024x2048_S1024x2048_S1024x1024_1_1_0_0_n_n.rhsIdx i q 0).val = (i 1).val := by
  unfold DotDims.rhsIdx
  rw [dif_neg (show ¬(0 : Fin S1024x2048.rank) ∈ dot_S1024x2048_S1024x2048_S1024x1024_1_1_0_0_n_n.rhsBatch by decide),
    dif_pos (show (0 : Fin S1024x2048.rank) ∈ dot_S1024x2048_S1024x2048_S1024x1024_1_1_0_0_n_n.rhsNonContracting by decide)]
  rfl
/-- Rows of a [1024, 2048] array against rows of a [1024, 2048] array: entry (r, c) is the sum over h of a(r, h) · b(c, h). -/
theorem mm0_apply (a : FVec Ideal S1024x2048 .bf16) (b : FVec Ideal S1024x2048 .bf16) (r : Fin 1024) (c : Fin 1024) :
    matmul dot_S1024x2048_S1024x2048_S1024x1024_1_1_0_0_n_n none a b (constant (F := Ideal) S1024x1024 .f32 0x00000000#32) (ix2 r c)
      = ∑ h : Fin 2048, a (ix2 r h) * b (ix2 c h) := by
  refine (Ideal.matmul_constant_zero_apply dot_S1024x2048_S1024x2048_S1024x1024_1_1_0_0_n_n none a b (ix2 r c)).trans ?_
  rw [← Equiv.sum_comp (contrEquiv1 dot_S1024x2048_S1024x2048_S1024x1024_1_1_0_0_n_n 2048 rfl rfl).symm]
  refine Finset.sum_congr rfl fun k _ => ?_
  have hk := contrEquiv1_symm_val dot_S1024x2048_S1024x2048_S1024x1024_1_1_0_0_n_n 2048 rfl rfl k
  have el : dot_S1024x2048_S1024x2048_S1024x1024_1_1_0_0_n_n.lhsIdx (ix2 r c) ((contrEquiv1 dot_S1024x2048_S1024x2048_S1024x1024_1_1_0_0_n_n 2048 rfl rfl).symm k) = ix2 r k :=
    funext fun x => Fin.ext (by
      match x with
      | ⟨0, _⟩ => exact mm0_apply_lhs0 _ _
      | ⟨1, _⟩ => exact (dot_S1024x2048_S1024x2048_S1024x1024_1_1_0_0_n_n.lhsIdx_val_of_single rfl _ _).trans hk)
  have er : dot_S1024x2048_S1024x2048_S1024x1024_1_1_0_0_n_n.rhsIdx (ix2 r c) ((contrEquiv1 dot_S1024x2048_S1024x2048_S1024x1024_1_1_0_0_n_n 2048 rfl rfl).symm k) = ix2 c k :=
    funext fun x => Fin.ext (by
      match x with
      | ⟨0, _⟩ => exact mm0_apply_rhs0 _ _
      | ⟨1, _⟩ => exact (dot_S1024x2048_S1024x2048_S1024x1024_1_1_0_0_n_n.rhsIdx_val_of_single rfl _ _).trans hk)
  rw [el, er]

theorem mm2_apply_lhs0 (i : S512x2048.Idx) (q : dot_S512x2048_S2048x2048_S512x2048_1_1_0_0_n_n.contr.Idx) : (dot_S512x2048_S2048x2048_S512x2048_1_1_0_0_n_n.lhsIdx i q 0).val = (i 0).val := by
  unfold DotDims.lhsIdx
  rw [dif_neg (show ¬(0 : Fin S512x2048.rank) ∈ dot_S512x2048_S2048x2048_S512x2048_1_1_0_0_n_n.lhsBatch by decide),
    dif_pos (show (0 : Fin S512x2048.rank) ∈ dot_S512x2048_S2048x2048_S512x2048_1_1_0_0_n_n.lhsNonContracting by decide)]
  rfl
theorem mm2_apply_rhs0 (i : S512x2048.Idx) (q : dot_S512x2048_S2048x2048_S512x2048_1_1_0_0_n_n.contr.Idx) : (dot_S512x2048_S2048x2048_S512x2048_1_1_0_0_n_n.rhsIdx i q 0).val = (i 1).val := by
  unfold DotDims.rhsIdx
  rw [dif_neg (show ¬(0 : Fin S2048x2048.rank) ∈ dot_S512x2048_S2048x2048_S512x2048_1_1_0_0_n_n.rhsBatch by decide),
    dif_pos (show (0 : Fin S2048x2048.rank) ∈ dot_S512x2048_S2048x2048_S512x2048_1_1_0_0_n_n.rhsNonContracting by decide)]
  rfl
/-- Rows of a [512, 2048] array against rows of a [2048, 2048] array: entry (r, c) is the sum over h of a(r, h) · b(c, h). -/
theorem mm2_apply (a : FVec Ideal S512x2048 .bf16) (b : FVec Ideal S2048x2048 .bf16) (r : Fin 512) (c : Fin 2048) :
    matmul dot_S512x2048_S2048x2048_S512x2048_1_1_0_0_n_n none a b (constant (F := Ideal) S512x2048 .f32 0x00000000#32) (ix2 r c)
      = ∑ h : Fin 2048, a (ix2 r h) * b (ix2 c h) := by
  refine (Ideal.matmul_constant_zero_apply dot_S512x2048_S2048x2048_S512x2048_1_1_0_0_n_n none a b (ix2 r c)).trans ?_
  rw [← Equiv.sum_comp (contrEquiv1 dot_S512x2048_S2048x2048_S512x2048_1_1_0_0_n_n 2048 rfl rfl).symm]
  refine Finset.sum_congr rfl fun k _ => ?_
  have hk := contrEquiv1_symm_val dot_S512x2048_S2048x2048_S512x2048_1_1_0_0_n_n 2048 rfl rfl k
  have el : dot_S512x2048_S2048x2048_S512x2048_1_1_0_0_n_n.lhsIdx (ix2 r c) ((contrEquiv1 dot_S512x2048_S2048x2048_S512x2048_1_1_0_0_n_n 2048 rfl rfl).symm k) = ix2 r k :=
    funext fun x => Fin.ext (by
      match x with
      | ⟨0, _⟩ => exact mm2_apply_lhs0 _ _
      | ⟨1, _⟩ => exact (dot_S512x2048_S2048x2048_S512x2048_1_1_0_0_n_n.lhsIdx_val_of_single rfl _ _).trans hk)
  have er : dot_S512x2048_S2048x2048_S512x2048_1_1_0_0_n_n.rhsIdx (ix2 r c) ((contrEquiv1 dot_S512x2048_S2048x2048_S512x2048_1_1_0_0_n_n 2048 rfl rfl).symm k) = ix2 c k :=
    funext fun x => Fin.ext (by
      match x with
      | ⟨0, _⟩ => exact mm2_apply_rhs0 _ _
      | ⟨1, _⟩ => exact (dot_S512x2048_S2048x2048_S512x2048_1_1_0_0_n_n.rhsIdx_val_of_single rfl _ _).trans hk)
  rw [el, er]

theorem mmQK_apply_lhs0 (i : S1024x2048.Idx) (q : dot_S1024x128_S2048x128_S1024x2048_1_1_0_0_n_n.contr.Idx) : (dot_S1024x128_S2048x128_S1024x2048_1_1_0_0_n_n.lhsIdx i q 0).val = (i 0).val := by
  unfold DotDims.lhsIdx
  rw [dif_neg (show ¬(0 : Fin S1024x128.rank) ∈ dot_S1024x128_S2048x128_S1024x2048_1_1_0_0_n_n.lhsBatch by decide),
    dif_pos (show (0 : Fin S1024x128.rank) ∈ dot_S1024x128_S2048x128_S1024x2048_1_1_0_0_n_n.lhsNonContracting by decide)]
  rfl
theorem mmQK_apply_rhs0 (i : S1024x2048.Idx) (q : dot_S1024x128_S2048x128_S1024x2048_1_1_0_0_n_n.contr.Idx) : (dot_S1024x128_S2048x128_S1024x2048_1_1_0_0_n_n.rhsIdx i q 0).val = (i 1).val := by
  unfold DotDims.rhsIdx
  rw [dif_neg (show ¬(0 : Fin S2048x128.rank) ∈ dot_S1024x128_S2048x128_S1024x2048_1_1_0_0_n_n.rhsBatch by decide),
    dif_pos (show (0 : Fin S2048x128.rank) ∈ dot_S1024x128_S2048x128_S1024x2048_1_1_0_0_n_n.rhsNonContracting by decide)]
  rfl
/-- Rows of a [1024, 128] array against rows of a [2048, 128] array: entry (r, c) is the sum over h of a(r, h) · b(c, h). -/
theorem mmQK_apply (a : FVec Ideal S1024x128 .bf16) (b : FVec Ideal S2048x128 .bf16) (r : Fin 1024) (c : Fin 2048) :
    matmul dot_S1024x128_S2048x128_S1024x2048_1_1_0_0_n_n none a b (constant (F := Ideal) S1024x2048 .f32 0x00000000#32) (ix2 r c)
      = ∑ h : Fin 128, a (ix2 r h) * b (ix2 c h) := by
  refine (Ideal.matmul_constant_zero_apply dot_S1024x128_S2048x128_S1024x2048_1_1_0_0_n_n none a b (ix2 r c)).trans ?_
  rw [← Equiv.sum_comp (contrEquiv1 dot_S1024x128_S2048x128_S1024x2048_1_1_0_0_n_n 128 rfl rfl).symm]
  refine Finset.sum_congr rfl fun k _ => ?_
  have hk := contrEquiv1_symm_val dot_S1024x128_S2048x128_S1024x2048_1_1_0_0_n_n 128 rfl rfl k
  have el : dot_S1024x128_S2048x128_S1024x2048_1_1_0_0_n_n.lhsIdx (ix2 r c) ((contrEquiv1 dot_S1024x128_S2048x128_S1024x2048_1_1_0_0_n_n 128 rfl rfl).symm k) = ix2 r k :=
    funext fun x => Fin.ext (by
      match x with
      | ⟨0, _⟩ => exact mmQK_apply_lhs0 _ _
      | ⟨1, _⟩ => exact (dot_S1024x128_S2048x128_S1024x2048_1_1_0_0_n_n.lhsIdx_val_of_single rfl _ _).trans hk)
  have er : dot_S1024x128_S2048x128_S1024x2048_1_1_0_0_n_n.rhsIdx (ix2 r c) ((contrEquiv1 dot_S1024x128_S2048x128_S1024x2048_1_1_0_0_n_n 128 rfl rfl).symm k) = ix2 c k :=
    funext fun x => Fin.ext (by
      match x with
      | ⟨0, _⟩ => exact mmQK_apply_rhs0 _ _
      | ⟨1, _⟩ => exact (dot_S1024x128_S2048x128_S1024x2048_1_1_0_0_n_n.rhsIdx_val_of_single rfl _ _).trans hk)
  rw [el, er]

theorem mmPV_apply_lhs0 (i : S1024x128.Idx) (q : dot_S1024x2048_S2048x128_S1024x128_1_0_0_1_n_n.contr.Idx) : (dot_S1024x2048_S2048x128_S1024x128_1_0_0_1_n_n.lhsIdx i q 0).val = (i 0).val := by
  unfold DotDims.lhsIdx
  rw [dif_neg (show ¬(0 : Fin S1024x2048.rank) ∈ dot_S1024x2048_S2048x128_S1024x128_1_0_0_1_n_n.lhsBatch by decide),
    dif_pos (show (0 : Fin S1024x2048.rank) ∈ dot_S1024x2048_S2048x128_S1024x128_1_0_0_1_n_n.lhsNonContracting by decide)]
  rfl
theorem mmPV_apply_rhs1 (i : S1024x128.Idx) (q : dot_S1024x2048_S2048x128_S1024x128_1_0_0_1_n_n.contr.Idx) : (dot_S1024x2048_S2048x128_S1024x128_1_0_0_1_n_n.rhsIdx i q 1).val = (i 1).val := by
  unfold DotDims.rhsIdx
  rw [dif_neg (show ¬(1 : Fin S2048x128.rank) ∈ dot_S1024x2048_S2048x128_S1024x128_1_0_0_1_n_n.rhsBatch by decide),
    dif_pos (show (1 : Fin S2048x128.rank) ∈ dot_S1024x2048_S2048x128_S1024x128_1_0_0_1_n_n.rhsNonContracting by decide)]
  rfl
/-- Rows of a [1024, 2048] array against columns of a [2048, 128] array: entry (r, c) is the sum over h of a(r, h) · b(h, c). -/
theorem mmPV_apply (a : FVec Ideal S1024x2048 .bf16) (b : FVec Ideal S2048x128 .bf16) (r : Fin 1024) (c : Fin 128) :
    matmul dot_S1024x2048_S2048x128_S1024x128_1_0_0_1_n_n none a b (constant (F := Ideal) S1024x128 .f32 0x00000000#32) (ix2 r c)
      = ∑ h : Fin 2048, a (ix2 r h) * b (ix2 h c) := by
  refine (Ideal.matmul_constant_zero_apply dot_S1024x2048_S2048x128_S1024x128_1_0_0_1_n_n none a b (ix2 r c)).trans ?_
  rw [← Equiv.sum_comp (contrEquiv1 dot_S1024x2048_S2048x128_S1024x128_1_0_0_1_n_n 2048 rfl rfl).symm]
  refine Finset.sum_congr rfl fun k _ => ?_
  have hk := contrEquiv1_symm_val dot_S1024x2048_S2048x128_S1024x128_1_0_0_1_n_n 2048 rfl rfl k
  have el : dot_S1024x2048_S2048x128_S1024x128_1_0_0_1_n_n.lhsIdx (ix2 r c) ((contrEquiv1 dot_S1024x2048_S2048x128_S1024x128_1_0_0_1_n_n 2048 rfl rfl).symm k) = ix2 r k :=
    funext fun x => Fin.ext (by
      match x with
      | ⟨0, _⟩ => exact mmPV_apply_lhs0 _ _
      | ⟨1, _⟩ => exact (dot_S1024x2048_S2048x128_S1024x128_1_0_0_1_n_n.lhsIdx_val_of_single rfl _ _).trans hk)
  have er : dot_S1024x2048_S2048x128_S1024x128_1_0_0_1_n_n.rhsIdx (ix2 r c) ((contrEquiv1 dot_S1024x2048_S2048x128_S1024x128_1_0_0_1_n_n 2048 rfl rfl).symm k) = ix2 k c :=
    funext fun x => Fin.ext (by
      match x with
      | ⟨0, _⟩ => exact (dot_S1024x2048_S2048x128_S1024x128_1_0_0_1_n_n.rhsIdx_val_of_single rfl _ _).trans hk
      | ⟨1, _⟩ => exact mmPV_apply_rhs1 _ _)
  rw [el, er]

/-! ## The two linear bodies -/

/-- One entry of the first linear body: the row of activations against the row of weights, plus the bias. -/
theorem lin0_apply (x0 x2 : Vec Ideal S1024x2048 .bf16) (x5 : Vec Ideal S1x1024 .f32) (r c : Fin 1024) :
    k0_pay1 (F := Ideal) x0 x2 x5 (ix2 r c) = linAt (fun h => x0 (ix2 r h)) (fun h => x2 (ix2 c h)) (x5 (ix2 0 c)) := by
  unfold k0_pay1 linAt
  rw [truncf_apply, addf_apply, shapeCast_self, shapeCast_self, shapeCast_self, mm0_apply, broadcastTo_1b_ab_apply]

/-- One entry of the last linear body: the row of activations against the row of weights, plus the bias. -/
theorem lin2_apply (x0 : Vec Ideal S512x2048 .bf16) (x2 : Vec Ideal S2048x2048 .bf16) (x5 : Vec Ideal S1x2048 .f32)
    (r : Fin 512) (c : Fin 2048) :
    k2_pay1 (F := Ideal) x0 x2 x5 (ix2 r c) = linAt (fun h => x0 (ix2 r h)) (fun h => x2 (ix2 c h)) (x5 (ix2 0 c)) := by
  unfold k2_pay1 linAt
  rw [addf_apply, shapeCast_self, shapeCast_self, shapeCast_self, mm2_apply, broadcastTo_1b_ab_apply]

/-! ## A column kept as a unit axis

A row reduction's result, one entry per row, is viewed as a column and the column is spread over the row again:
both steps read the row's one entry. -/

section Column
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-! ## The two row reductions read at a row

Over the second axis of a [1024, 2048] array: the sum is the sum over the row's 2048 coordinates, the maximum is the
fold of `max` over them from the start value. -/

/-- The row sum at row `q`. -/
theorem rowSum_apply (src : FVec Ideal S1024x2048 .f32) (hφ : FKind.Formats .f32)
    (hacc : (0x00000000#32 : BitVec 32) = 0x00000000#32) (q : Fin 1024) :
    multiReduction .add [1] S1024 src 0x00000000#32 reduces_S1024x2048_S1024 hφ hacc (ix1 q)
      = ∑ k : Fin 2048, src (ix2 q k) := by
  refine (Ideal.multiReduction_add_single src 0x00000000#32 reduces_S1024x2048_S1024 hφ hacc (ix1 q)).trans ?_
  exact Finset.sum_congr rfl fun k _ => congrArg src (funext fun x => Fin.ext (by
    match x with
    | ⟨0, _⟩ => rfl
    | ⟨1, _⟩ => rfl))

/-- The row maximum at row `q`. -/
theorem rowMax_apply (src : FVec Ideal S1024x2048 .f32) (hφ : FKind.Formats .f32)
    (hacc : (0xFF800000#32 : BitVec 32) = 0xFF800000#32) (q : Fin 1024) :
    multiReduction .maximumf [1] S1024 src 0xFF800000#32 reduces_S1024x2048_S1024 hφ hacc (ix1 q)
      = rowMax (fun k => src (ix2 q k)) := by
  refine (Ideal.multiReduction_maximumf_single src 0xFF800000#32 reduces_S1024x2048_S1024 hφ hacc (ix1 q)).trans ?_
  unfold rowMax maxInit
  refine congrArg (fun f => (Finset.univ : Finset (Fin 2048)).fold max (Ideal.ofBits .f32 0xFF800000#32) f) ?_
  exact funext fun k => congrArg src (funext fun x => Fin.ext (by
    match x with
    | ⟨0, _⟩ => rfl
    | ⟨1, _⟩ => rfl))

/-- The exponential of an array reads the exponential of the entry. -/
theorem exp_apply {s : Shape} {φ : FTy} (a : FVec Ideal s φ) (i : s.Idx) :
    Idealize.ShloMosaic.exp a i = Ideal.exp (a i) := rfl

/-! ## The attention body -/

/-- One entry of the attention body: lane `d` of the attention output of query row `q`. The last product's entry is
the sum over the key positions of the softmax weight times the value; the weight is the exponential over the row sum
of the exponentials; the exponential is of the scaled score less the row maximum of the scaled scores; the scaled
score is the query row against the key row, times the scale. -/
theorem attn_apply (x0 : Vec Ideal S1x1024x128 .bf16) (x2 x4 : Vec Ideal S1x2048x128 .bf16) (q : Fin 1024) (d : Fin 128) :
    k1_pay1 (F := Ideal) x0 x2 x4 (ix3 0 q d)
      = attnRow (fun d' => x0 (ix3 0 q d')) (fun k d' => x2 (ix3 0 k d')) (fun k d' => x4 (ix3 0 k d')) d := by
  unfold k1_pay1
  rw [shapeCast_ab_1ab_apply, truncf_apply, mmPV_apply]
  unfold attnRow
  refine Finset.sum_congr rfl fun k _ => ?_
  rw [truncf_apply, divf_apply, shapeCast_1ab_ab_apply, broadcastTo_a1_ab_apply, shapeCast_a_a1_apply, rowSum_apply]
  simp only [exp_apply, subf_apply, broadcastTo_a1_ab_apply, shapeCast_a_a1_apply]
  rw [rowMax_apply]
  simp only [mulf_apply, broadcast_apply, mmQK_apply, shapeCast_1ab_ab_apply]
  rfl

end Cert.KernelIdeal.Payload

end
-- ==== Proof.LinValue.lean ====
/-
  The two linear kernel regions' result arrays, at the ideal values, as functions of the arrays the regions find.

  Each region runs its body once per grid point on tiles of its three input arrays and writes the body's tile of the
  result back. At a point the body's tile is, entry by entry, a row of the activations' tile against a row of the
  weight's tile plus an entry of the bias's tile; a tile's entry is the array's entry at block index × block size + the
  coordinate inside the tile, and the block indices at each grid point are decided once over the grid. So what a point
  writes back is its block of ONE function of the three arrays — entry (r, o) is row r of the activations against row o
  of the weight plus the bias at o — and, the result's blocks covering the whole array (the point covering an entry is
  found by dividing its coordinates by the block sizes), the result array ends as that function.
-/
import proofs.«101674_j89970974917190_2_alg».proof.Proof.RegionsI
import proofs.«101674_j89970974917190_2_alg».proof.Proof.Payload
import proofs.«101674_j89970974917190_2_alg».proof.Proof.Spec
import Idealize.ShloMosaic.Lib.Pipeline.Value

noncomputable section

namespace Cert.KernelIdeal.LinValue

open Cert.KernelIdeal Cert.KernelIdeal.Gen Cert.KernelIdeal.Hand Cert.KernelIdeal.Payload Cert.Attn Idealize.ShloMosaic
  Idealize.ShloMosaic.ValueIdx Idealize.ShloMosaic.TcCoe
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The first linear region

A 4 × 6 grid; point t = 6·i + j takes rows 1024·i … of the activations, rows 1024·j … of the weight and columns
1024·j … of the bias, and writes block (i, j) of the result. -/

/-- The region's result as one function of its three input arrays: entry (r, o) is row r of the activations against
    row o of the weight, plus the bias at o. -/
def G0 (A : S4096x2048.Idx → EReal) (W : S6144x2048.Idx → EReal) (β : S1x6144.Idx → EReal) : S4096x6144.Idx → EReal :=
  fun i => linAt (fun h => A (ix2 (⟨(i 0).val, (i 0).isLt⟩ : Fin 4096) h)) (fun h => W (ix2 (⟨(i 1).val, (i 1).isLt⟩ : Fin 6144) h))
    (β (ix2 (0 : Fin 1) (⟨(i 1).val, (i 1).isLt⟩ : Fin 6144)))

/-- The windows' block indices at every grid point t = 6·i + j: the activations' row block is i, the weight's row block
    and the bias's column block are j, the result's block is (i, j); every other block index is zero. -/
theorem idx_facts0 : ∀ t : Fin cfg0.N,
    win0_0.index t (0 : Fin 2) = t.val / 6 ∧ win0_0.index t (1 : Fin 2) = 0
    ∧ win0_1.index t (0 : Fin 2) = t.val % 6 ∧ win0_1.index t (1 : Fin 2) = 0
    ∧ win0_2.index t (0 : Fin 2) = 0 ∧ win0_2.index t (1 : Fin 2) = t.val % 6
    ∧ win0_3.index t (0 : Fin 2) = t.val / 6 ∧ win0_3.index t (1 : Fin 2) = t.val % 6 :=
  (by decide +kernel : ∀ t : Fin grid0.N, _)

/-- One entry of the body's value, at any index of the tile. -/
theorem pay0_at (x0 x1 : Vec Ideal S1024x2048 .bf16) (x2 : Vec Ideal S1x1024 .f32) (j : S1024x1024.Idx) :
    k0_pay1 (F := Ideal) x0 x1 x2 j
      = linAt (fun h => x0 (ix2 (⟨(j 0).val, (j 0).isLt⟩ : Fin 1024) h)) (fun h => x1 (ix2 (⟨(j 1).val, (j 1).isLt⟩ : Fin 1024) h))
          (x2 (ix2 (0 : Fin 1) (⟨(j 1).val, (j 1).isLt⟩ : Fin 1024))) := by
  obtain ⟨r, c, rfl⟩ : ∃ (r : Fin 1024) (c : Fin 1024), j = ix2 r c := ⟨j 0, j 1, eq_ix2 j⟩
  exact lin0_apply x0 x1 x2 r c

/-- The activations' tile at point t is rows 1024·(t / 6) … of the array. -/
theorem iblk0_0_apply (c : Dev nD) (t : Fin cfg0.N) (x : S1024x2048.Idx) (k : S4096x2048.Idx)
    (hk0 : (k 0).val = t.val / 6 * 1024 + (x 0).val) (hk1 : (k 1).val = (x 1).val) :
    (iblk0 V c 0 t : Vec Ideal S1024x2048 .bf16) x = (V c main_v1 : S4096x2048.Idx → EReal) k := by
  obtain ⟨e0, e1, -⟩ := idx_facts0 t
  unfold iblk0
  rw [View.read_apply]
  show V c main_v1 _ = V c main_v1 _
  congr 1
  funext a
  apply Fin.ext
  match a with
  | ⟨0, _⟩ => show win0_0.index t 0 * 1024 + 1 * (x 0).val = (k 0).val; rw [e0, hk0]; omega
  | ⟨1, _⟩ => show win0_0.index t 1 * 2048 + 1 * (x 1).val = (k 1).val; rw [e1, hk1]; omega

/-- The weight's tile at point t is rows 1024·(t % 6) … of the array. -/
theorem iblk0_1_apply (c : Dev nD) (t : Fin cfg0.N) (x : S1024x2048.Idx) (k : S6144x2048.Idx)
    (hk0 : (k 0).val = t.val % 6 * 1024 + (x 0).val) (hk1 : (k 1).val = (x 1).val) :
    (iblk0 V c 1 t : Vec Ideal S1024x2048 .bf16) x = (V c main_v2 : S6144x2048.Idx → EReal) k := by
  obtain ⟨-, -, e0, e1, -⟩ := idx_facts0 t
  unfold iblk0
  rw [View.read_apply]
  show V c main_v2 _ = V c main_v2 _
  congr 1
  funext a
  apply Fin.ext
  match a with
  | ⟨0, _⟩ => show win0_1.index t 0 * 1024 + 1 * (x 0).val = (k 0).val; rw [e0, hk0]; omega
  | ⟨1, _⟩ => show win0_1.index t 1 * 2048 + 1 * (x 1).val = (k 1).val; rw [e1, hk1]; omega

/-- The bias's tile at point t is columns 1024·(t % 6) … of the array. -/
theorem iblk0_2_apply (c : Dev nD) (t : Fin cfg0.N) (x : S1x1024.Idx) (k : S1x6144.Idx)
    (hk0 : (k 0).val = (x 0).val) (hk1 : (k 1).val = t.val % 6 * 1024 + (x 1).val) :
    (iblk0 V c 2 t : Vec Ideal S1x1024 .f32) x = (V c main_v4 : S1x6144.Idx → EReal) k := by
  obtain ⟨-, -, -, -, e0, e1, -⟩ := idx_facts0 t
  unfold iblk0
  rw [View.read_apply]
  show V c main_v4 _ = V c main_v4 _
  congr 1
  funext a
  apply Fin.ext
  match a with
  | ⟨0, _⟩ => show win0_2.index t 0 * 1 + 1 * (x 0).val = (k 0).val; rw [e0, hk0]; omega
  | ⟨1, _⟩ => show win0_2.index t 1 * 1024 + 1 * (x 1).val = (k 1).val; rw [e1, hk1]; omega

/-- What point t writes back is block t of the region's function of the arrays the region finds. -/
theorem flushed0_eq (c : Dev nD) (t : Fin cfg0.N) :
    (dat0 (F := Ideal) V c).flushed 3 t
      = ((cfg0.win 3).blk t).view.read (Elt Ideal) (G0 (V c main_v1) (V c main_v2) (V c main_v4)) := by
  show (cfg0.win 3).cut (grid0.coords t) ((dat0 (F := Ideal) V c).after 3 t) = _
  rw [after0_3]
  unfold out0
  rw [View.canon_unit_zero hz]
  simp only [View.ld_unit_zero (S := S1024x2048) hz, View.ld_unit_zero (S := S1x1024) hz]
  obtain ⟨-, -, -, -, -, -, e0, e1⟩ := idx_facts0 t
  funext y
  have hy0 : (y 0).val < 1024 := (y 0).isLt
  have hy1 : (y 1).val < 1024 := (y 1).isLt
  refine (pay0_at _ _ _ _).trans ?_
  show _ = G0 (V c main_v1) (V c main_v2) (V c main_v4) (((cfg0.win 3).blk t).view.emb y)
  have k0 : ((((cfg0.win 3).blk t).view.emb y) 0).val = t.val / 6 * 1024 + (y 0).val := by
    show win0_3.index t 0 * 1024 + 1 * (y 0).val = _; rw [e0]; omega
  have k1 : ((((cfg0.win 3).blk t).view.emb y) 1).val = t.val % 6 * 1024 + (y 1).val := by
    show win0_3.index t 1 * 1024 + 1 * (y 1).val = _; rw [e1]; omega
  unfold G0
  refine congr (congr (congrArg linAt (funext fun h => ?_)) (funext fun h => ?_)) ?_
  · exact iblk0_0_apply V c t _ _ k0 rfl
  · exact iblk0_1_apply V c t _ _ k1 rfl
  · exact iblk0_2_apply V c t _ _ rfl k1

/-- An index of the result is in point t's block iff each coordinate is in the block's range on its axis. -/
theorem mem_blk0 (t : Fin cfg0.N) (i : S4096x6144.Idx) :
    i ∈ ((cfg0.win 3).blk t).view.set
      ↔ ∀ a : Fin 2, win0_3.index t a * S1024x1024.size a ≤ (i a).val ∧ (i a).val < win0_3.index t a * S1024x1024.size a + S1024x1024.size a := by
  show i ∈ ((View.whole main_v5).slice (win0_3.rect t)).set ↔ _
  rw [View.set_slice_whole, Rect.mem_set_unit]
  exact Iff.rfl

/-- Every index of the result is in some point's block: entry (r, o) is in the block of point 6·(r / 1024) + o / 1024. -/
theorem covers0 (i : S4096x6144.Idx) :
    ∃ t : Fin cfg0.N, (cfg0.win 3).flush t = true ∧ i ∈ ((cfg0.win 3).blk t).view.set := by
  have hi0 : (i 0).val < 4096 := (i 0).isLt
  have hi1 : (i 1).val < 6144 := (i 1).isLt
  have hN : cfg0.N = 24 := N_0
  obtain ⟨t, ht⟩ : ∃ t : Fin cfg0.N, t.val = (i 0).val / 1024 * 6 + (i 1).val / 1024 :=
    ⟨⟨(i 0).val / 1024 * 6 + (i 1).val / 1024, by rw [hN]; omega⟩, rfl⟩
  obtain ⟨-, -, -, -, -, -, e0, e1⟩ := idx_facts0 t
  refine ⟨t, flush0_3 t, ?_⟩
  rw [mem_blk0]
  intro a
  match a with
  | ⟨0, _⟩ => show win0_3.index t 0 * 1024 ≤ (i 0).val ∧ (i 0).val < win0_3.index t 0 * 1024 + 1024; rw [e0, ht]; omega
  | ⟨1, _⟩ => show win0_3.index t 1 * 1024 ≤ (i 1).val ∧ (i 1).val < win0_3.index t 1 * 1024 + 1024; rw [e1, ht]; omega

/-- THE RESULT ARRAY after the region: the region's function of the three arrays it finds. -/
theorem final0 (c : Dev nD) :
    (dat0 (F := Ideal) V c).arrAt 3 cfg0.N = G0 (V c main_v1) (V c main_v2) (V c main_v4) :=
  (dat0 (F := Ideal) V c).arrAt_eq_of_cover 3 (G0 (V c main_v1) (V c main_v2) (V c main_v4))
    (fun t _ => flushed0_eq V c t) (covers0)

/-! ## The last linear region

Eight grid points; point t takes rows 512·t … 512·t + 511 of the activations, all of the weight and all of the bias, and
writes rows 512·t … of the result. -/

/-- The region's result as one function of its three input arrays: entry (r, o) is row r of the activations against
    row o of the weight, plus the bias at o. -/
def G2 (A : S4096x2048.Idx → EReal) (W : S2048x2048.Idx → EReal) (β : S1x2048.Idx → EReal) : S4096x2048.Idx → EReal :=
  fun i => linAt (fun h => A (ix2 (⟨(i 0).val, (i 0).isLt⟩ : Fin 4096) h)) (fun h => W (ix2 (⟨(i 1).val, (i 1).isLt⟩ : Fin 2048) h))
    (β (ix2 (0 : Fin 1) (⟨(i 1).val, (i 1).isLt⟩ : Fin 2048)))

/-- The windows' block indices at every grid point: the activations' and the result's row block is the point's number,
    every other block index is zero. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- One entry of the body's value, at any index of the tile. -/
theorem pay2_at (x0 : Vec Ideal S512x2048 .bf16) (x1 : Vec Ideal S2048x2048 .bf16) (x2 : Vec Ideal S1x2048 .f32) (j : S512x2048.Idx) :
    k2_pay1 (F := Ideal) x0 x1 x2 j
      = linAt (fun h => x0 (ix2 (⟨(j 0).val, (j 0).isLt⟩ : Fin 512) h)) (fun h => x1 (ix2 (⟨(j 1).val, (j 1).isLt⟩ : Fin 2048) h))
          (x2 (ix2 (0 : Fin 1) (⟨(j 1).val, (j 1).isLt⟩ : Fin 2048))) := by
  obtain ⟨r, c, rfl⟩ : ∃ (r : Fin 512) (c : Fin 2048), j = ix2 r c := ⟨j 0, j 1, eq_ix2 j⟩
  exact lin2_apply x0 x1 x2 r c

/-- The activations' tile at point t is rows 512·t … of the array. -/
theorem iblk2_0_apply (c : Dev nD) (t : Fin cfg2.N) (x : S512x2048.Idx) (k : S4096x2048.Idx)
    (hk0 : (k 0).val = t.val * 512 + (x 0).val) (hk1 : (k 1).val = (x 1).val) :
    (iblk2 V c 0 t : Vec Ideal S512x2048 .bf16) x = (V c main_v8 : S4096x2048.Idx → EReal) k := by
  obtain ⟨e0, e1, -⟩ := idx_facts2 t
  unfold iblk2
  rw [View.read_apply]
  show V c main_v8 _ = V c main_v8 _
  congr 1
  funext a
  apply Fin.ext
  match a with
  | ⟨0, _⟩ => show win2_0.index t 0 * 512 + 1 * (x 0).val = (k 0).val; rw [e0, hk0]; omega
  | ⟨1, _⟩ => show win2_0.index t 1 * 2048 + 1 * (x 1).val = (k 1).val; rw [e1, hk1]; omega

/-- The weight's tile is the whole array. -/
theorem iblk2_1_apply (c : Dev nD) (t : Fin cfg2.N) (x k : S2048x2048.Idx)
    (hk0 : (k 0).val = (x 0).val) (hk1 : (k 1).val = (x 1).val) :
    (iblk2 V c 1 t : Vec Ideal S2048x2048 .bf16) x = (V c main_v3 : S2048x2048.Idx → EReal) k := by
  obtain ⟨-, -, e0, e1, -⟩ := idx_facts2 t
  unfold iblk2
  rw [View.read_apply]
  show V c main_v3 _ = V c main_v3 _
  congr 1
  funext a
  apply Fin.ext
  match a with
  | ⟨0, _⟩ => show win2_1.index t 0 * 2048 + 1 * (x 0).val = (k 0).val; rw [e0, hk0]; omega
  | ⟨1, _⟩ => show win2_1.index t 1 * 2048 + 1 * (x 1).val = (k 1).val; rw [e1, hk1]; omega

/-- The bias's tile is the whole array. -/
theorem iblk2_2_apply (c : Dev nD) (t : Fin cfg2.N) (x k : S1x2048.Idx)
    (hk0 : (k 0).val = (x 0).val) (hk1 : (k 1).val = (x 1).val) :
    (iblk2 V c 2 t : Vec Ideal S1x2048 .f32) x = (V c main_v9 : S1x2048.Idx → EReal) k := by
  obtain ⟨-, -, -, -, e0, e1, -⟩ := idx_facts2 t
  unfold iblk2
  rw [View.read_apply]
  show V c main_v9 _ = V c main_v9 _
  congr 1
  funext a
  apply Fin.ext
  match a with
  | ⟨0, _⟩ => show win2_2.index t 0 * 1 + 1 * (x 0).val = (k 0).val; rw [e0, hk0]; omega
  | ⟨1, _⟩ => show win2_2.index t 1 * 2048 + 1 * (x 1).val = (k 1).val; rw [e1, hk1]; omega

/-- What point t writes back is block t of the region's function of the arrays the region finds. -/
theorem flushed2_eq (c : Dev nD) (t : Fin cfg2.N) :
    (dat2 (F := Ideal) V c).flushed 3 t
      = ((cfg2.win 3).blk t).view.read (Elt Ideal) (G2 (V c main_v8) (V c main_v3) (V c main_v9)) := by
  show (cfg2.win 3).cut (grid2.coords t) ((dat2 (F := Ideal) V c).after 3 t) = _
  rw [after2_3]
  unfold out2
  rw [View.canon_unit_zero hz]
  simp only [View.ld_unit_zero (S := S512x2048) hz, View.ld_unit_zero (S := S2048x2048) hz, View.ld_unit_zero (S := S1x2048) hz]
  obtain ⟨-, -, -, -, -, -, e0, e1⟩ := idx_facts2 t
  funext y
  have hy0 : (y 0).val < 512 := (y 0).isLt
  have hy1 : (y 1).val < 2048 := (y 1).isLt
  refine (pay2_at _ _ _ _).trans ?_
  show _ = G2 (V c main_v8) (V c main_v3) (V c main_v9) (((cfg2.win 3).blk t).view.emb y)
  have k0 : ((((cfg2.win 3).blk t).view.emb y) 0).val = t.val * 512 + (y 0).val := by
    show win2_3.index t 0 * 512 + 1 * (y 0).val = _; rw [e0]; omega
  have k1 : ((((cfg2.win 3).blk t).view.emb y) 1).val = (y 1).val := by
    show win2_3.index t 1 * 2048 + 1 * (y 1).val = _; rw [e1]; omega
  unfold G2
  refine congr (congr (congrArg linAt (funext fun h => ?_)) (funext fun h => ?_)) ?_
  · exact iblk2_0_apply V c t _ _ k0 rfl
  · exact iblk2_1_apply V c t _ _ k1 rfl
  · exact iblk2_2_apply V c t _ _ rfl k1

/-- An index of the result is in point t's block iff each coordinate is in the block's range on its axis. -/
theorem mem_blk2 (t : Fin cfg2.N) (i : S4096x2048.Idx) :
    i ∈ ((cfg2.win 3).blk t).view.set
      ↔ ∀ a : Fin 2, win2_3.index t a * S512x2048.size a ≤ (i a).val ∧ (i a).val < win2_3.index t a * S512x2048.size a + S512x2048.size a := by
  show i ∈ ((View.whole main_v10).slice (win2_3.rect t)).set ↔ _
  rw [View.set_slice_whole, Rect.mem_set_unit]
  exact Iff.rfl

/-- Every index of the result is in some point's block: row r is in the block of point r / 512. -/
theorem covers2 (i : S4096x2048.Idx) :
    ∃ t : Fin cfg2.N, (cfg2.win 3).flush t = true ∧ i ∈ ((cfg2.win 3).blk t).view.set := by
  have hi0 : (i 0).val < 4096 := (i 0).isLt
  have hi1 : (i 1).val < 2048 := (i 1).isLt
  have hN : cfg2.N = 8 := N_2
  obtain ⟨t, ht⟩ : ∃ t : Fin cfg2.N, t.val = (i 0).val / 512 := ⟨⟨(i 0).val / 512, by rw [hN]; omega⟩, rfl⟩
  obtain ⟨-, -, -, -, -, -, e0, e1⟩ := idx_facts2 t
  refine ⟨t, flush2_3 t, ?_⟩
  rw [mem_blk2]
  intro a
  match a with
  | ⟨0, _⟩ => show win2_3.index t 0 * 512 ≤ (i 0).val ∧ (i 0).val < win2_3.index t 0 * 512 + 512; rw [e0, ht]; omega
  | ⟨1, _⟩ => show win2_3.index t 1 * 2048 ≤ (i 1).val ∧ (i 1).val < win2_3.index t 1 * 2048 + 2048; rw [e1]; omega

/-- THE RESULT ARRAY after the region: the region's function of the three arrays it finds. -/
theorem final2 (c : Dev nD) :
    (dat2 (F := Ideal) V c).arrAt 3 cfg2.N = G2 (V c main_v8) (V c main_v3) (V c main_v9) :=
  (dat2 (F := Ideal) V c).arrAt_eq_of_cover 3 (G2 (V c main_v8) (V c main_v3) (V c main_v9))
    (fun t _ => flushed2_eq V c t) (covers2)

end Cert.KernelIdeal.LinValue

end
-- ==== Proof.AttnValue.lean ====
/-
  The attention region's final array, over the extended reals.

  The region runs the attention body once per (batch, head, half of the query rows). At a point it reads three tiles
  of the fused projection — the head's queries for that half of the rows, the head's keys and the head's values over
  the whole sequence — and writes one tile of the merged-heads array: rows of that half, the head's 128 columns. One
  entry of what it writes is one query row's attention output at one lane; the tiles written tile the whole array, so
  the array ends holding the merged heads of the fused projection the region was entered with.
-/
import proofs.«101674_j89970974917190_2_alg».proof.Proof.RegionsI
import proofs.«101674_j89970974917190_2_alg».proof.Proof.Payload
import proofs.«101674_j89970974917190_2_alg».proof.Proof.Spec
import Idealize.ShloMosaic.Lib.Pipeline.Value

noncomputable section

namespace Cert.KernelIdeal.AttnValue

open Cert.KernelIdeal Cert.KernelIdeal.Gen Cert.KernelIdeal.Hand Cert.Attn
open Idealize.ShloMosaic Idealize.ShloMosaic.ValueIdx Idealize.ShloMosaic.TcCoe
open Idealize.ShloMosaic.Pipeline (Dat)

variable (V : (c : Dev nD) → (b : Ref sig .tc) → Buf (Elt Ideal) ((c : Thread nD τ).loc b))

theorem zero3 : (![0, 0, 0] : Fin 3 → Nat) = fun _ => 0 := funext fun a => by fin_cases a <;> rfl

/-! ## The block indices over the grid -/

/-- The four windows' block indices at a grid point, decided over the 64 points: the query window moves with the
    output window; the key and value windows sit at the output's batch, over the whole sequence, 16 and 32 column
    blocks to the right of the output's column block; the output's block indices stay in their ranges. -/
theorem idx_facts : ∀ t : Fin cfg1.N,
    win1_0.index t (0 : Fin 3) = win1_3.index t (0 : Fin 3)
    ∧ win1_0.index t (1 : Fin 3) = win1_3.index t (1 : Fin 3)
    ∧ win1_0.index t (2 : Fin 3) = win1_3.index t (2 : Fin 3)
    ∧ win1_1.index t (0 : Fin 3) = win1_3.index t (0 : Fin 3)
    ∧ win1_1.index t (1 : Fin 3) = 0
    ∧ win1_1.index t (2 : Fin 3) = 16 + win1_3.index t (2 : Fin 3)
    ∧ win1_2.index t (0 : Fin 3) = win1_3.index t (0 : Fin 3)
    ∧ win1_2.index t (1 : Fin 3) = 0
    ∧ win1_2.index t (2 : Fin 3) = 32 + win1_3.index t (2 : Fin 3)
    ∧ win1_3.index t (0 : Fin 3) ≤ 1 ∧ win1_3.index t (1 : Fin 3) ≤ 1 ∧ win1_3.index t (2 : Fin 3) ≤ 15 :=
  (by decide +kernel : ∀ t : Fin grid1.N, _)

/-- Every block of the output array is some point's. -/
theorem idx_onto : ∀ (q0 : Fin 2) (q1 : Fin 2) (q2 : Fin 16), ∃ t : Fin cfg1.N, win1_3.index t = ![q0.val, q1.val, q2.val] :=
  (by decide +kernel : ∀ (q0 : Fin 2) (q1 : Fin 2) (q2 : Fin 16), ∃ t : Fin grid1.N, win1_3.index t = ![q0.val, q1.val, q2.val])

/-! ## One entry of a written tile -/

/-- One entry of the tile written at the point of batch `b`, head `n` and half `qi` of the rows, when the three tiles
    read there are the head's queries (rows of that half), keys and values of the array `Q`: the entry at local row
    `y 1` and lane `y 2` is the merged heads of `Q` at batch `b`, row `qi·1024 + y 1`, column `n·128 + y 2`. -/
theorem tile_entry (x0 : Vec Ideal S1x1024x128 .bf16) (x1 x2 : Vec Ideal S1x2048x128 .bf16) (Q : SQ.Idx → EReal)
    (b : Fin 2) (n : Fin 16) (qi : Fin 2)
    (h0 : ∀ (q : Fin 1024) (d' : Fin 128),
      x0 (ix3 0 q d') = Q (ix3 b ⟨qi.val * 1024 + q.val, by have := qi.isLt; have := q.isLt; omega⟩ (col 0 n d')))
    (h1 : ∀ (k : Fin 2048) (d' : Fin 128), x1 (ix3 0 k d') = Q (ix3 b k (col 1 n d')))
    (h2 : ∀ (k : Fin 2048) (d' : Fin 128), x2 (ix3 0 k d') = Q (ix3 b k (col 2 n d')))
    (y : S1x1024x128.Idx) (i : SX.Idx)
    (hi0 : (i 0).val = b.val) (hi1 : (i 1).val = qi.val * 1024 + (y 1).val) (hi2 : (i 2).val = n.val * 128 + (y 2).val) :
    k1_pay1 (F := Ideal) x0 x1 x2 y = merged Q i := by
  have hy1 : (y 1).val < 1024 := (y 1).isLt
  have hy2 : (y 2).val < 128 := (y 2).isLt
  have hy : y = ix3 (0 : Fin 1) (⟨(y 1).val, hy1⟩ : Fin 1024) (⟨(y 2).val, hy2⟩ : Fin 128) := by
    funext a; apply Fin.ext
    match a with
    | ⟨0, _⟩ => have h : (y 0).val < 1 := (y 0).isLt; show (y 0).val = 0; omega
    | ⟨1, _⟩ => rfl
    | ⟨2, _⟩ => rfl
  have hi : i = ix3 b (⟨qi.val * 1024 + (y 1).val, by have := qi.isLt; omega⟩ : Fin 2048) (hcol n ⟨(y 2).val, hy2⟩) := by
    funext a; apply Fin.ext
    match a with
    | ⟨0, _⟩ => exact hi0
    | ⟨1, _⟩ => exact hi1
    | ⟨2, _⟩ => exact hi2
  refine (congrArg (k1_pay1 (F := Ideal) x0 x1 x2) hy).trans (Eq.trans ?_ (congrArg (merged Q) hi).symm)
  rw [Payload.attn_apply, merged_ix3]
  unfold headAt
  simp only [h0, h1, h2]

/-! ## The three tiles read at a point -/

/-- The query tile at a point, at local row `q` and lane `d'`, is the array the region was entered with at the index
    the window's block names: block index times block size plus the local coordinate on each axis. -/
theorem read_q (c : Dev nD) (t : Fin cfg1.N) (q : Fin 1024) (d' : Fin 128) (k : S2x2048x6144.Idx)
    (hk0 : (k 0).val = win1_0.index t (0 : Fin 3))
    (hk1 : (k 1).val = win1_0.index t (1 : Fin 3) * 1024 + q.val)
    (hk2 : (k 2).val = win1_0.index t (2 : Fin 3) * 128 + d'.val) :
    (iblk1 V c 0 t : Vec Ideal S1x1024x128 .bf16) (ix3 0 q d') = (V c main_v6 : S2x2048x6144.Idx → Elt Ideal .bf16) k := by
  unfold iblk1
  rw [View.read_apply]
  show (V c main_v6 : S2x2048x6144.Idx → Elt Ideal .bf16) _ = (V c main_v6 : S2x2048x6144.Idx → Elt Ideal .bf16) _
  refine congrArg (V c main_v6 : S2x2048x6144.Idx → Elt Ideal .bf16) ?_
  funext a
  apply Fin.ext
  match a with
  | ⟨0, _⟩ => show win1_0.index t (0 : Fin 3) * 1 + 1 * 0 = (k 0).val; omega
  | ⟨1, _⟩ => show win1_0.index t (1 : Fin 3) * 1024 + 1 * q.val = (k 1).val; omega
  | ⟨2, _⟩ => show win1_0.index t (2 : Fin 3) * 128 + 1 * d'.val = (k 2).val; omega

/-- The key tile at a point, at local row `k'` and lane `d'`, likewise. -/
theorem read_k (c : Dev nD) (t : Fin cfg1.N) (k' : Fin 2048) (d' : Fin 128) (k : S2x2048x6144.Idx)
    (hk0 : (k 0).val = win1_1.index t (0 : Fin 3))
    (hk1 : (k 1).val = win1_1.index t (1 : Fin 3) * 2048 + k'.val)
    (hk2 : (k 2).val = win1_1.index t (2 : Fin 3) * 128 + d'.val) :
    (iblk1 V c 1 t : Vec Ideal S1x2048x128 .bf16) (ix3 0 k' d') = (V c main_v6 : S2x2048x6144.Idx → Elt Ideal .bf16) k := by
  unfold iblk1
  rw [View.read_apply]
  show (V c main_v6 : S2x2048x6144.Idx → Elt Ideal .bf16) _ = (V c main_v6 : S2x2048x6144.Idx → Elt Ideal .bf16) _
  refine congrArg (V c main_v6 : S2x2048x6144.Idx → Elt Ideal .bf16) ?_
  funext a
  apply Fin.ext
  match a with
  | ⟨0, _⟩ => show win1_1.index t (0 : Fin 3) * 1 + 1 * 0 = (k 0).val; omega
  | ⟨1, _⟩ => show win1_1.index t (1 : Fin 3) * 2048 + 1 * k'.val = (k 1).val; omega
  | ⟨2, _⟩ => show win1_1.index t (2 : Fin 3) * 128 + 1 * d'.val = (k 2).val; omega

/-- The value tile at a point, at local row `k'` and lane `d'`, likewise. -/
theorem read_v (c : Dev nD) (t : Fin cfg1.N) (k' : Fin 2048) (d' : Fin 128) (k : S2x2048x6144.Idx)
    (hk0 : (k 0).val = win1_2.index t (0 : Fin 3))
    (hk1 : (k 1).val = win1_2.index t (1 : Fin 3) * 2048 + k'.val)
    (hk2 : (k 2).val = win1_2.index t (2 : Fin 3) * 128 + d'.val) :
    (iblk1 V c 2 t : Vec Ideal S1x2048x128 .bf16) (ix3 0 k' d') = (V c main_v6 : S2x2048x6144.Idx → Elt Ideal .bf16) k := by
  unfold iblk1
  rw [View.read_apply]
  show (V c main_v6 : S2x2048x6144.Idx → Elt Ideal .bf16) _ = (V c main_v6 : S2x2048x6144.Idx → Elt Ideal .bf16) _
  refine congrArg (V c main_v6 : S2x2048x6144.Idx → Elt Ideal .bf16) ?_
  funext a
  apply Fin.ext
  match a with
  | ⟨0, _⟩ => show win1_2.index t (0 : Fin 3) * 1 + 1 * 0 = (k 0).val; omega
  | ⟨1, _⟩ => show win1_2.index t (1 : Fin 3) * 2048 + 1 * k'.val = (k 1).val; omega
  | ⟨2, _⟩ => show win1_2.index t (2 : Fin 3) * 128 + 1 * d'.val = (k 2).val; omega

/-! ## What a point writes back -/

/-- What point `t` writes back is block `t` of the merged heads of the fused projection the region was entered with. -/
theorem flushed_eq (c : Dev nD) (t : Fin cfg1.N) :
    (dat1 (F := Ideal) V c).flushed 3 t = ((cfg1.win 3).blk t).view.read (Elt Ideal) (merged (V c main_v6)) := by
  show (cfg1.win 3).cut (grid1.coords t) ((dat1 (F := Ideal) V c).after 3 t) = _
  rw [after1_3]
  unfold out1
  rw [View.canon_unit_zero zero3]
  simp only [View.ld_unit_zero (S := S1x1024x128) zero3, View.ld_unit_zero (S := S1x2048x128) zero3]
  obtain ⟨e00, e01, e02, e10, e11, e12, e20, e21, e22, l0, l1, l2⟩ := idx_facts t
  funext y
  show k1_pay1 (F := Ideal) (iblk1 V c 0 t) (iblk1 V c 1 t) (iblk1 V c 2 t) y
    = merged (V c main_v6) (((cfg1.win 3).blk t).view.emb y)
  refine tile_entry (iblk1 V c 0 t) (iblk1 V c 1 t) (iblk1 V c 2 t) (V c main_v6)
    ⟨win1_3.index t (0 : Fin 3), by omega⟩ ⟨win1_3.index t (2 : Fin 3), by omega⟩ ⟨win1_3.index t (1 : Fin 3), by omega⟩
    (fun q d' => ?_) (fun k' d' => ?_) (fun k' d' => ?_) y _ ?_ ?_ ?_
  · refine read_q V c t q d' _ ?_ ?_ ?_
    · show win1_3.index t (0 : Fin 3) = win1_0.index t (0 : Fin 3); omega
    · show win1_3.index t (1 : Fin 3) * 1024 + q.val = win1_0.index t (1 : Fin 3) * 1024 + q.val; omega
    · show 0 * 2048 + win1_3.index t (2 : Fin 3) * 128 + d'.val = win1_0.index t (2 : Fin 3) * 128 + d'.val; omega
  · refine read_k V c t k' d' _ ?_ ?_ ?_
    · show win1_3.index t (0 : Fin 3) = win1_1.index t (0 : Fin 3); omega
    · show k'.val = win1_1.index t (1 : Fin 3) * 2048 + k'.val; omega
    · show 1 * 2048 + win1_3.index t (2 : Fin 3) * 128 + d'.val = win1_1.index t (2 : Fin 3) * 128 + d'.val; omega
  · refine read_v V c t k' d' _ ?_ ?_ ?_
    · show win1_3.index t (0 : Fin 3) = win1_2.index t (0 : Fin 3); omega
    · show k'.val = win1_2.index t (1 : Fin 3) * 2048 + k'.val; omega
    · show 2 * 2048 + win1_3.index t (2 : Fin 3) * 128 + d'.val = win1_2.index t (2 : Fin 3) * 128 + d'.val; omega
  · show win1_3.index t (0 : Fin 3) * 1 + 1 * (y 0).val = win1_3.index t (0 : Fin 3)
    have h : (y 0).val < 1 := (y 0).isLt; omega
  · show win1_3.index t (1 : Fin 3) * 1024 + 1 * (y 1).val = win1_3.index t (1 : Fin 3) * 1024 + (y 1).val; omega
  · show win1_3.index t (2 : Fin 3) * 128 + 1 * (y 2).val = win1_3.index t (2 : Fin 3) * 128 + (y 2).val; omega

/-! ## The tiles written cover the array -/

/-- An index of the output array is in point `t`'s block iff each coordinate is in the block's range on its axis. -/
theorem mem_blk (t : Fin cfg1.N) (i : S2x2048x2048.Idx) :
    i ∈ ((cfg1.win 3).blk t).view.set ↔ ∀ a : Fin 3, win1_3.index t a * S1x1024x128.size a ≤ (i a).val
      ∧ (i a).val < win1_3.index t a * S1x1024x128.size a + S1x1024x128.size a := by
  show i ∈ ((View.whole main_v7).slice (win1_3.rect t)).set ↔ _
  rw [View.set_slice_whole, Rect.mem_set_unit]
  exact Iff.rfl

/-- Every index of the output array is in the block of a point that writes back: the point whose block indices are
    the batch, the row over 1024 and the column over 128. -/
theorem cover (i : S2x2048x2048.Idx) :
    ∃ t : Fin cfg1.N, (cfg1.win 3).flush t = true ∧ i ∈ ((cfg1.win 3).blk t).view.set := by
  have hi0 : (i 0).val < 2 := (i 0).isLt
  have hi1 : (i 1).val < 2048 := (i 1).isLt
  have hi2 : (i 2).val < 2048 := (i 2).isLt
  obtain ⟨t, ht⟩ := idx_onto ⟨(i 0).val, hi0⟩ ⟨(i 1).val / 1024, by omega⟩ ⟨(i 2).val / 128, by omega⟩
  have q0 : win1_3.index t (0 : Fin 3) = (i 0).val := congrFun ht 0
  have q1 : win1_3.index t (1 : Fin 3) = (i 1).val / 1024 := congrFun ht 1
  have q2 : win1_3.index t (2 : Fin 3) = (i 2).val / 128 := congrFun ht 2
  refine ⟨t, flush1_3 t, ?_⟩
  rw [mem_blk]
  intro a
  match a with
  | ⟨0, _⟩ =>
    show win1_3.index t (0 : Fin 3) * 1 ≤ (i 0).val ∧ (i 0).val < win1_3.index t (0 : Fin 3) * 1 + 1; omega
  | ⟨1, _⟩ =>
    show win1_3.index t (1 : Fin 3) * 1024 ≤ (i 1).val ∧ (i 1).val < win1_3.index t (1 : Fin 3) * 1024 + 1024; omega
  | ⟨2, _⟩ =>
    show win1_3.index t (2 : Fin 3) * 128 ≤ (i 2).val ∧ (i 2).val < win1_3.index t (2 : Fin 3) * 128 + 128; omega

/-! ## The array after the region -/

/-- The output array after the region's last point: the merged heads of the fused projection the region was entered
    with. -/
theorem final1 (c : Dev nD) :
    (dat1 (F := Ideal) V c).arrAt 3 cfg1.N = Cert.Attn.merged (V c main_v6) :=
  (dat1 (F := Ideal) V c).arrAt_eq_of_cover 3 (merged (V c main_v6)) (fun t _ => flushed_eq V c t) cover

end Cert.KernelIdeal.AttnValue

end
-- ==== Proof.Whole.lean ====
/-
  The kernel program's result, at the ideal values, is the specification's layer of the five arguments.

  Boundary by boundary: the first stretch flattens the input and passes the weights and biases on (a change of
  float format is the identity); the first region leaves in its output every row of the flattened input against
  every row of the fused weight plus the bias, which reshaped back is the fused projection; the attention region
  leaves the merged heads of that projection; the last region leaves every row of the flattened merged heads
  against every row of the output weight plus the bias, which reshaped back is the layer.
-/
import proofs.«101674_j89970974917190_2_alg».proof.Proof.HostReads
import proofs.«101674_j89970974917190_2_alg».proof.Proof.LinValue
import proofs.«101674_j89970974917190_2_alg».proof.Proof.AttnValue
import proofs.«101674_j89970974917190_2_alg».proof.Proof.Spec

noncomputable section

namespace Cert.KernelIdeal.Whole

open Cert.KernelIdeal Cert.KernelIdeal.Gen Cert.KernelIdeal.Hand Cert.Attn
open Idealize.ShloMosaic Idealize.ShloMosaic.ValueIdx Idealize.ShloMosaic.TcCoe Idealize.SL.Sem Idealize.ShloMosaic.StableHlo

variable (m : (ℓ : Loc nD τ sig) → Buf (Elt Ideal) ℓ) (c : Dev nD)

/-- The five arguments on core `c`, as arrays of extended reals. -/
abbrev aX : SX.Idx → EReal := m ((c : Thread nD τ).loc main_arg0)
abbrev aWq : SWq.Idx → EReal := m ((c : Thread nD τ).loc main_arg1)
abbrev aBq : Sbq.Idx → EReal := m ((c : Thread nD τ).loc main_arg2)
abbrev aWo : SWo.Idx → EReal := m ((c : Thread nD τ).loc main_arg3)
abbrev aBo : Sbo.Idx → EReal := m ((c : Thread nD τ).loc main_arg4)

/-! ## The first stretch -/

theorem v1_at (r : Fin 4096) (k : Fin 2048) :
    (R1 m c main_v1 : S4096x2048.Idx → EReal) (ix2 r k)
      = aX m c (ix3 (⟨r.val / 2048, by omega⟩ : Fin 2) (⟨r.val % 2048, Nat.mod_lt _ (by decide)⟩ : Fin 2048) k) :=
  h0_v1 (B0 m c) r k

theorem v2_eq : (R1 m c main_v2 : S6144x2048.Idx → EReal) = aWq m c := h0_v2 (B0 m c)

theorem v4_at (o : Fin 6144) : (R1 m c main_v4 : S1x6144.Idx → EReal) (ix2 (0 : Fin 1) o) = aBq m c (ix1 o) :=
  h0_v4 (B0 m c) o

/-! ## The fused projection -/

theorem v5_eq : (B2 m c (Proc.devRef .tc main_v5) : S4096x6144.Idx → EReal)
    = LinValue.G0 (R1 m c main_v1) (R1 m c main_v2) (R1 m c main_v4) :=
  (B2_arr m c 3).trans (LinValue.final0 (R1 m) c)

theorem v6_eq : (R3 m c main_v6 : S2x2048x6144.Idx → EReal) = qkv (aX m c) (aWq m c) (aBq m c) := by
  funext i
  obtain ⟨b, s, o, rfl⟩ : ∃ (b : Fin 2) (s : Fin 2048) (o : Fin 6144), i = ix3 b s o := ⟨i 0, i 1, i 2, eq_ix3 i⟩
  rw [qkv_ix3]
  refine (h1_v6 (B2 m c) b s o).trans ?_
  rw [v5_eq]
  show linAt (fun h => (R1 m c main_v1 : S4096x2048.Idx → EReal) (ix2 (⟨b.val * 2048 + s.val, by omega⟩ : Fin 4096) h))
      (fun h => (R1 m c main_v2 : S6144x2048.Idx → EReal) (ix2 o h)) ((R1 m c main_v4 : S1x6144.Idx → EReal) (ix2 (0 : Fin 1) o)) = _
  unfold qkvAt
  have ha : (fun h => (R1 m c main_v1 : S4096x2048.Idx → EReal) (ix2 (⟨b.val * 2048 + s.val, by omega⟩ : Fin 4096) h))
      = fun h => aX m c (ix3 b s h) := funext fun h => by
    rw [v1_at]
    refine congrArg (aX m c) ?_
    have hb : (b.val * 2048 + s.val) / 2048 = b.val := by have := s.isLt; omega
    have hs : (b.val * 2048 + s.val) % 2048 = s.val := by have := s.isLt; omega
    funext a
    match a with
    | ⟨0, _⟩ => exact Fin.ext hb
    | ⟨1, _⟩ => exact Fin.ext hs
    | ⟨2, _⟩ => rfl
  rw [ha, v2_eq, v4_at]

/-! ## The attention region -/

theorem v7_eq : (B4 m c (Proc.devRef .tc main_v7) : S2x2048x2048.Idx → EReal)
    = merged (qkv (aX m c) (aWq m c) (aBq m c)) := by
  rw [← v6_eq]
  exact (B4_out m c).trans (AttnValue.final1 (R3 m) c)

/-! ## The third stretch -/

theorem v8_at (r : Fin 4096) (k : Fin 2048) :
    (R5 m c main_v8 : S4096x2048.Idx → EReal) (ix2 r k)
      = merged (qkv (aX m c) (aWq m c) (aBq m c))
          (ix3 (⟨r.val / 2048, by omega⟩ : Fin 2) (⟨r.val % 2048, Nat.mod_lt _ (by decide)⟩ : Fin 2048) k) := by
  rw [← v7_eq]
  exact h2_v8 (B4 m c) r k

theorem B4_main_arg4 : B4 m c (Proc.devRef .tc main_arg4) = m ((c : Thread nD τ).loc main_arg4) :=
  calc B4 m c (Proc.devRef .tc main_arg4)
    _ = B3 m c (Proc.devRef .tc main_arg4) := B4_of_ne m c main_arg4 (by decide)
    _ = B2 m c (Proc.devRef .tc main_arg4) := StableHlo.after_of_writes_sub hostOps1 _ hostOps1_writes (r := main_arg4) (by decide)
    _ = B1 m c (Proc.devRef .tc main_arg4) := B2_of_ne m c main_arg4 (by decide)
    _ = B0 m c (Proc.devRef .tc main_arg4) := StableHlo.after_of_writes_sub hostOps0 _ hostOps0_writes (r := main_arg4) (by decide)
    _ = m ((c : Thread nD τ).loc main_arg4) := rfl

theorem v9_at (o : Fin 2048) : (R5 m c main_v9 : S1x2048.Idx → EReal) (ix2 (0 : Fin 1) o) = aBo m c (ix1 o) := by
  refine (h2_v9 (B4 m c) o).trans ?_
  rw [B4_main_arg4]

theorem v3_eq : (R5 m c main_v3 : S2048x2048.Idx → EReal) = aWo m c :=
  calc (B5 m c (Proc.devRef .tc main_v3) : S2048x2048.Idx → EReal)
    _ = B4 m c (Proc.devRef .tc main_v3) := StableHlo.after_of_writes_sub hostOps2 _ hostOps2_writes (r := main_v3) (by decide)
    _ = B3 m c (Proc.devRef .tc main_v3) := B4_of_ne m c main_v3 (by decide)
    _ = B2 m c (Proc.devRef .tc main_v3) := StableHlo.after_of_writes_sub hostOps1 _ hostOps1_writes (r := main_v3) (by decide)
    _ = B1 m c (Proc.devRef .tc main_v3) := B2_of_ne m c main_v3 (by decide)
    _ = aWo m c := h0_v3 (B0 m c)

/-! ## The final projection -/

theorem v10_eq : (B6 m c (Proc.devRef .tc main_v10) : S4096x2048.Idx → EReal)
    = LinValue.G2 (R5 m c main_v8) (R5 m c main_v3) (R5 m c main_v9) :=
  (B6_arr m c 3).trans (LinValue.final2 (R5 m) c)

/-- The result buffer at the end holds the layer of the five arguments. -/
theorem result_eq : (B7 m c (Proc.devRef .tc main_v11) : SX.Idx → EReal)
    = layer (aX m c) (aWq m c) (aBq m c) (aWo m c) (aBo m c) := by
  funext i
  obtain ⟨b, s, o, rfl⟩ : ∃ (b : Fin 2) (s : Fin 2048) (o : Fin 2048), i = ix3 b s o := ⟨i 0, i 1, i 2, eq_ix3 i⟩
  unfold layer
  rw [out_ix3]
  refine (h3_v11 (B6 m c) b s o).trans ?_
  rw [v10_eq]
  show linAt (fun h => (R5 m c main_v8 : S4096x2048.Idx → EReal) (ix2 (⟨b.val * 2048 + s.val, by omega⟩ : Fin 4096) h))
      (fun h => (R5 m c main_v3 : S2048x2048.Idx → EReal) (ix2 o h)) ((R5 m c main_v9 : S1x2048.Idx → EReal) (ix2 (0 : Fin 1) o)) = _
  unfold outAt
  have ha : (fun h => (R5 m c main_v8 : S4096x2048.Idx → EReal) (ix2 (⟨b.val * 2048 + s.val, by omega⟩ : Fin 4096) h))
      = fun h => merged (qkv (aX m c) (aWq m c) (aBq m c)) (ix3 b s h) := funext fun h => by
    rw [v8_at]
    refine congrArg (merged (qkv (aX m c) (aWq m c) (aBq m c))) ?_
    have hb : (b.val * 2048 + s.val) / 2048 = b.val := by have := s.isLt; omega
    have hs : (b.val * 2048 + s.val) % 2048 = s.val := by have := s.isLt; omega
    funext a
    match a with
    | ⟨0, _⟩ => exact Fin.ext hb
    | ⟨1, _⟩ => exact Fin.ext hs
    | ⟨2, _⟩ => rfl
  rw [ha, v3_eq, v9_at]

end Cert.KernelIdeal.Whole

end
-- ==== Proof.RefLayer.lean ====
/-
  The reference program's result, at the ideal values, is the specification's layer of its five arguments.

  The reference computes a self-attention layer in 37 array operations: a contraction of the input with the fused
  weight plus a broadcast bias; a reshape of the 6144 columns into (part, head, lane), a transpose and three slices that
  give the queries, keys and values per head; per head the contraction of queries with keys, times the scale; the
  softmax along the key axis, written as a reduction by max from the start value, a further maximum against that same
  start value, a subtraction, exponentials, a reduction by sum from zero and a division; the contraction of the
  weights with the values; a transpose and a reshape that lay the heads side by side; and the contraction with the final
  weight plus a broadcast bias.

  Each stage is read at an index given by its coordinates. The layout operations only rename coordinates: lane d of
  head n of part j at position s is column j·2048 + n·128 + d of the fused projection at row s, and column c of the
  merged heads is lane c % 128 of head c / 128 — equations between natural numbers below literal bounds. Each contraction
  is the plain finite sum over its one contracted coordinate; the sum from the zero word is the plain sum. The reduction
  by max is the fold of max from the start value over the key positions, and the further maximum against the start value
  is absorbed because the start value is below every fold of max that starts from it; the two literal words (the scale
  and the start value) are never evaluated, the same word standing on both sides. Composing the stages front to back gives
  the layer, entry by entry, and the run of the program ends with its result buffer at that function of its arguments.
-/
import proofs.«101674_j89970974917190_2_alg».proof.Proof.Gen.ReferenceIdeal.Read
import proofs.«101674_j89970974917190_2_alg».proof.Proof.Spec
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.Layer

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.Attn

variable [Cert.ReferenceIdeal.Facts]

/-! ## Index equations

Each composed index function of the reference's layout operations and contractions, evaluated at an index given by
its coordinates, is again an index given by coordinates. -/

/-- The contraction of the fused projection reads the input at row (b, s), column k … -/
theorem lidx0 (b : Fin 2) (s : Fin 2048) (o : Fin 6144) (k : Fin 2048) : lidx_main_v0 (ix3 b s o) k = ix3 b s k := by
  funext a; exact Fin.ext (by match a with | ⟨0, _⟩ => rfl | ⟨1, _⟩ => rfl | ⟨2, _⟩ => rfl)
/-- … and the weight at row o, column k. -/
theorem ridx0 (b : Fin 2) (s : Fin 2048) (o : Fin 6144) (k : Fin 2048) : ridx_main_v0 (ix3 b s o) k = ix2 o k := by
  funext a; exact Fin.ext (by match a with | ⟨0, _⟩ => rfl | ⟨1, _⟩ => rfl)
/-- The broadcast bias of the fused projection reads the bias at o. -/
theorem bidx2 (b : Fin 2) (s : Fin 2048) (o : Fin 6144) : idx_main_v1 (idx_main_v2 (ix3 b s o)) = ix1 o := by
  funext a; exact Fin.ext (by match a with | ⟨0, _⟩ => rfl)

/-- Dropping the unit axis in front: (b, n, s, d) comes from (0, b, n, s, d). -/
theorem idx7 (b : Fin 2) (n : Fin 16) (s : Fin 2048) (d : Fin 128) :
    idx_main_v7 (ix4 b n s d) = ix5 (0 : Fin 1) b n s d := by
  funext a; refine Fin.ext ?_
  have hb := b.isLt; have hn := n.isLt; have hs := s.isLt; have hd := d.isLt
  match a with
  | ⟨0, _⟩ => rfl
  | ⟨1, _⟩ => show (((b.val * 16 + n.val) * 2048 + s.val) * 128 + d.val) / 4194304 % 2 = b.val; omega
  | ⟨2, _⟩ => show (((b.val * 16 + n.val) * 2048 + s.val) * 128 + d.val) / 262144 % 16 = n.val; omega
  | ⟨3, _⟩ => show (((b.val * 16 + n.val) * 2048 + s.val) * 128 + d.val) / 128 % 2048 = s.val; omega
  | ⟨4, _⟩ => show (((b.val * 16 + n.val) * 2048 + s.val) * 128 + d.val) % 128 = d.val; omega
theorem idx9 (b : Fin 2) (n : Fin 16) (s : Fin 2048) (d : Fin 128) :
    idx_main_v9 (ix4 b n s d) = ix5 (0 : Fin 1) b n s d := idx7 b n s d
theorem idx11 (b : Fin 2) (n : Fin 16) (s : Fin 2048) (d : Fin 128) :
    idx_main_v11 (ix4 b n s d) = ix5 (0 : Fin 1) b n s d := idx7 b n s d

/-- The three slices along the leading axis: part 0, 1, 2. -/
theorem idx6 (b : Fin 2) (n : Fin 16) (s : Fin 2048) (d : Fin 128) :
    idx_main_v6 (ix5 (0 : Fin 1) b n s d) = ix5 (0 : Fin 3) b n s d := by
  funext a; exact Fin.ext (by match a with | ⟨0, _⟩ => rfl | ⟨1, _⟩ => rfl | ⟨2, _⟩ => rfl | ⟨3, _⟩ => rfl | ⟨4, _⟩ => rfl)
theorem idx8 (b : Fin 2) (n : Fin 16) (s : Fin 2048) (d : Fin 128) :
    idx_main_v8 (ix5 (0 : Fin 1) b n s d) = ix5 (1 : Fin 3) b n s d := by
  funext a; exact Fin.ext (by match a with | ⟨0, _⟩ => rfl | ⟨1, _⟩ => rfl | ⟨2, _⟩ => rfl | ⟨3, _⟩ => rfl | ⟨4, _⟩ => rfl)
theorem idx10 (b : Fin 2) (n : Fin 16) (s : Fin 2048) (d : Fin 128) :
    idx_main_v10 (ix5 (0 : Fin 1) b n s d) = ix5 (2 : Fin 3) b n s d := by
  funext a; exact Fin.ext (by match a with | ⟨0, _⟩ => rfl | ⟨1, _⟩ => rfl | ⟨2, _⟩ => rfl | ⟨3, _⟩ => rfl | ⟨4, _⟩ => rfl)

/-- The transpose (part, batch, head, position, lane) ← (batch, position, part, head, lane). -/
theorem idx5 (j : Fin 3) (b : Fin 2) (n : Fin 16) (s : Fin 2048) (d : Fin 128) :
    idx_main_v5 (ix5 j b n s d) = ix5 b s j n d := by
  funext a; exact Fin.ext (by match a with | ⟨0, _⟩ => rfl | ⟨1, _⟩ => rfl | ⟨2, _⟩ => rfl | ⟨3, _⟩ => rfl | ⟨4, _⟩ => rfl)

/-- Splitting the 6144 columns into (part, head, lane): lane d of head n of part j is column j·2048 + n·128 + d. -/
theorem idx4 (b : Fin 2) (s : Fin 2048) (j : Fin 3) (n : Fin 16) (d : Fin 128) :
    idx_main_v4 (ix5 b s j n d) = ix3 b s (col j n d) := by
  funext a; refine Fin.ext ?_
  have hb := b.isLt; have hs := s.isLt; have hj := j.isLt; have hn := n.isLt; have hd := d.isLt
  match a with
  | ⟨0, _⟩ => show ((((b.val * 2048 + s.val) * 3 + j.val) * 16 + n.val) * 128 + d.val) / 12582912 = b.val; omega
  | ⟨1, _⟩ => show ((((b.val * 2048 + s.val) * 3 + j.val) * 16 + n.val) * 128 + d.val) / 6144 % 2048 = s.val; omega
  | ⟨2, _⟩ => show ((((b.val * 2048 + s.val) * 3 + j.val) * 16 + n.val) * 128 + d.val) % 6144 = j.val * 2048 + n.val * 128 + d.val; omega

/-! ## The fused projection -/

/-- One entry of the fused projection: row (b, s) of the input against row o of the weight, plus the bias at o. -/
theorem v3_ix3 (x0 : (⟨S2x2048x2048, .f32⟩ : BufTy).Contents (Elt Ideal)) (x1 : (⟨S6144x2048, .f32⟩ : BufTy).Contents (Elt Ideal)) (x2 : (⟨S6144, .f32⟩ : BufTy).Contents (Elt Ideal)) (b : Fin 2) (s : Fin 2048) (o : Fin 6144) :
    val_main_v3 (F := Ideal) x0 x1 x2 (ix3 b s o) = qkvAt x0 x1 x2 b s o := by
  rw [val_main_v3_apply, val_main_v0_apply, val_main_v2_apply, val_main_v1_apply, Ideal.addf_def]
  simp only [lidx0, ridx0, bidx2]
  rfl

/-- The fused projection, as an array. -/
theorem v3_eq_qkv (x0 : (⟨S2x2048x2048, .f32⟩ : BufTy).Contents (Elt Ideal)) (x1 : (⟨S6144x2048, .f32⟩ : BufTy).Contents (Elt Ideal)) (x2 : (⟨S6144, .f32⟩ : BufTy).Contents (Elt Ideal)) : val_main_v3 (F := Ideal) x0 x1 x2 = qkv x0 x1 x2 := by
  funext i
  obtain ⟨b, s, o, rfl⟩ : ∃ (b : Fin 2) (s : Fin 2048) (o : Fin 6144), i = ix3 b s o := ⟨i 0, i 1, i 2, eq_ix3 i⟩
  rw [v3_ix3, qkv_ix3]

/-! ## Queries, keys and values per head -/

/-- Lane d of head n of the queries at position s is the fused projection at column 0·2048 + n·128 + d. -/
theorem v7_ix4 (x0 : (⟨S2x2048x2048, .f32⟩ : BufTy).Contents (Elt Ideal)) (x1 : (⟨S6144x2048, .f32⟩ : BufTy).Contents (Elt Ideal)) (x2 : (⟨S6144, .f32⟩ : BufTy).Contents (Elt Ideal)) (b : Fin 2) (n : Fin 16) (s : Fin 2048) (d : Fin 128) :
    val_main_v7 (F := Ideal) x0 x1 x2 (ix4 b n s d) = val_main_v3 (F := Ideal) x0 x1 x2 (ix3 b s (col 0 n d)) := by
  rw [val_main_v7_apply, val_main_v6_apply, val_main_v5_apply, val_main_v4_apply, idx7, idx6, idx5, idx4]
/-- The keys: column 1·2048 + n·128 + d. -/
theorem v9_ix4 (x0 : (⟨S2x2048x2048, .f32⟩ : BufTy).Contents (Elt Ideal)) (x1 : (⟨S6144x2048, .f32⟩ : BufTy).Contents (Elt Ideal)) (x2 : (⟨S6144, .f32⟩ : BufTy).Contents (Elt Ideal)) (b : Fin 2) (n : Fin 16) (s : Fin 2048) (d : Fin 128) :
    val_main_v9 (F := Ideal) x0 x1 x2 (ix4 b n s d) = val_main_v3 (F := Ideal) x0 x1 x2 (ix3 b s (col 1 n d)) := by
  rw [val_main_v9_apply, val_main_v8_apply, val_main_v5_apply, val_main_v4_apply, idx9, idx8, idx5, idx4]
/-- The values: column 2·2048 + n·128 + d. -/
theorem v11_ix4 (x0 : (⟨S2x2048x2048, .f32⟩ : BufTy).Contents (Elt Ideal)) (x1 : (⟨S6144x2048, .f32⟩ : BufTy).Contents (Elt Ideal)) (x2 : (⟨S6144, .f32⟩ : BufTy).Contents (Elt Ideal)) (b : Fin 2) (n : Fin 16) (s : Fin 2048) (d : Fin 128) :
    val_main_v11 (F := Ideal) x0 x1 x2 (ix4 b n s d) = val_main_v3 (F := Ideal) x0 x1 x2 (ix3 b s (col 2 n d)) := by
  rw [val_main_v11_apply, val_main_v10_apply, val_main_v5_apply, val_main_v4_apply, idx11, idx10, idx5, idx4]

/-! ## Scores -/

theorem lidx12 (b : Fin 2) (n : Fin 16) (q k : Fin 2048) (d : Fin 128) : lidx_main_v12 (ix4 b n q k) d = ix4 b n q d := by
  funext a; exact Fin.ext (by match a with | ⟨0, _⟩ => rfl | ⟨1, _⟩ => rfl | ⟨2, _⟩ => rfl | ⟨3, _⟩ => rfl)
theorem ridx12 (b : Fin 2) (n : Fin 16) (q k : Fin 2048) (d : Fin 128) : ridx_main_v12 (ix4 b n q k) d = ix4 b n k d := by
  funext a; exact Fin.ext (by match a with | ⟨0, _⟩ => rfl | ⟨1, _⟩ => rfl | ⟨2, _⟩ => rfl | ⟨3, _⟩ => rfl)

/-- The scaled score of query position q against key position k in head n: the query row against the key row, times
    the scale. -/
theorem v14_ix4 (x0 : (⟨S2x2048x2048, .f32⟩ : BufTy).Contents (Elt Ideal)) (x1 : (⟨S6144x2048, .f32⟩ : BufTy).Contents (Elt Ideal)) (x2 : (⟨S6144, .f32⟩ : BufTy).Contents (Elt Ideal)) (b : Fin 2) (n : Fin 16) (q k : Fin 2048) :
    val_main_v14 (F := Ideal) x0 x1 x2 (ix4 b n q k)
      = scoreR (fun d' => val_main_v3 (F := Ideal) x0 x1 x2 (ix3 b q (col 0 n d')))
          (fun k' d' => val_main_v3 (F := Ideal) x0 x1 x2 (ix3 b k' (col 1 n d'))) k := by
  rw [val_main_v14_apply, val_main_v12_apply, val_main_v13_apply, val_main_cst_apply, Ideal.mulf_def, Ideal.ofBits_def]
  unfold scoreR scale
  refine congrArg (· * _) (Finset.sum_congr rfl fun d' _ => ?_)
  rw [lidx12, ridx12, v7_ix4, v9_ix4]

/-! ## The row maximum -/

/-- The scores' shape drops its last axis to the rows' shape. -/
theorem red3 : S2x16x2048x2048.Reduces [3] S2x16x2048 := by decide

/-- Row (b, n, q) with key position k put back is (b, n, q, k). -/
theorem lift3 (b : Fin 2) (n : Fin 16) (q : Fin 2048) (k : Fin (S2x16x2048x2048.size 3)) :
    red3.lift (ix3 b n q) k = ix4 b n q (⟨k.val, k.isLt⟩ : Fin 2048) := by
  funext c; apply Fin.ext
  fin_cases c <;> rfl

/-- The start value is below the fold of max from it. -/
theorem maxInit_le_rowMax (f : Fin 2048 → EReal) : maxInit ≤ rowMax f := by
  unfold rowMax
  exact (Finset.le_fold_max _).mpr (Or.inl le_rfl)

/-- A reduction by max along the last axis from the start value, read at row (b, n, q), is that row's maximum. -/
theorem reduce_max_ix3 (y : (⟨S2x16x2048x2048, .f32⟩ : BufTy).Contents (Elt Ideal)) (b : Fin 2) (n : Fin 16) (q : Fin 2048) :
    (Host.reduce (FloatOps.maximumf (F := Ideal) (φ := .f32)) y (val_main_cst_0 (F := Ideal)) reducesTo_S2x16x2048x2048_S2x16x2048_d3 h_S_
      : (⟨S2x16x2048, .f32⟩ : BufTy).Contents (Elt Ideal)) (ix3 b n q) = rowMax (fun k => y (ix4 b n q k)) := by
  rw [Host.reduce_eq_fold_single (FloatOps.maximumf (F := Ideal) (φ := .f32)) y _ reducesTo_S2x16x2048x2048_S2x16x2048_d3 red3 h_S_]
  have hf : (y ∘ red3.lift (ix3 b n q)) = fun k : Fin 2048 => y (ix4 b n q k) :=
    funext fun k => congrArg y (lift3 b n q k)
  exact congrArg (fun f => Finset.fold max (Ideal.ofBits .f32 0xFF800000#32) f (Finset.univ : Finset (Fin 2048))) hf

/-- The row maximum the reference subtracts: its further maximum against the start value changes nothing. -/
theorem v17_ix3 (x0 : (⟨S2x2048x2048, .f32⟩ : BufTy).Contents (Elt Ideal)) (x1 : (⟨S6144x2048, .f32⟩ : BufTy).Contents (Elt Ideal)) (x2 : (⟨S6144, .f32⟩ : BufTy).Contents (Elt Ideal)) (b : Fin 2) (n : Fin 16) (q : Fin 2048) :
    val_main_v17 (F := Ideal) x0 x1 x2 (ix3 b n q) = rowMax (fun k => val_main_v14 (F := Ideal) x0 x1 x2 (ix4 b n q k)) := by
  rw [val_main_v17_apply, val_main_v16_apply, val_main_cst_1_apply, Ideal.maximumf_def, Ideal.ofBits_def]
  unfold val_main_v15
  rw [reduce_max_ix3]
  exact max_eq_right (maxInit_le_rowMax _)

/-! ## The softmax row -/

theorem idx19 (b : Fin 2) (n : Fin 16) (q k : Fin 2048) : idx_main_v18 (idx_main_v19 (ix4 b n q k)) = ix3 b n q := by
  funext a; exact Fin.ext (by match a with | ⟨0, _⟩ => rfl | ⟨1, _⟩ => rfl | ⟨2, _⟩ => rfl)
theorem idx24 (b : Fin 2) (n : Fin 16) (q k : Fin 2048) : idx_main_v23 (idx_main_v24 (ix4 b n q k)) = ix3 b n q := by
  funext a; exact Fin.ext (by match a with | ⟨0, _⟩ => rfl | ⟨1, _⟩ => rfl | ⟨2, _⟩ => rfl)
theorem idx22 (b : Fin 2) (n : Fin 16) (q k : Fin 2048) : idx_main_v22 (ix3 b n q) k = ix4 b n q k := by
  funext a; exact Fin.ext (by match a with | ⟨0, _⟩ => rfl | ⟨1, _⟩ => rfl | ⟨2, _⟩ => rfl | ⟨3, _⟩ => rfl)

/-- The scores of one query row, as a function of the key position. -/
theorem v14_row (x0 : (⟨S2x2048x2048, .f32⟩ : BufTy).Contents (Elt Ideal)) (x1 : (⟨S6144x2048, .f32⟩ : BufTy).Contents (Elt Ideal)) (x2 : (⟨S6144, .f32⟩ : BufTy).Contents (Elt Ideal)) (b : Fin 2) (n : Fin 16) (q : Fin 2048) :
    (fun k => val_main_v14 (F := Ideal) x0 x1 x2 (ix4 b n q k)) = scoreR (fun d' => val_main_v3 (F := Ideal) x0 x1 x2 (ix3 b q (col 0 n d'))) (fun k' d' => val_main_v3 (F := Ideal) x0 x1 x2 (ix3 b k' (col 1 n d'))) :=
  funext fun k => v14_ix4 x0 x1 x2 b n q k

/-- The exponential of a score less its row's maximum. -/
theorem v21_ix4 (x0 : (⟨S2x2048x2048, .f32⟩ : BufTy).Contents (Elt Ideal)) (x1 : (⟨S6144x2048, .f32⟩ : BufTy).Contents (Elt Ideal)) (x2 : (⟨S6144, .f32⟩ : BufTy).Contents (Elt Ideal)) (b : Fin 2) (n : Fin 16) (q k : Fin 2048) :
    val_main_v21 (F := Ideal) x0 x1 x2 (ix4 b n q k) = expR (fun d' => val_main_v3 (F := Ideal) x0 x1 x2 (ix3 b q (col 0 n d'))) (fun k' d' => val_main_v3 (F := Ideal) x0 x1 x2 (ix3 b k' (col 1 n d'))) k := by
  rw [val_main_v21_apply, val_main_v20_apply, val_main_v19_apply, val_main_v18_apply, Ideal.hostUnary_exp_def,
    Ideal.subf_def, idx19, v17_ix3, v14_row, v14_ix4]
  rfl

/-- The sum of a row's exponentials. -/
theorem v22_ix3 (x0 : (⟨S2x2048x2048, .f32⟩ : BufTy).Contents (Elt Ideal)) (x1 : (⟨S6144x2048, .f32⟩ : BufTy).Contents (Elt Ideal)) (x2 : (⟨S6144, .f32⟩ : BufTy).Contents (Elt Ideal)) (b : Fin 2) (n : Fin 16) (q : Fin 2048) :
    val_main_v22 (F := Ideal) x0 x1 x2 (ix3 b n q) = ∑ k : Fin 2048, expR (fun d' => val_main_v3 (F := Ideal) x0 x1 x2 (ix3 b q (col 0 n d'))) (fun k' d' => val_main_v3 (F := Ideal) x0 x1 x2 (ix3 b k' (col 1 n d'))) k := by
  rw [val_main_v22_apply, val_main_cst_2_apply, Ideal.ofBits_def, Ideal.ofBits_zero_f32, zero_add]
  refine Finset.sum_congr rfl fun k _ => ?_
  rw [idx22, v21_ix4]

/-- The softmax weight of key position k. -/
theorem v25_ix4 (x0 : (⟨S2x2048x2048, .f32⟩ : BufTy).Contents (Elt Ideal)) (x1 : (⟨S6144x2048, .f32⟩ : BufTy).Contents (Elt Ideal)) (x2 : (⟨S6144, .f32⟩ : BufTy).Contents (Elt Ideal)) (b : Fin 2) (n : Fin 16) (q k : Fin 2048) :
    val_main_v25 (F := Ideal) x0 x1 x2 (ix4 b n q k) = probR (fun d' => val_main_v3 (F := Ideal) x0 x1 x2 (ix3 b q (col 0 n d'))) (fun k' d' => val_main_v3 (F := Ideal) x0 x1 x2 (ix3 b k' (col 1 n d'))) k := by
  rw [val_main_v25_apply, val_main_v24_apply, val_main_v23_apply, Ideal.hostDivf_def, idx24, v22_ix3, v21_ix4]
  rfl

/-! ## The head's output and the merge -/

theorem lidx26 (b : Fin 2) (n : Fin 16) (q : Fin 2048) (d : Fin 128) (k : Fin 2048) : lidx_main_v26 (ix4 b n q d) k = ix4 b n q k := by
  funext a; exact Fin.ext (by match a with | ⟨0, _⟩ => rfl | ⟨1, _⟩ => rfl | ⟨2, _⟩ => rfl | ⟨3, _⟩ => rfl)
theorem ridx26 (b : Fin 2) (n : Fin 16) (q : Fin 2048) (d : Fin 128) (k : Fin 2048) : ridx_main_v26 (ix4 b n q d) k = ix4 b n k d := by
  funext a; exact Fin.ext (by match a with | ⟨0, _⟩ => rfl | ⟨1, _⟩ => rfl | ⟨2, _⟩ => rfl | ⟨3, _⟩ => rfl)

/-- Lane d of head n's output at position q: the softmax weights against the values. -/
theorem v26_ix4 (x0 : (⟨S2x2048x2048, .f32⟩ : BufTy).Contents (Elt Ideal)) (x1 : (⟨S6144x2048, .f32⟩ : BufTy).Contents (Elt Ideal)) (x2 : (⟨S6144, .f32⟩ : BufTy).Contents (Elt Ideal)) (b : Fin 2) (n : Fin 16) (q : Fin 2048) (d : Fin 128) :
    val_main_v26 (F := Ideal) x0 x1 x2 (ix4 b n q d) = headAt (val_main_v3 (F := Ideal) x0 x1 x2) b n q d := by
  rw [val_main_v26_apply]
  unfold headAt attnRow
  refine Finset.sum_congr rfl fun k _ => ?_
  rw [lidx26, ridx26, v25_ix4, v11_ix4]

/-- Column c of the merged heads is lane c % 128 of head c / 128. -/
theorem idx28 (b : Fin 2) (s : Fin 2048) (c : Fin 2048) :
    idx_main_v27 (idx_main_v28 (ix3 b s c))
      = ix4 b (⟨c.val / 128, by have h := c.isLt; omega⟩ : Fin 16) s (⟨c.val % 128, Nat.mod_lt _ (by decide)⟩ : Fin 128) := by
  funext a; refine Fin.ext ?_
  have hb := b.isLt; have hs := s.isLt; have hc := c.isLt
  match a with
  | ⟨0, _⟩ => show ((b.val * 2048 + s.val) * 2048 + c.val) / 4194304 = b.val; omega
  | ⟨1, _⟩ => show ((b.val * 2048 + s.val) * 2048 + c.val) / 128 % 16 = c.val / 128; omega
  | ⟨2, _⟩ => show ((b.val * 2048 + s.val) * 2048 + c.val) / 2048 % 2048 = s.val; omega
  | ⟨3, _⟩ => show ((b.val * 2048 + s.val) * 2048 + c.val) % 128 = c.val % 128; omega

/-- The merged heads at (b, s, c), over any fused projection. -/
theorem merged_at (Q : SQ.Idx → EReal) (b : Fin 2) (s : Fin 2048) (c : Fin 2048) :
    merged Q (ix3 b s c)
      = headAt Q b (⟨c.val / 128, by have h := c.isLt; omega⟩ : Fin 16) s (⟨c.val % 128, Nat.mod_lt _ (by decide)⟩ : Fin 128) := rfl

/-- The heads laid side by side. -/
theorem v28_ix3 (x0 : (⟨S2x2048x2048, .f32⟩ : BufTy).Contents (Elt Ideal)) (x1 : (⟨S6144x2048, .f32⟩ : BufTy).Contents (Elt Ideal)) (x2 : (⟨S6144, .f32⟩ : BufTy).Contents (Elt Ideal)) (b : Fin 2) (s : Fin 2048) (c : Fin 2048) :
    val_main_v28 (F := Ideal) x0 x1 x2 (ix3 b s c) = merged (val_main_v3 (F := Ideal) x0 x1 x2) (ix3 b s c) := by
  rw [val_main_v28_apply, val_main_v27_apply, idx28, v26_ix4, merged_at]

/-! ## The final projection and the layer -/

theorem lidx29 (b : Fin 2) (s : Fin 2048) (o : Fin 2048) (k : Fin 2048) : lidx_main_v29 (ix3 b s o) k = ix3 b s k := by
  funext a; exact Fin.ext (by match a with | ⟨0, _⟩ => rfl | ⟨1, _⟩ => rfl | ⟨2, _⟩ => rfl)
theorem ridx29 (b : Fin 2) (s : Fin 2048) (o : Fin 2048) (k : Fin 2048) : ridx_main_v29 (ix3 b s o) k = ix2 o k := by
  funext a; exact Fin.ext (by match a with | ⟨0, _⟩ => rfl | ⟨1, _⟩ => rfl)
theorem bidx31 (b : Fin 2) (s : Fin 2048) (o : Fin 2048) : idx_main_v30 (idx_main_v31 (ix3 b s o)) = ix1 o := by
  funext a; exact Fin.ext (by match a with | ⟨0, _⟩ => rfl)

/-- One entry of the result: row (b, s) of the merged heads against row o of the weight, plus the bias at o. -/
theorem v32_ix3 (x0 : (⟨S2x2048x2048, .f32⟩ : BufTy).Contents (Elt Ideal)) (x1 : (⟨S6144x2048, .f32⟩ : BufTy).Contents (Elt Ideal)) (x2 : (⟨S6144, .f32⟩ : BufTy).Contents (Elt Ideal))
    (x3 : (⟨S2048x2048, .f32⟩ : BufTy).Contents (Elt Ideal)) (x4 : (⟨S2048, .f32⟩ : BufTy).Contents (Elt Ideal))
    (b : Fin 2) (s : Fin 2048) (o : Fin 2048) :
    val_main_v32 (F := Ideal) x0 x1 x2 x3 x4 (ix3 b s o) = outAt (merged (val_main_v3 (F := Ideal) x0 x1 x2)) x3 x4 b s o := by
  rw [val_main_v32_apply, val_main_v29_apply, val_main_v31_apply, val_main_v30_apply, Ideal.addf_def, bidx31]
  unfold outAt linAt
  refine congrArg (· + _) (Finset.sum_congr rfl fun h _ => ?_)
  rw [lidx29, ridx29, v28_ix3]

/-- THE REFERENCE IS THE LAYER: its result, at the ideal values, is the specification's function of its five arguments. -/
theorem ref_layer (x0 : (⟨S2x2048x2048, .f32⟩ : BufTy).Contents (Elt Ideal)) (x1 : (⟨S6144x2048, .f32⟩ : BufTy).Contents (Elt Ideal)) (x2 : (⟨S6144, .f32⟩ : BufTy).Contents (Elt Ideal))
    (x3 : (⟨S2048x2048, .f32⟩ : BufTy).Contents (Elt Ideal)) (x4 : (⟨S2048, .f32⟩ : BufTy).Contents (Elt Ideal)) :
    val_main_v32 (F := Ideal) x0 x1 x2 x3 x4 = Cert.Attn.layer x0 x1 x2 x3 x4 := by
  funext i
  obtain ⟨b, s, o, rfl⟩ : ∃ (b : Fin 2) (s : Fin 2048) (o : Fin 2048), i = ix3 b s o := ⟨i 0, i 1, i 2, eq_ix3 i⟩
  rw [v32_ix3, v3_eq_qkv]
  unfold layer
  rw [out_ix3]

/-! ## The run -/

/-- Every weakly fair execution of the reference ends with its result buffer at the layer of its five argument arrays,
    the arguments unchanged. -/
theorem run_layer (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev nD,
        r.2.mem ((c.tc : Thread nD τ).loc main_v32) = Cert.Attn.layer (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) :=
  (θ_run _ _ _).mono (fun _ h c => ⟨by rw [(h c).1, Read.val_main_v32_eq, ref_layer], (h c).2⟩)
    (Cert.ReferenceIdeal.Value.run (F := Ideal) m ρ)

end Cert.ReferenceIdeal.Layer

end
-- ==== Proof.lean ====
/-
  The certificate of a self-attention layer computed by three kernel regions — a fused linear projection to
  queries, keys and values, an attention region over heads and query tiles, and a final linear projection —
  against its plain reference: einsum projections, a softmax over the scaled scores, the heads merged.

  At the ideal values both programs compute one function of the five arguments (`Cert.Attn.layer`): changes of
  float format are the identity, a tile's matrix product into a zero accumulator is the plain sum over the
  contracted coordinate, both sides take a row's maximum as the fold of `max` from the same start value and scale the
  scores by the same literal, and the kernel's tiles — row blocks of the flattened input, column blocks per head of
  the fused projection — cover each output array exactly once. No law of the extended reals beyond the re-indexing
  of finite sums is needed, so the precondition is not used.

  The frames: each region's body loads its input tiles whole and stores one pure value over its whole output tile;
  the regions and the host reshapes between them run in sequence, and no argument array is written. The attention
  region reads the fused projection through three windows, so that array's full share is split in three at the
  region's entry and joined at its exit.
-/
import proofs.«101674_j89970974917190_2_alg».proof.Defs
import proofs.«101674_j89970974917190_2_alg».proof.Proof.Gen.Kernel
import proofs.«101674_j89970974917190_2_alg».proof.Proof.Gen.KernelIdeal
import proofs.«101674_j89970974917190_2_alg».proof.Proof.Gen.ReferenceIdeal
import proofs.«101674_j89970974917190_2_alg».proof.Proof.Gen.Pre_finite_inputs
import proofs.«101674_j89970974917190_2_alg».proof.Proof.Gen.ReferenceIdeal.Read
import proofs.«101674_j89970974917190_2_alg».proof.Proof.RunK
import proofs.«101674_j89970974917190_2_alg».proof.Proof.RunI
import proofs.«101674_j89970974917190_2_alg».proof.Proof.Whole
import proofs.«101674_j89970974917190_2_alg».proof.Proof.RefLayer
import Idealize.ShloMosaic.Adequacy
import Idealize.ShloMosaic.Init

noncomputable section

namespace Cert.Proof

open Idealize.ShloMosaic Idealize.SL.Sem

/-- The kernel program as printed terminates without a fault and leaves its arguments unchanged. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- The reference is a straight line of host operations: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the layer of the arguments in their result buffers. -/
theorem algebraic : Cert.algebraic_KernelIdeal_ReferenceIdeal := by
  intro m ρ m' ρ' _ hagree
  refine ⟨fun c => Cert.Attn.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.Whole.result_eq m c), (h c).2⟩)
      (Cert.KernelIdeal.Hand.run_main (F := Ideal) m ρ)
  · refine (θ_run Cert.ReferenceIdeal.defs _ _).mono (fun _ h c => ⟨?_, (h c).2⟩)
      (Cert.ReferenceIdeal.Layer.run_layer m' ρ')
    rw [(h c).1, (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
